-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v160)) (v1 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_v145) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S400000x128 : Shape := ⟨2, ![400000, 128]⟩
abbrev S2x800000 : Shape := ⟨2, ![2, 800000]⟩
abbrev S800000 : Shape := ⟨1, ![800000]⟩
abbrev S400000 : Shape := ⟨1, ![400000]⟩
abbrev S128x128 : Shape := ⟨2, ![128, 128]⟩
abbrev S128 : Shape := ⟨1, ![128]⟩
abbrev S_ : Shape := ⟨0, ![]⟩
abbrev S100000 : Shape := ⟨1, ![100000]⟩
abbrev S1x1600000 : Shape := ⟨2, ![1, 1600000]⟩
abbrev S1600000x1 : Shape := ⟨2, ![1600000, 1]⟩
abbrev S1x800000 : Shape := ⟨2, ![1, 800000]⟩
abbrev S800000x1 : Shape := ⟨2, ![800000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S400000x128 : S_.BroadcastsInDim S400000x128 (![] : Fin 0 → Fin S400000x128.rank)
  reducesTo_S400000x128_S_d0_1 : S400000x128.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  reducesTo_S100000_S_d0 : S100000.ReducesTo [0] S_
  bcast_S_S400000 : S_.BroadcastsInDim S400000 (![] : Fin 0 → Fin S400000.rank)
  slices_S2x800000_S1x800000_0_0 : S2x800000.Slices ![0, 0] S1x800000
  shapeCasts_S1x800000_S800000 : S1x800000.ShapeCasts S800000
  bcast_S800000_S800000x1_0 : S800000.BroadcastsInDim S800000x1 (![0] : Fin 1 → Fin S800000x1.rank)
  reducesTo_S400000_S_d0 : S400000.ReducesTo [0] S_
  scatter_S100000_S1600000x1_S1600000_n_0_0_1_wf : ScatterDims.WF S100000 S1600000x1 S1600000 [] [0] [0] 1
  scatter_S400000_S800000x1_S800000_n_0_0_1_wf : ScatterDims.WF S400000 S800000x1 S800000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def fn_part5 {F : FTy → Type} [FloatOps F] (main_arg5 : FVec F S800000 .f32) (main_v82 : IVec S_ 1) (main_v83 : FVec F S400000 .f32) (main_v85 : IVec S800000 32) : IVec S_ 1 :=
  let main_v86 : IVec S800000x1 32 := broadcastInDim S800000x1 ![0] bcast_S800000_S800000x1_0 main_v85
  let main_v87 : FVec F S400000 .f32 := (fun x i u => Host.scatterAdd scatter_S400000_S800000x1_S800000_n_0_0_1 x i u) main_v83 main_v86 main_arg5
  let main_cst_32 : FVec F S_ .f32 := constant S_ .f32 0x3F000000#32
  let main_v88 : FVec F S400000 .f32 := broadcastInDim S400000 ![] bcast_S_S400000 main_cst_32
  let main_v89 : IVec S400000 1 := cmpf .olt main_v87 main_v88
  let main_cst_33 : FVec F S_ .f32 := constant S_ .f32 0x3F800000#32
  let main_v90 : FVec F S400000 .f32 := broadcastInDim S400000 ![] bcast_S_S400000 main_cst_33
  let main_v91 : FVec F S400000 .f32 := addf main_v87 main_v90
  let main_v92 : FVec F S400000 .f32 := select main_v89 main_v91 main_v87
  let main_cst_34 : FVec F S_ .f32 := constant S_ .f32 0x00000000#32
  let main_v93 : FVec F S400000 .f32 := broadcastInDim S400000 ![] bcast_S_S400000 main_cst_34
  let main_v94 : IVec S400000 1 := cmpf .ogt main_v92 main_v93
  let main_c_35 : IVec S_ 1 := constantI S_ 1 1#1
  let main_v95 : IVec S_ 1 := (fun x v => Host.reduce IntOp.andi x v reducesTo_S400000_S_d0 h_S_) main_v94 main_c_35
  let main_v96 : IVec S_ 1 := andi main_v82 main_v95
  main_v96

def fn_part4 {F : FTy → Type} [FloatOps F] (main_arg1 : IVec S2x1600000 32) (main_arg2 : FVec F S1600000 .f32) (main_arg4 : IVec S2x800000 32) (main_arg5 : FVec F S800000 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S100000 .f32 := broadcastInDim S100000 ![] bcast_S_S100000 main_cst_26
  let main_v70 : IVec S1x1600000 32 := (extractStridedSlice S1x1600000 ![0, 0] · slices_S2x1600000_S1x1600000_0_0) main_arg1
  let main_v71 : IVec S1600000 32 := shapeCast S1600000 main_v70 shapeCasts_S1x1600000_S1600000
  let main_v72 : IVec S1600000x1 32 := broadcastInDim S1600000x1 ![0] bcast_S1600000_S1600000x1_0 main_v71
  let main_v73 : FVec F S100000 .f32 := (fun x i u => Host.scatterAdd scatter_S100000_S1600000x1_S1600000_n_0_0_1 x i u) main_v69 main_v72 main_arg2
  let main_cst_27 : FVec F S_ .f32 := constant S_ .f32 0x3F000000#32
  let main_v74 : FVec F S100000 .f32 := broadcastInDim S100000 ![] bcast_S_S100000 main_cst_27
  let main_v75 : IVec S100000 1 := cmpf .olt main_v73 main_v74
  let main_cst_28 : FVec F S_ .f32 := constant S_ .f32 0x3F800000#32
  let main_v76 : FVec F S100000 .f32 := broadcastInDim S100000 ![] bcast_S_S100000 main_cst_28
  let main_v77 : FVec F S100000 .f32 := addf main_v73 main_v76
  let main_v78 : FVec F S100000 .f32 := select main_v75 main_v77 main_v73
  let main_cst_29 : FVec F S_ .f32 := constant S_ .f32 0x00000000#32
  let main_v79 : FVec F S100000 .f32 := broadcastInDim S100000 ![] bcast_S_S100000 main_cst_29
  let main_v80 : IVec S100000 1 := cmpf .ogt main_v78 main_v79
  let main_c_30 : IVec S_ 1 := constantI S_ 1 1#1
  let main_v81 : IVec S_ 1 := (fun x v => Host.reduce IntOp.andi x v reducesTo_S100000_S_d0 h_S_) main_v80 main_c_30
  let main_v82 : IVec S_ 1 := andi main_v68 main_v81
  let main_cst_31 : FVec F S_ .f32 := constant S_ .f32 0x00000000#32
  let main_v83 : FVec F S400000 .f32 := broadcastInDim S400000 ![] bcast_S_S400000 main_cst_31
  let main_v84 : IVec S1x800000 32 := (extractStridedSlice S1x800000 ![0, 0] · slices_S2x800000_S1x800000_0_0) main_arg4
  let main_v85 : IVec S800000 32 := shapeCast S800000 main_v84 shapeCasts_S1x800000_S800000
  fn_part5 (F := F) main_arg5 main_v82 main_v83 main_v85

def fn_part3 {F : FTy → Type} [FloatOps F] (main_arg1 : IVec S2x1600000 32) (main_arg2 : FVec F S1600000 .f32) (main_arg4 : IVec S2x800000 32) (main_arg5 : FVec F S800000 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg2 main_arg4 main_arg5 main_v63 main_v67

def fn_part2 {F : FTy → Type} [FloatOps F] (main_arg1 : IVec S2x1600000 32) (main_arg2 : FVec F S1600000 .f32) (main_arg4 : IVec S2x800000 32) (main_arg5 : FVec F S800000 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg1 main_arg2 main_arg4 main_arg5 main_arg14 main_arg15 main_arg16 main_v48 main_v49 main_v50

def fn_part1 {F : FTy → Type} [FloatOps F] (main_arg1 : IVec S2x1600000 32) (main_arg2 : FVec F S1600000 .f32) (main_arg4 : IVec S2x800000 32) (main_arg5 : FVec F S800000 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg4 main_arg5 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : FVec F S400000x128 .f32) (main_arg4 : IVec S2x800000 32) (main_arg5 : FVec F S800000 .f32) (main_arg6 : IVec S400000 32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S400000x128 .f32 := Host.absf main_arg3
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg1 main_arg2 main_arg4 main_arg5 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S400000x128 : Shape := ⟨2, ![400000, 128]⟩
abbrev S2x800000 : Shape := ⟨2, ![2, 800000]⟩
abbrev S800000 : Shape := ⟨1, ![800000]⟩
abbrev S400000 : Shape := ⟨1, ![400000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S25x1x128 : Shape := ⟨3, ![25, 1, 128]⟩
abbrev S4000x128 : Shape := ⟨2, ![4000, 128]⟩
abbrev S1x1x128 : Shape := ⟨3, ![1, 1, 128]⟩
abbrev S1x800000 : Shape := ⟨2, ![1, 800000]⟩
abbrev S800000x1 : Shape := ⟨2, ![800000, 1]⟩
abbrev S800000x128 : Shape := ⟨2, ![800000, 128]⟩
abbrev S100x1x128 : Shape := ⟨3, ![100, 1, 128]⟩
abbrev S400000x1 : Shape := ⟨2, ![400000, 1]⟩
abbrev S100000x1 : Shape := ⟨2, ![100000, 1]⟩

abbrev nBuf : Space → Nat
  | .hbm => 224
  | .vmem => 38
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S400000x128, .f32⟩
  | 4 => ⟨S2x800000, .i32⟩
  | 5 => ⟨S800000, .f32⟩
  | 6 => ⟨S400000, .i32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x1600000, .i32⟩
  | 54 => ⟨S1600000, .i32⟩
  | 55 => ⟨S1x1600000, .i32⟩
  | 56 => ⟨S1600000, .i32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x128, .f32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S128x128, .f32⟩
  | 74 => ⟨S1x128, .f32⟩
  | 75 => ⟨S100000x128, .f32⟩
  | 76 => ⟨S25x1x128, .f32⟩
  | 77 => ⟨S25x1x128, .f32⟩
  | 78 => ⟨S_, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S1x800000, .i32⟩
  | 102 => ⟨S800000, .i32⟩
  | 103 => ⟨S1x800000, .i32⟩
  | 104 => ⟨S800000, .i32⟩
  | 105 => ⟨S_, .f32⟩
  | 106 => ⟨S400000, .f32⟩
  | 107 => ⟨S800000x1, .i32⟩
  | 108 => ⟨S400000, .f32⟩
  | 109 => ⟨S_, .f32⟩
  | 110 => ⟨S400000, .f32⟩
  | 111 => ⟨S400000, .i1⟩
  | 112 => ⟨S_, .f32⟩
  | 113 => ⟨S400000, .f32⟩
  | 114 => ⟨S400000, .f32⟩
  | 115 => ⟨S400000, .f32⟩
  | 116 => ⟨S400000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S800000, .f32⟩
  | 127 => ⟨S_, .i32⟩
  | _ => ⟨S100000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S1x800000, .i32⟩
  | 10 => ⟨S800000, .i32⟩
  | 11 => ⟨S1x800000, .i32⟩
  | 12 => ⟨S800000, .i32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S400000x128, .f32⟩
  | 27 => ⟨S800000x1, .i32⟩
  | 28 => ⟨S400000x128, .f32⟩
  | 29 => ⟨S128x128, .f32⟩
  | 30 => ⟨S1x128, .f32⟩
  | 31 => ⟨S400000x128, .f32⟩
  | 32 => ⟨S100x1x128, .f32⟩
  | 33 => ⟨S100x1x128, .f32⟩
  | 34 => ⟨S_, .f32⟩
  | 35 => ⟨S1x128, .f32⟩
  | 36 => ⟨S_, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S400000x128, .f32⟩
  | 57 => ⟨S_, .f32⟩
  | 58 => ⟨S400000x128, .f32⟩
  | 59 => ⟨S400000x128, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x128, .f32⟩
  | 69 => ⟨S_, .f32⟩
  | 70 => ⟨S400000x128, .f32⟩
  | 71 => ⟨S400000x128, .f32⟩
  | 72 => ⟨S400000x128, .f32⟩
  | 73 => ⟨S_, .f32⟩
  | 74 => ⟨S100000x128, .f32⟩
  | 75 => ⟨S400000x1, .i32⟩
  | 76 => ⟨S100000x128, .f32⟩
  | 77 => ⟨S_, .f32⟩
  | 78 => ⟨S400000x1, .f32⟩
  | 79 => ⟨S_, .f32⟩
  | 80 => ⟨S100000x1, .f32⟩
  | 81 => ⟨S400000x1, .i32⟩
  | 82 => ⟨S100000x1, .f32⟩
  | 83 => ⟨S_, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S128x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S4000x128, .f32⟩
  | .local _ .vmem, ⟨30, _⟩ => ⟨S4000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48_0 : Ref sig .tc := ⟨.hbm, 75, rfl⟩
abbrev main_v48_1 : Ref sig .tc := ⟨.hbm, 76, rfl⟩
abbrev main_v48_2 : Ref sig .tc := ⟨.hbm, 77, rfl⟩
abbrev main_cst_8 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_16 : Ref sig .tc := ⟨.hbm, 117, rfl⟩
abbrev main_v80 : Ref sig .tc := ⟨.hbm, 118, rfl⟩
abbrev main_v81 : Ref sig .tc := ⟨.hbm, 119, rfl⟩
abbrev main_c_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_20 : Ref sig .tc := ⟨.hbm, 142, rfl⟩
abbrev main_v101 : Ref sig .tc := ⟨.hbm, 143, rfl⟩
abbrev main_v102 : Ref sig .tc := ⟨.hbm, 144, rfl⟩
abbrev main_c_21 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115_0 : Ref sig .tc := ⟨.hbm, 159, rfl⟩
abbrev main_v115_1 : Ref sig .tc := ⟨.hbm, 160, rfl⟩
abbrev main_v115_2 : Ref sig .tc := ⟨.hbm, 161, rfl⟩
abbrev main_cst_23 : Ref sig .tc := ⟨.hbm, 162, rfl⟩
abbrev main_v116 : Ref sig .tc := ⟨.hbm, 163, rfl⟩
abbrev main_cst_24 : Ref sig .tc := ⟨.hbm, 164, rfl⟩
abbrev main_v117 : Ref sig .tc := ⟨.hbm, 165, rfl⟩
abbrev main_v118 : Ref sig .tc := ⟨.hbm, 166, rfl⟩
abbrev main_cst_25 : Ref sig .tc := ⟨.hbm, 167, rfl⟩
abbrev main_v119 : Ref sig .tc := ⟨.hbm, 168, rfl⟩
abbrev main_v120 : Ref sig .tc := ⟨.hbm, 169, rfl⟩
abbrev main_cst_26 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_27 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_28 : Ref sig .tc := ⟨.hbm, 185, rfl⟩
abbrev main_v134 : Ref sig .tc := ⟨.hbm, 186, rfl⟩
abbrev main_v135 : Ref sig .tc := ⟨.hbm, 187, rfl⟩
abbrev main_c_29 : Ref sig .tc := ⟨.hbm, 188, rfl⟩
abbrev main_v136 : Ref sig .tc := ⟨.hbm, 189, rfl⟩
abbrev main_v137 : Ref sig .tc := ⟨.hbm, 190, rfl⟩
abbrev main_c_30 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_31 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_32 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_33 : Ref sig .tc := ⟨.hbm, 205, rfl⟩
abbrev main_v149 : Ref sig .tc := ⟨.hbm, 206, rfl⟩
abbrev main_cst_34 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_35 : Ref sig .tc := ⟨.hbm, 211, rfl⟩
abbrev main_call2_v0 : Ref sig .tc := ⟨.hbm, 212, rfl⟩
abbrev main_call2_v1 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_36 : Ref sig .tc := ⟨.hbm, 217, rfl⟩
abbrev main_v156 : Ref sig .tc := ⟨.hbm, 218, rfl⟩
abbrev main_v157 : Ref sig .tc := ⟨.hbm, 219, rfl⟩
abbrev main_cst_37 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S25x1x128_S1x128_d0 : S25x1x128.ReducesTo [0] S1x128
  h_S_ : 0 < S_.numel
  bcast_S_S1x128 : S_.BroadcastsInDim S1x128 (![] : Fin 0 → Fin S1x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S400000 : S_.BroadcastsInDim S400000 (![] : Fin 0 → Fin S400000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  reducesTo_S100x1x128_S1x128_d0 : S100x1x128.ReducesTo [0] S1x128
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S400000_S800000x1_S800000_n_0_0_1_wf : ScatterDims.WF S400000 S800000x1 S800000 [] [0] [0] 1
  gather_S400000_S800000x1_S800000_n_0_n_n_0_1_1_wf : GatherDims.WF S400000 S800000x1 S800000 [] [0] [] [0] [] 1 ![1]
  gather_S400000x128_S800000x1_S800000x128_1_0_n_n_0_1_1128_wf : GatherDims.WF S400000x128 S800000x1 S800000x128 [1] [0] [] [0] [] 1 ![1, 128]
  scatter_S400000x128_S800000x1_S800000x128_1_0_0_1_wf : ScatterDims.WF S400000x128 S800000x1 S800000x128 [1] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S25x1x128.size a
  hwx0_4 : ∀ i : grid0.Coords, EltTy.bits .f32 = 32 ∨ (Rect.block (s := S25x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S25x1x128.size a
  hwx0_5 : ∀ i : grid0.Coords, EltTy.bits .f32 = 32 ∨ (Rect.block (s := S25x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S400000x128.size a
  hwx2_3 : ∀ i : grid2.Coords, EltTy.bits .f32 = 32 ∨ (Rect.block (s := S400000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S100x1x128.size a
  hwx2_4 : ∀ i : grid2.Coords, EltTy.bits .f32 = 32 ∨ (Rect.block (s := S100x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S100x1x128.size a
  hwx2_5 : ∀ i : grid2.Coords, EltTy.bits .f32 = 32 ∨ (Rect.block (s := S100x1x128) S1x1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S400000x128.size a
  hwx3_6 : ∀ i : grid3.Coords, EltTy.bits .f32 = 32 ∨ (Rect.block (s := S400000x128) S4000x128.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def gather_S400000_S800000x1_S800000_n_0_n_n_0_1_1 : GatherDims S400000 S800000x1 S800000 where
  offsetDims := []
  collapsedSliceDims := [0]
  operandBatchingDims := []
  startIndicesBatchingDims := []
  startIndexMap := [0]
  indexVectorDim := 1
  sliceSizes := ![1]
  wf := gather_S400000_S800000x1_S800000_n_0_n_n_0_1_1_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf

abbrev win0_0 : Pipeline.Window sig grid0 :=
  Pipeline.Window.ofSpec (Memref.whole main_v45) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v112) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v113) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v114) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v115_0) S4000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v115_1) S1x1x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v115_2) S1x1x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v115_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v120) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v129) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v130) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v131) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v132) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v133) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S400000x128 : Shape := ⟨2, ![400000, 128]⟩
abbrev S2x800000 : Shape := ⟨2, ![2, 800000]⟩
abbrev S800000 : Shape := ⟨1, ![800000]⟩
abbrev S400000 : Shape := ⟨1, ![400000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S1x800000 : Shape := ⟨2, ![1, 800000]⟩
abbrev S800000x1 : Shape := ⟨2, ![800000, 1]⟩
abbrev S800000x128 : Shape := ⟨2, ![800000, 128]⟩
abbrev S400000x1 : Shape := ⟨2, ![400000, 1]⟩
abbrev S100000x1 : Shape := ⟨2, ![100000, 1]⟩

abbrev nBuf : Space → Nat
  | .hbm => 242
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S400000x128, .f32⟩
  | 4 => ⟨S2x800000, .i32⟩
  | 5 => ⟨S800000, .f32⟩
  | 6 => ⟨S400000, .i32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x1600000, .i32⟩
  | 54 => ⟨S1600000, .i32⟩
  | 55 => ⟨S1x1600000, .i32⟩
  | 56 => ⟨S1600000, .i32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x128, .f32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S128x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S100000x128, .f32⟩
  | 97 => ⟨S100000x128, .f32⟩
  | 98 => ⟨S_, .f32⟩
  | 99 => ⟨S1x128, .f32⟩
  | 100 => ⟨S1x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x800000, .i32⟩
  | 111 => ⟨S800000, .i32⟩
  | 112 => ⟨S1x800000, .i32⟩
  | 113 => ⟨S800000, .i32⟩
  | 114 => ⟨S_, .f32⟩
  | 115 => ⟨S400000, .f32⟩
  | 116 => ⟨S800000x1, .i32⟩
  | 117 => ⟨S400000, .f32⟩
  | 118 => ⟨S_, .f32⟩
  | 119 => ⟨S400000, .f32⟩
  | 120 => ⟨S400000, .i1⟩
  | 121 => ⟨S_, .f32⟩
  | 122 => ⟨S400000, .f32⟩
  | 123 => ⟨S400000, .f32⟩
  | 124 => ⟨S400000, .f32⟩
  | 125 => ⟨S400000, .f32⟩
  | 126 => ⟨S_, .i32⟩
  | 127 => ⟨S800000, .i32⟩
  | _ => ⟨S100000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S1x800000, .i32⟩
  | 19 => ⟨S800000, .i32⟩
  | 20 => ⟨S1x800000, .i32⟩
  | 21 => ⟨S800000, .i32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S400000x128, .f32⟩
  | 36 => ⟨S800000x1, .i32⟩
  | 37 => ⟨S400000x128, .f32⟩
  | 38 => ⟨S128x128, .f32⟩
  | 39 => ⟨S400000x128, .f32⟩
  | 40 => ⟨S1x128, .f32⟩
  | 41 => ⟨S400000x128, .f32⟩
  | 42 => ⟨S400000x128, .f32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S400000x128, .f32⟩
  | 52 => ⟨S400000x128, .f32⟩
  | 53 => ⟨S400000x128, .f32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S400000x128, .f32⟩
  | 62 => ⟨S400000x128, .f32⟩
  | 63 => ⟨S_, .f32⟩
  | 64 => ⟨S1x128, .f32⟩
  | 65 => ⟨S1x128, .f32⟩
  | 66 => ⟨S1x128, .f32⟩
  | 67 => ⟨S400000x128, .f32⟩
  | 68 => ⟨S400000x128, .f32⟩
  | 69 => ⟨S1x128, .f32⟩
  | 70 => ⟨S400000x128, .f32⟩
  | 71 => ⟨S400000x128, .f32⟩
  | 72 => ⟨S_, .f32⟩
  | 73 => ⟨S400000x128, .f32⟩
  | 74 => ⟨S400000x128, .f32⟩
  | 75 => ⟨S_, .f32⟩
  | 76 => ⟨S400000x128, .f32⟩
  | 77 => ⟨S400000x128, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .f32⟩
  | 87 => ⟨S_, .f32⟩
  | 88 => ⟨S400000x128, .f32⟩
  | 89 => ⟨S400000x128, .f32⟩
  | 90 => ⟨S400000x128, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S400000x1, .i32⟩
  | 97 => ⟨S100000x128, .f32⟩
  | 98 => ⟨S_, .f32⟩
  | 99 => ⟨S400000x1, .f32⟩
  | 100 => ⟨S_, .f32⟩
  | 101 => ⟨S100000x1, .f32⟩
  | 102 => ⟨S400000x1, .i32⟩
  | 103 => ⟨S100000x1, .f32⟩
  | 104 => ⟨S_, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call1_cst : Ref sig .tc := ⟨.hbm, 107, rfl⟩
abbrev main_call1_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_16 : Ref sig .tc := ⟨.hbm, 126, rfl⟩
abbrev main_v89 : Ref sig .tc := ⟨.hbm, 127, rfl⟩
abbrev main_v90 : Ref sig .tc := ⟨.hbm, 128, rfl⟩
abbrev main_c_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_20 : Ref sig .tc := ⟨.hbm, 151, rfl⟩
abbrev main_v110 : Ref sig .tc := ⟨.hbm, 152, rfl⟩
abbrev main_v111 : Ref sig .tc := ⟨.hbm, 153, rfl⟩
abbrev main_c_21 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_22 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_v127 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_25 : Ref sig .tc := ⟨.hbm, 182, rfl⟩
abbrev main_v136 : Ref sig .tc := ⟨.hbm, 183, rfl⟩
abbrev main_v137 : Ref sig .tc := ⟨.hbm, 184, rfl⟩
abbrev main_cst_26 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_27 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_call3_cst : Ref sig .tc := ⟨.hbm, 200, rfl⟩
abbrev main_call3_v0 : Ref sig .tc := ⟨.hbm, 201, rfl⟩
abbrev main_v151 : Ref sig .tc := ⟨.hbm, 202, rfl⟩
abbrev main_cst_28 : Ref sig .tc := ⟨.hbm, 203, rfl⟩
abbrev main_v152 : Ref sig .tc := ⟨.hbm, 204, rfl⟩
abbrev main_v153 : Ref sig .tc := ⟨.hbm, 205, rfl⟩
abbrev main_c_29 : Ref sig .tc := ⟨.hbm, 206, rfl⟩
abbrev main_v154 : Ref sig .tc := ⟨.hbm, 207, rfl⟩
abbrev main_v155 : Ref sig .tc := ⟨.hbm, 208, rfl⟩
abbrev main_c_30 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_31 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_32 : Ref sig .tc := ⟨.hbm, 219, rfl⟩
abbrev main_v164 : Ref sig .tc := ⟨.hbm, 220, rfl⟩
abbrev main_v165 : Ref sig .tc := ⟨.hbm, 221, rfl⟩
abbrev main_cst_33 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_34 : Ref sig .tc := ⟨.hbm, 226, rfl⟩
abbrev main_v169 : Ref sig .tc := ⟨.hbm, 227, rfl⟩
abbrev main_cst_35 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_36 : Ref sig .tc := ⟨.hbm, 232, rfl⟩
abbrev main_call4_v0 : Ref sig .tc := ⟨.hbm, 233, rfl⟩
abbrev main_call4_v1 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_cst_37 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S400000 : S_.BroadcastsInDim S400000 (![] : Fin 0 → Fin S400000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S1x128_S400000x128_0_1 : S1x128.BroadcastsInDim S400000x128 (![0, 1] : Fin 2 → Fin S400000x128.rank)
  reducesTo_S400000x128_S128_d0 : S400000x128.ReducesTo [0] S128
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S400000_S800000x1_S800000_n_0_0_1_wf : ScatterDims.WF S400000 S800000x1 S800000 [] [0] [0] 1
  gather_S400000_S800000x1_S800000_n_0_n_n_0_1_1_wf : GatherDims.WF S400000 S800000x1 S800000 [] [0] [] [0] [] 1 ![1]
  gather_S400000x128_S800000x1_S800000x128_1_0_n_n_0_1_1128_wf : GatherDims.WF S400000x128 S800000x1 S800000x128 [1] [0] [] [0] [] 1 ![1, 128]
  scatter_S400000x128_S800000x1_S800000x128_1_0_0_1_wf : ScatterDims.WF S400000x128 S800000x1 S800000x128 [1] [0] [0] 1
  dot_S400000x128_S128x128_S400000x128_1_0_0_1_n_n_wf : DotDims.WF S400000x128 S128x128 S400000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def gather_S400000_S800000x1_S800000_n_0_n_n_0_1_1 : GatherDims S400000 S800000x1 S800000 where
  offsetDims := []
  collapsedSliceDims := [0]
  operandBatchingDims := []
  startIndicesBatchingDims := []
  startIndexMap := [0]
  indexVectorDim := 1
  sliceSizes := ![1]
  wf := gather_S400000_S800000x1_S800000_n_0_n_n_0_1_1_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf

class Facts : Prop extends Facts₀ where

variable [Facts]
-- ==== Proof.KRun.lean ====
/-
  The kernel program's run, re-posted with its two result arrays named: every weakly fair execution ends with the
  results at what the last stretch of host operations leaves (the fold `W15` of the segments over the launch
  memory), and the argument arrays as launched.
-/
import proofs.«151024_j31044023616095_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_results : θ_run defs (onTc (τ := τ) (main (F := F))) ⟨m, fun _ => 0, ρ⟩ (fun r => ∀ c : Dev nD,
      r.2.mem ((c.tc : Thread nD τ).loc main_v160) = W15 m ρ c (Proc.devRef .tc main_v160)
      ∧ r.2.mem ((c.tc : Thread nD τ).loc main_v145) = W15 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v160 (by decide)), h c _ (mem_uc main_v145 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c)⟩)

end Cert.KernelIdeal.KRun

end
-- ==== Proof.KHost.lean ====
/-
  Which buffers the stretches of host operations and the regions leave alone: an argument array read at a later
  segment boundary is the launch memory's, and a region's output read after later segments is what that region left.
-/
import proofs.«151024_j31044023616095_2_alg».proof.Proof.Gen.KernelIdeal.Frame
import Idealize.ShloMosaic.PureOps.Ideal
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W10_arg14 (c : Dev nD) : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := StableHlo.after_of_forall_not_mem (b := Proc.devRef .tc main_arg14) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W10_arg15 (c : Dev nD) : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := StableHlo.after_of_forall_not_mem (b := Proc.devRef .tc main_arg15) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W10_arg16 (c : Dev nD) : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := StableHlo.after_of_forall_not_mem (b := Proc.devRef .tc main_arg16) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W12_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W0_arg0 (c : Dev nD) : W0 m ρ c (Proc.devRef .tc main_arg0) = m ((c : Thread nD τ).loc main_arg0) :=
  calc W0 m ρ c (Proc.devRef .tc main_arg0)
    _ = m ((c : Thread nD τ).loc main_arg0) := rfl

theorem W0_arg1 (c : Dev nD) : W0 m ρ c (Proc.devRef .tc main_arg1) = m ((c : Thread nD τ).loc main_arg1) :=
  calc W0 m ρ c (Proc.devRef .tc main_arg1)
    _ = m ((c : Thread nD τ).loc main_arg1) := rfl

theorem W0_arg2 (c : Dev nD) : W0 m ρ c (Proc.devRef .tc main_arg2) = m ((c : Thread nD τ).loc main_arg2) :=
  calc W0 m ρ c (Proc.devRef .tc main_arg2)
    _ = m ((c : Thread nD τ).loc main_arg2) := rfl

theorem W0_arg7 (c : Dev nD) : W0 m ρ c (Proc.devRef .tc main_arg7) = m ((c : Thread nD τ).loc main_arg7) :=
  calc W0 m ρ c (Proc.devRef .tc main_arg7)
    _ = m ((c : Thread nD τ).loc main_arg7) := rfl

theorem W0_arg8 (c : Dev nD) : W0 m ρ c (Proc.devRef .tc main_arg8) = m ((c : Thread nD τ).loc main_arg8) :=
  calc W0 m ρ c (Proc.devRef .tc main_arg8)
    _ = m ((c : Thread nD τ).loc main_arg8) := rfl

theorem W12_v66 (c : Dev nD) : W12 m ρ c (Proc.devRef .tc main_v66) = W6 m ρ c (Proc.devRef .tc main_v66) :=
  calc W12 m ρ c (Proc.devRef .tc main_v66)
    _ = W11 m ρ c (Proc.devRef .tc main_v66) := W12_of_ne m ρ c main_v66 (by decide)
    _ = W10 m ρ c (Proc.devRef .tc main_v66) := StableHlo.after_of_forall_not_mem (b := Proc.devRef .tc main_v66) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v66) := W10_of_ne m ρ c main_v66 (by decide)
    _ = W8 m ρ c (Proc.devRef .tc main_v66) := StableHlo.after_of_forall_not_mem (b := Proc.devRef .tc main_v66) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v66) := StableHlo.after_of_forall_not_mem (b := Proc.devRef .tc main_v66) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v66) := StableHlo.after_of_forall_not_mem (b := Proc.devRef .tc main_v66) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v48_0 (c : Dev nD) : W5 m ρ c (Proc.devRef .tc main_v48_0) = W4 m ρ c (Proc.devRef .tc main_v48_0) :=
  calc W5 m ρ c (Proc.devRef .tc main_v48_0)
    _ = W4 m ρ c (Proc.devRef .tc main_v48_0) := StableHlo.after_of_forall_not_mem (b := Proc.devRef .tc main_v48_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_v115_0 (c : Dev nD) : W11 m ρ c (Proc.devRef .tc main_v115_0) = W10 m ρ c (Proc.devRef .tc main_v115_0) :=
  calc W11 m ρ c (Proc.devRef .tc main_v115_0)
    _ = W10 m ρ c (Proc.devRef .tc main_v115_0) := StableHlo.after_of_forall_not_mem (b := Proc.devRef .tc main_v115_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

end Cert.KernelIdeal.KHost

end
-- ==== Proof.KPrelude.lean ====
/-
  The host operations before each linear layer (degrees, normalised edge coefficients, the gathered and
  scattered messages) are the same operations in both programs: the kernel program's buffers after them hold the
  reference's stage terms of the argument arrays.
-/
import proofs.«151024_j31044023616095_2_alg».proof.Proof.Gen.KernelIdeal.Frame
import proofs.«151024_j31044023616095_2_alg».proof.Proof.Gen.ReferenceIdeal.Read
import proofs.«151024_j31044023616095_2_alg».proof.Proof.KHost
import Idealize.ShloMosaic.PureOps.Ideal
import Idealize.ShloMosaic.Lib.StableHlo.Run
import Idealize.ShloMosaic.Lib.ValueIdx
import Idealize.ShloMosaic.Lib.ValueLayout

set_option maxRecDepth 16384

noncomputable section

namespace Cert.KernelIdeal.KPrelude

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

open Cert.ReferenceIdeal.Read Cert.KernelIdeal.KHost

/-! ## Base graph: the degree stage -/
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem W1_v6 (c : Dev nD) : W1 m ρ c (Proc.devRef .tc main_v6) = val_main_v6 (F := Ideal) (m ((c : Thread nD τ).loc main_arg1)) (m ((c : Thread nD τ).loc main_arg2)) := by
  show StableHlo.after hostOps0 (W0 m ρ c) (Proc.devRef .tc main_v6) = _
  after_results_simp
  rfl

theorem W1_v8 (c : Dev nD) : W1 m ρ c (Proc.devRef .tc main_v8) = val_main_v8 (F := Ideal) (m ((c : Thread nD τ).loc main_arg1)) (m ((c : Thread nD τ).loc main_arg2)) := by
  show StableHlo.after hostOps0 (W0 m ρ c) (Proc.devRef .tc main_v8) = _
  after_results_simp
  rfl

theorem W1_v10 (c : Dev nD) : W1 m ρ c (Proc.devRef .tc main_v10) = val_main_v10 (F := Ideal) (m ((c : Thread nD τ).loc main_arg1)) (m ((c : Thread nD τ).loc main_arg2)) := by
  show StableHlo.after hostOps0 (W0 m ρ c) (Proc.devRef .tc main_v10) = _
  after_results_simp
  rfl

/-! ## Local graph: the degree stage -/
theorem W7_v68 (c : Dev nD) : W7 m ρ c (Proc.devRef .tc main_v68) = val_main_v77 (F := Ideal) (m ((c : Thread nD τ).loc main_arg4)) := by
  show StableHlo.after hostOps2 (W6 m ρ c) (Proc.devRef .tc main_v68) = _
  after_results_simp
  rw [W6_arg4 m ρ c]
  rfl

theorem W7_v70 (c : Dev nD) : W7 m ρ c (Proc.devRef .tc main_v70) = val_main_v79 (F := Ideal) (m ((c : Thread nD τ).loc main_arg4)) := by
  show StableHlo.after hostOps2 (W6 m ρ c) (Proc.devRef .tc main_v70) = _
  after_results_simp
  rw [W6_arg4 m ρ c]
  rfl

theorem W7_v73 (c : Dev nD) : W7 m ρ c (Proc.devRef .tc main_v73) = val_main_v82 (F := Ideal) (m ((c : Thread nD τ).loc main_arg4)) (m ((c : Thread nD τ).loc main_arg5)) := by
  show StableHlo.after hostOps2 (W6 m ρ c) (Proc.devRef .tc main_v73) = _
  after_results_simp
  rw [W6_arg4 m ρ c, W6_arg5 m ρ c]
  rfl

theorem W7_v75 (c : Dev nD) : W7 m ρ c (Proc.devRef .tc main_v75) = val_main_v84 (F := Ideal) (m ((c : Thread nD τ).loc main_arg4)) (m ((c : Thread nD τ).loc main_arg5)) := by
  show StableHlo.after hostOps2 (W6 m ρ c) (Proc.devRef .tc main_v75) = _
  after_results_simp
  rw [W6_arg4 m ρ c, W6_arg5 m ρ c]
  rfl

theorem W7_v77 (c : Dev nD) : W7 m ρ c (Proc.devRef .tc main_v77) = val_main_v86 (F := Ideal) (m ((c : Thread nD τ).loc main_arg4)) (m ((c : Thread nD τ).loc main_arg5)) := by
  show StableHlo.after hostOps2 (W6 m ρ c) (Proc.devRef .tc main_v77) = _
  after_results_simp
  rw [W6_arg4 m ρ c, W6_arg5 m ρ c]
  rfl

/-! ## The aggregated features, the transposed weight and the bias row -/

theorem W3_v45 (c : Dev nD) : W3 m ρ c (Proc.devRef .tc main_v45) = val_main_v45 (F := Ideal) (m ((c : Thread nD τ).loc main_arg0)) (m ((c : Thread nD τ).loc main_arg1)) (m ((c : Thread nD τ).loc main_arg2)) := by
  show StableHlo.after hostOps0_2 (StableHlo.after hostOps0_1 (W1 m ρ c)) (Proc.devRef .tc main_v45) = _
  have e1 := W1_v1 m ρ c
  have e3 := W1_v3 m ρ c
  have e6 := W1_v6 m ρ c
  have e8 := W1_v8 m ρ c
  have e10 := W1_v10 m ρ c
  have ea0 := W1_arg0 m ρ c
  have ea1 := W1_arg1 m ρ c
  have ea2 := W1_arg2 m ρ c
  generalize W1 m ρ c = w1 at *
  after_results_simp
  simp only [TRef.toBuf, TRef.ofBuf, cast_eq, e1, e3, e6, e8, e10, ea0, ea1, ea2]
  rfl

theorem W3_v46 (c : Dev nD) : W3 m ρ c (Proc.devRef .tc main_v46) = val_main_v46 (F := Ideal) (m ((c : Thread nD τ).loc main_arg7)) := by
  show StableHlo.after hostOps0_2 (StableHlo.after hostOps0_1 (StableHlo.after hostOps0 (W0 m ρ c))) (Proc.devRef .tc main_v46) = _
  after_results_simp
  rfl

theorem W3_v47 (c : Dev nD) : W3 m ρ c (Proc.devRef .tc main_v47) = shapeCast S1x128 (m ((c : Thread nD τ).loc main_arg8)) shapeCasts_S128_S1x128 := by
  show StableHlo.after hostOps0_2 (StableHlo.after hostOps0_1 (StableHlo.after hostOps0 (W0 m ρ c))) (Proc.devRef .tc main_v47) = _
  after_results_simp
  rfl

theorem W9_v112 (c : Dev nD) : W9 m ρ c (Proc.devRef .tc main_v112) = val_main_v121 (F := Ideal) (m ((c : Thread nD τ).loc main_arg3)) (m ((c : Thread nD τ).loc main_arg4)) (m ((c : Thread nD τ).loc main_arg5)) := by
  show StableHlo.after hostOps2_2 (StableHlo.after hostOps2_1 (W7 m ρ c)) (Proc.devRef .tc main_v112) = _
  have e1 := W7_v68 m ρ c
  have e3 := W7_v70 m ρ c
  have e6 := W7_v73 m ρ c
  have e8 := W7_v75 m ρ c
  have e10 := W7_v77 m ρ c
  have ea3 := W7_arg3 m ρ c
  have ea4 := W7_arg4 m ρ c
  have ea5 := W7_arg5 m ρ c
  generalize W7 m ρ c = w7 at *
  after_results_simp
  simp only [TRef.toBuf, TRef.ofBuf, cast_eq, e1, e3, e6, e8, e10, ea3, ea4, ea5]
  rfl

theorem W9_v113 (c : Dev nD) : W9 m ρ c (Proc.devRef .tc main_v113) = val_main_v122 (F := Ideal) (m ((c : Thread nD τ).loc main_arg9)) := by
  show StableHlo.after hostOps2_2 (StableHlo.after hostOps2_1 (StableHlo.after hostOps2 (W6 m ρ c))) (Proc.devRef .tc main_v113) = _
  have ea := W6_arg9 m ρ c
  generalize W6 m ρ c = w6 at *
  after_results_simp
  simp only [ea]
  rfl

theorem W9_v114 (c : Dev nD) : W9 m ρ c (Proc.devRef .tc main_v114) = shapeCast S1x128 (m ((c : Thread nD τ).loc main_arg10)) shapeCasts_S128_S1x128 := by
  show StableHlo.after hostOps2_2 (StableHlo.after hostOps2_1 (StableHlo.after hostOps2 (W6 m ρ c))) (Proc.devRef .tc main_v114) = _
  have ea := W6_arg10 m ρ c
  generalize W6 m ρ c = w6 at *
  after_results_simp
  simp only [ea]
  rfl

/-! ## The weight and bias buffers at an index: the weight buffer holds the transpose, the bias buffer the row -/

open Idealize.ShloMosaic.ValueIdx in
theorem W3_v46_apply (c : Dev nD) (k j : Fin 128) :
    (W3 m ρ c (Proc.devRef .tc main_v46) : S128x128.Idx → EReal) (ix2 k j) = ((m ((c : Thread nD τ).loc main_arg7)) : S128x128.Idx → EReal) (ix2 j k) := by
  rw [W3_v46]
  exact (val_main_v46_apply _ _).trans (congrArg _ (funext fun a => by match a with | ⟨0, _⟩ => rfl | ⟨1, _⟩ => rfl))

open Idealize.ShloMosaic.ValueIdx in
theorem W3_v47_apply (c : Dev nD) (j : Fin 128) :
    (W3 m ρ c (Proc.devRef .tc main_v47) : S1x128.Idx → EReal) (ix2 (0 : Fin 1) j) = ((m ((c : Thread nD τ).loc main_arg8)) : S128.Idx → EReal) (ix1 j) := by
  rw [W3_v47]
  exact shapeCast_a_1a_apply _ _ 0 j

open Idealize.ShloMosaic.ValueIdx in
theorem W9_v113_apply (c : Dev nD) (k j : Fin 128) :
    (W9 m ρ c (Proc.devRef .tc main_v113) : S128x128.Idx → EReal) (ix2 k j) = ((m ((c : Thread nD τ).loc main_arg9)) : S128x128.Idx → EReal) (ix2 j k) := by
  rw [W9_v113]
  exact (val_main_v122_apply _ _).trans (congrArg _ (funext fun a => by match a with | ⟨0, _⟩ => rfl | ⟨1, _⟩ => rfl))

open Idealize.ShloMosaic.ValueIdx in
theorem W9_v114_apply (c : Dev nD) (j : Fin 128) :
    (W9 m ρ c (Proc.devRef .tc main_v114) : S1x128.Idx → EReal) (ix2 (0 : Fin 1) j) = ((m ((c : Thread nD τ).loc main_arg10)) : S128.Idx → EReal) (ix1 j) := by
  rw [W9_v114]
  exact shapeCast_a_1a_apply _ _ 0 j

end Cert.KernelIdeal.KPrelude

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.Consts.lean ====
import Idealize.ShloMosaic.PureOps.Ideal
import proofs.«151024_j31044023616095_2_alg».proof.Proof.LibMoment

/-!
# The float constants, as the extended reals their patterns denote

Each 32-bit pattern below is a normal binary32 number: sign `0`, biased exponent `E` and
trailing significand `T` denote `(2^23 + T) · 2^(E - 150)`. One module states them all.
-/

noncomputable section

namespace Cert.Consts

open Idealize.ShloMosaic

/-- `100000.0`: `E = 143`, `T = 4411392`, so `12800000 · 2^(-7) = 100000`. -/
theorem ofBits_1e5 : Ideal.ofBits .f32 0x47C35000#32 = ((100000 : ℝ) : EReal) := by
  simp [Ideal.ofBits, Ideal.ieee, -EReal.coe_mul]; norm_num

/-- `400000.0`: `E = 145`, `T = 4411392`, so `12800000 · 2^(-5) = 400000`. -/
theorem ofBits_4e5 : Ideal.ofBits .f32 0x48C35000#32 = ((400000 : ℝ) : EReal) := by
  simp [Ideal.ofBits, Ideal.ieee, -EReal.coe_mul]; norm_num

/-- `2.0`: `E = 128`, `T = 0`. -/
theorem ofBits_two : Ideal.ofBits .f32 0x40000000#32 = ((2 : ℝ) : EReal) := by
  simp [Ideal.ofBits, Ideal.ieee, -EReal.coe_mul]; norm_num

/-- `1.0`: `E = 127`, `T = 0`. -/
theorem ofBits_one : Ideal.ofBits .f32 0x3F800000#32 = ((1 : ℝ) : EReal) := by
  simp [Ideal.ofBits, Ideal.ieee, -EReal.coe_mul]; norm_num

/-- `0.5`: `E = 126`, `T = 0`. -/
theorem ofBits_half : Ideal.ofBits .f32 0x3F000000#32 = ((1 / 2 : ℝ) : EReal) := by
  simp [Ideal.ofBits, Ideal.ieee, -EReal.coe_mul]; norm_num

/-- The binary32 number nearest `10⁻⁵`: `E = 110`, `T = 2606508`, so `10995116 · 2^(-40)`. -/
theorem ofBits_eps :
    Ideal.ofBits .f32 0x3727C5AC#32 = ((10995116 / 1099511627776 : ℝ) : EReal) := by
  simp [Ideal.ofBits, Ideal.ieee, -EReal.coe_mul]; norm_num

theorem isReal_eps : Cert.LibMoment.IsReal (Ideal.ofBits .f32 0x3727C5AC#32) :=
  ⟨_, ofBits_eps⟩

theorem eps_pos : (0 : EReal) < Ideal.ofBits .f32 0x3727C5AC#32 := by
  rw [ofBits_eps]
  exact EReal.coe_pos.mpr (by norm_num)

/-- The binary32 number nearest `0.8`: `E = 126`, `T = 5033165`, so `13421773 · 2^(-24)`. -/
theorem ofBits_p8 :
    Ideal.ofBits .f32 0x3F4CCCCD#32 = ((13421773 / 16777216 : ℝ) : EReal) := by
  simp [Ideal.ofBits, Ideal.ieee, -EReal.coe_mul]; norm_num

theorem isReal_p8 : Cert.LibMoment.IsReal (Ideal.ofBits .f32 0x3F4CCCCD#32) :=
  ⟨_, ofBits_p8⟩

/-- The binary32 number nearest `0.2`: `E = 124`, `T = 5033165`, so `13421773 · 2^(-26)`. -/
theorem ofBits_p2 :
    Ideal.ofBits .f32 0x3E4CCCCD#32 = ((13421773 / 67108864 : ℝ) : EReal) := by
  simp [Ideal.ofBits, Ideal.ieee, -EReal.coe_mul]; norm_num

theorem isReal_p2 : Cert.LibMoment.IsReal (Ideal.ofBits .f32 0x3E4CCCCD#32) :=
  ⟨_, ofBits_p2⟩

theorem isReal_1e5 : Cert.LibMoment.IsReal (Ideal.ofBits .f32 0x47C35000#32) := ⟨_, ofBits_1e5⟩
theorem isReal_4e5 : Cert.LibMoment.IsReal (Ideal.ofBits .f32 0x48C35000#32) := ⟨_, ofBits_4e5⟩
theorem isReal_two : Cert.LibMoment.IsReal (Ideal.ofBits .f32 0x40000000#32) := ⟨_, ofBits_two⟩
theorem isReal_one : Cert.LibMoment.IsReal (Ideal.ofBits .f32 0x3F800000#32) := ⟨_, ofBits_one⟩
theorem isReal_half : Cert.LibMoment.IsReal (Ideal.ofBits .f32 0x3F000000#32) := ⟨_, ofBits_half⟩

end Cert.Consts

end
-- ==== Proof.KMid.lean ====
import proofs.«151024_j31044023616095_2_alg».proof.Proof.KHost
import proofs.«151024_j31044023616095_2_alg».proof.Proof.Consts
import Idealize.ShloMosaic.Lib.ValueIdx
import Idealize.ShloMosaic.Lib.Pipeline.Value
import Idealize.ShloMosaic.Lib.ValueLayout
import Idealize.ShloMosaic.PureOps.Ideal.Laws

/-!
# The two short stretches of host operations, read at an index

Between its regions the kernel program turns the per-block partial sums of a region into the
statistics the next region uses. With `n` the node count, `A t j` and `B t j` the partial sums of
the entries and of their squares over block `t` at column `j`, and `s j` the mean scale:

* `μ j = (∑ t, A t j) / n`;
* `var j = (∑ t, B t j) / n - (μ j · μ j) · (2 · s j - s j · s j)`;
* the scale `γ`, the shift `β` and the mean scale, each reshaped from `[128]` to one row.

Each buffer after the stretch is the term of its operation over the buffers before it; a column
sum from the initial value `0` is the sum over the blocks, a division by a broadcast constant is
the division of each entry by the constant, products and differences are entry by entry, and the
reshape of a `[128]` array to `[1, 128]` reads entry `j` at `(0, j)`. The arguments are the launch
memory's, since no earlier segment writes them.
-/

set_option maxRecDepth 16384

noncomputable section

namespace Cert.KernelIdeal.KMid

open Cert.KernelIdeal Cert.KernelIdeal.Gen Cert.KernelIdeal.KHost
open Idealize.ShloMosaic Idealize.ShloMosaic.TcCoe Idealize.ShloMosaic.Tactic Idealize.ShloMosaic.StableHlo
open Idealize.ShloMosaic.ValueIdx
open Idealize.SL.Sem

variable (m : (ℓ : Loc nD τ sig) → Buf (Elt Ideal) ℓ) (ρ : Dev nD → PrngReg)

/-- The base graph's node count `100000`, as its pattern denotes it. -/
abbrev N1 : EReal := Ideal.ofBits .f32 0x47C35000#32
/-- The local graph's node count `400000`. -/
abbrev N2 : EReal := Ideal.ofBits .f32 0x48C35000#32
/-- The constant `2`. -/
abbrev TWO : EReal := Ideal.ofBits .f32 0x40000000#32

/-- Product and difference of extended reals, with the operands read at that type. -/
local infixl:70 " ⬝ " => (HMul.hMul : EReal → EReal → EReal)
local infixl:65 " ⊖ " => (HSub.hSub : EReal → EReal → EReal)

/-! ### The base graph's stretch -/

/-- A column sum of the per-block partial sums, from the initial value `0`:
    `∑ t, x (t, 0, j)`. -/
theorem colsum25 (x : FVec Ideal S25x1x128 .f32) (j : Fin 128) :
    Host.reduceAdd x (constant (F := Ideal) S_ .f32 0x00000000#32) reducesTo_S25x1x128_S1x128_d0 h_S_
        (ix2 (0 : Fin 1) j)
      = ∑ t : Fin 25, x (ix3 t (0 : Fin 1) j) := by
  simp only [Host.reduceAdd, Ideal.hostReduceAdd_def]
  rw [Ideal.hostReduceAdd_single reducesTo_S25x1x128_S1x128_d0 (by decide)]
  show Ideal.ofBits .f32 0x00000000#32 + _ = _
  rw [Ideal.ofBits_zero_f32, zero_add]
  refine Finset.sum_congr rfl fun k _ => ?_
  exact congrArg x (funext fun a => Fin.ext (by
    match a with
    | ⟨0, _⟩ => rfl
    | ⟨1, _⟩ => rfl
    | ⟨2, _⟩ => rfl))

/-- The mean: the column sum of the first partial sums divided by the node count. -/
theorem mu1 (c : Dev nD) (j : Fin 128) :
    (W5 m ρ c (Proc.devRef .tc main_v53) : S1x128.Idx → EReal) (ix2 (0 : Fin 1) j)
      = Ideal.div (∑ t : Fin 25,
          (W4 m ρ c (Proc.devRef .tc main_v48_1) : S25x1x128.Idx → EReal) (ix3 t (0 : Fin 1) j)) N1 := by
  show StableHlo.after hostOps1 (W4 m ρ c) (Proc.devRef .tc main_v53) _ = _
  after_results_simp
  show Ideal.div (Host.reduceAdd
      (W4 m ρ c (Proc.devRef .tc main_v48_1) : FVec Ideal S25x1x128 .f32)
      (constant (F := Ideal) S_ .f32 0x00000000#32) reducesTo_S25x1x128_S1x128_d0 h_S_
      (ix2 (0 : Fin 1) j)) N1 = _
  rw [colsum25]

/-- The variance: the mean of squares minus `mean² · (2 s - s²)`, `s` the mean scale. -/
theorem var1 (c : Dev nD) (j : Fin 128) :
    (W5 m ρ c (Proc.devRef .tc main_v62) : S1x128.Idx → EReal) (ix2 (0 : Fin 1) j)
      = Ideal.div (∑ t : Fin 25,
          (W4 m ρ c (Proc.devRef .tc main_v48_2) : S25x1x128.Idx → EReal) (ix3 t (0 : Fin 1) j)) N1
        ⊖ (Ideal.div (∑ t : Fin 25,
              (W4 m ρ c (Proc.devRef .tc main_v48_1) : S25x1x128.Idx → EReal) (ix3 t (0 : Fin 1) j)) N1
            ⬝ Ideal.div (∑ t : Fin 25,
              (W4 m ρ c (Proc.devRef .tc main_v48_1) : S25x1x128.Idx → EReal) (ix3 t (0 : Fin 1) j)) N1)
          ⬝ (TWO ⬝ (m ((c : Thread nD τ).loc main_arg13) : S128.Idx → EReal) (ix1 j)
              ⊖ (m ((c : Thread nD τ).loc main_arg13) : S128.Idx → EReal) (ix1 j)
                ⬝ (m ((c : Thread nD τ).loc main_arg13) : S128.Idx → EReal) (ix1 j)) := by
  show StableHlo.after hostOps1 (W4 m ρ c) (Proc.devRef .tc main_v62) _ = _
  after_results_simp
  show Ideal.div (Host.reduceAdd
        (W4 m ρ c (Proc.devRef .tc main_v48_2) : FVec Ideal S25x1x128 .f32)
        (constant (F := Ideal) S_ .f32 0x00000000#32) reducesTo_S25x1x128_S1x128_d0 h_S_
        (ix2 (0 : Fin 1) j)) N1
      ⊖ (Ideal.div (Host.reduceAdd
            (W4 m ρ c (Proc.devRef .tc main_v48_1) : FVec Ideal S25x1x128 .f32)
            (constant (F := Ideal) S_ .f32 0x00000000#32) reducesTo_S25x1x128_S1x128_d0 h_S_
            (ix2 (0 : Fin 1) j)) N1
          ⬝ Ideal.div (Host.reduceAdd
            (W4 m ρ c (Proc.devRef .tc main_v48_1) : FVec Ideal S25x1x128 .f32)
            (constant (F := Ideal) S_ .f32 0x00000000#32) reducesTo_S25x1x128_S1x128_d0 h_S_
            (ix2 (0 : Fin 1) j)) N1)
        ⬝ (TWO ⬝ shapeCast S1x128 (W4 m ρ c (Proc.devRef .tc main_arg13) : FVec Ideal S128 .f32)
              shapeCasts_S128_S1x128 (ix2 (0 : Fin 1) j)
            ⊖ shapeCast S1x128 (W4 m ρ c (Proc.devRef .tc main_arg13) : FVec Ideal S128 .f32)
                shapeCasts_S128_S1x128 (ix2 (0 : Fin 1) j)
              ⬝ shapeCast S1x128 (W4 m ρ c (Proc.devRef .tc main_arg13) : FVec Ideal S128 .f32)
                shapeCasts_S128_S1x128 (ix2 (0 : Fin 1) j)) = _
  rw [colsum25, colsum25, shapeCast_a_1a_apply, W4_arg13]

/-- The scale `γ`, reshaped to one row. -/
theorem gamma1 (c : Dev nD) (j : Fin 128) :
    (W5 m ρ c (Proc.devRef .tc main_v63) : S1x128.Idx → EReal) (ix2 (0 : Fin 1) j)
      = (m ((c : Thread nD τ).loc main_arg11) : S128.Idx → EReal) (ix1 j) := by
  show StableHlo.after hostOps1 (W4 m ρ c) (Proc.devRef .tc main_v63) _ = _
  after_results_simp
  exact (shapeCast_a_1a_apply (a := 128) (W4 m ρ c (Proc.devRef .tc main_arg11)) shapeCasts_S128_S1x128
    (0 : Fin 1) j).trans (congrFun (W4_arg11 m ρ c) (ix1 j))

/-- The shift `β`, reshaped to one row. -/
theorem beta1 (c : Dev nD) (j : Fin 128) :
    (W5 m ρ c (Proc.devRef .tc main_v64) : S1x128.Idx → EReal) (ix2 (0 : Fin 1) j)
      = (m ((c : Thread nD τ).loc main_arg12) : S128.Idx → EReal) (ix1 j) := by
  show StableHlo.after hostOps1 (W4 m ρ c) (Proc.devRef .tc main_v64) _ = _
  after_results_simp
  exact (shapeCast_a_1a_apply (a := 128) (W4 m ρ c (Proc.devRef .tc main_arg12)) shapeCasts_S128_S1x128
    (0 : Fin 1) j).trans (congrFun (W4_arg12 m ρ c) (ix1 j))

/-- The mean scale, reshaped to one row. -/
theorem ms1 (c : Dev nD) (j : Fin 128) :
    (W5 m ρ c (Proc.devRef .tc main_v65) : S1x128.Idx → EReal) (ix2 (0 : Fin 1) j)
      = (m ((c : Thread nD τ).loc main_arg13) : S128.Idx → EReal) (ix1 j) := by
  show StableHlo.after hostOps1 (W4 m ρ c) (Proc.devRef .tc main_v65) _ = _
  after_results_simp
  exact (shapeCast_a_1a_apply (a := 128) (W4 m ρ c (Proc.devRef .tc main_arg13)) shapeCasts_S128_S1x128
    (0 : Fin 1) j).trans (congrFun (W4_arg13 m ρ c) (ix1 j))

/-! ### The local graph's stretch -/

/-- A column sum of the per-block partial sums, from the initial value `0`:
    `∑ t, x (t, 0, j)`. -/
theorem colsum100 (x : FVec Ideal S100x1x128 .f32) (j : Fin 128) :
    Host.reduceAdd x (constant (F := Ideal) S_ .f32 0x00000000#32) reducesTo_S100x1x128_S1x128_d0 h_S_
        (ix2 (0 : Fin 1) j)
      = ∑ t : Fin 100, x (ix3 t (0 : Fin 1) j) := by
  simp only [Host.reduceAdd, Ideal.hostReduceAdd_def]
  rw [Ideal.hostReduceAdd_single reducesTo_S100x1x128_S1x128_d0 (by decide)]
  show Ideal.ofBits .f32 0x00000000#32 + _ = _
  rw [Ideal.ofBits_zero_f32, zero_add]
  refine Finset.sum_congr rfl fun k _ => ?_
  exact congrArg x (funext fun a => Fin.ext (by
    match a with
    | ⟨0, _⟩ => rfl
    | ⟨1, _⟩ => rfl
    | ⟨2, _⟩ => rfl))

/-- The mean: the column sum of the first partial sums divided by the node count. -/
theorem mu2 (c : Dev nD) (j : Fin 128) :
    (W11 m ρ c (Proc.devRef .tc main_v120) : S1x128.Idx → EReal) (ix2 (0 : Fin 1) j)
      = Ideal.div (∑ t : Fin 100,
          (W10 m ρ c (Proc.devRef .tc main_v115_1) : S100x1x128.Idx → EReal) (ix3 t (0 : Fin 1) j)) N2 := by
  show StableHlo.after hostOps3 (W10 m ρ c) (Proc.devRef .tc main_v120) _ = _
  after_results_simp
  show Ideal.div (Host.reduceAdd
      (W10 m ρ c (Proc.devRef .tc main_v115_1) : FVec Ideal S100x1x128 .f32)
      (constant (F := Ideal) S_ .f32 0x00000000#32) reducesTo_S100x1x128_S1x128_d0 h_S_
      (ix2 (0 : Fin 1) j)) N2 = _
  rw [colsum100]

/-- The variance: the mean of squares minus `mean² · (2 s - s²)`, `s` the mean scale. -/
theorem var2 (c : Dev nD) (j : Fin 128) :
    (W11 m ρ c (Proc.devRef .tc main_v129) : S1x128.Idx → EReal) (ix2 (0 : Fin 1) j)
      = Ideal.div (∑ t : Fin 100,
          (W10 m ρ c (Proc.devRef .tc main_v115_2) : S100x1x128.Idx → EReal) (ix3 t (0 : Fin 1) j)) N2
        ⊖ (Ideal.div (∑ t : Fin 100,
              (W10 m ρ c (Proc.devRef .tc main_v115_1) : S100x1x128.Idx → EReal) (ix3 t (0 : Fin 1) j)) N2
            ⬝ Ideal.div (∑ t : Fin 100,
              (W10 m ρ c (Proc.devRef .tc main_v115_1) : S100x1x128.Idx → EReal) (ix3 t (0 : Fin 1) j)) N2)
          ⬝ (TWO ⬝ (m ((c : Thread nD τ).loc main_arg16) : S128.Idx → EReal) (ix1 j)
              ⊖ (m ((c : Thread nD τ).loc main_arg16) : S128.Idx → EReal) (ix1 j)
                ⬝ (m ((c : Thread nD τ).loc main_arg16) : S128.Idx → EReal) (ix1 j)) := by
  show StableHlo.after hostOps3 (W10 m ρ c) (Proc.devRef .tc main_v129) _ = _
  after_results_simp
  show Ideal.div (Host.reduceAdd
        (W10 m ρ c (Proc.devRef .tc main_v115_2) : FVec Ideal S100x1x128 .f32)
        (constant (F := Ideal) S_ .f32 0x00000000#32) reducesTo_S100x1x128_S1x128_d0 h_S_
        (ix2 (0 : Fin 1) j)) N2
      ⊖ (Ideal.div (Host.reduceAdd
            (W10 m ρ c (Proc.devRef .tc main_v115_1) : FVec Ideal S100x1x128 .f32)
            (constant (F := Ideal) S_ .f32 0x00000000#32) reducesTo_S100x1x128_S1x128_d0 h_S_
            (ix2 (0 : Fin 1) j)) N2
          ⬝ Ideal.div (Host.reduceAdd
            (W10 m ρ c (Proc.devRef .tc main_v115_1) : FVec Ideal S100x1x128 .f32)
            (constant (F := Ideal) S_ .f32 0x00000000#32) reducesTo_S100x1x128_S1x128_d0 h_S_
            (ix2 (0 : Fin 1) j)) N2)
        ⬝ (TWO ⬝ shapeCast S1x128 (W10 m ρ c (Proc.devRef .tc main_arg16) : FVec Ideal S128 .f32)
              shapeCasts_S128_S1x128 (ix2 (0 : Fin 1) j)
            ⊖ shapeCast S1x128 (W10 m ρ c (Proc.devRef .tc main_arg16) : FVec Ideal S128 .f32)
                shapeCasts_S128_S1x128 (ix2 (0 : Fin 1) j)
              ⬝ shapeCast S1x128 (W10 m ρ c (Proc.devRef .tc main_arg16) : FVec Ideal S128 .f32)
                shapeCasts_S128_S1x128 (ix2 (0 : Fin 1) j)) = _
  rw [colsum100, colsum100, shapeCast_a_1a_apply, W10_arg16]

/-- The scale `γ`, reshaped to one row. -/
theorem gamma2 (c : Dev nD) (j : Fin 128) :
    (W11 m ρ c (Proc.devRef .tc main_v130) : S1x128.Idx → EReal) (ix2 (0 : Fin 1) j)
      = (m ((c : Thread nD τ).loc main_arg14) : S128.Idx → EReal) (ix1 j) := by
  show StableHlo.after hostOps3 (W10 m ρ c) (Proc.devRef .tc main_v130) _ = _
  after_results_simp
  exact (shapeCast_a_1a_apply (a := 128) (W10 m ρ c (Proc.devRef .tc main_arg14)) shapeCasts_S128_S1x128
    (0 : Fin 1) j).trans (congrFun (W10_arg14 m ρ c) (ix1 j))

/-- The shift `β`, reshaped to one row. -/
theorem beta2 (c : Dev nD) (j : Fin 128) :
    (W11 m ρ c (Proc.devRef .tc main_v131) : S1x128.Idx → EReal) (ix2 (0 : Fin 1) j)
      = (m ((c : Thread nD τ).loc main_arg15) : S128.Idx → EReal) (ix1 j) := by
  show StableHlo.after hostOps3 (W10 m ρ c) (Proc.devRef .tc main_v131) _ = _
  after_results_simp
  exact (shapeCast_a_1a_apply (a := 128) (W10 m ρ c (Proc.devRef .tc main_arg15)) shapeCasts_S128_S1x128
    (0 : Fin 1) j).trans (congrFun (W10_arg15 m ρ c) (ix1 j))

/-- The mean scale, reshaped to one row. -/
theorem ms2 (c : Dev nD) (j : Fin 128) :
    (W11 m ρ c (Proc.devRef .tc main_v132) : S1x128.Idx → EReal) (ix2 (0 : Fin 1) j)
      = (m ((c : Thread nD τ).loc main_arg16) : S128.Idx → EReal) (ix1 j) := by
  show StableHlo.after hostOps3 (W10 m ρ c) (Proc.devRef .tc main_v132) _ = _
  after_results_simp
  exact (shapeCast_a_1a_apply (a := 128) (W10 m ρ c (Proc.devRef .tc main_arg16)) shapeCasts_S128_S1x128
    (0 : Fin 1) j).trans (congrFun (W10_arg16 m ρ c) (ix1 j))

end Cert.KernelIdeal.KMid

end
-- ==== Proof.Spec.lean ====
/-
  The specification both programs are compared through, over the extended reals. Rows are indexed by `Fin R`
  (R = 100000 for the base graph, 400000 for the local one), features by `Fin 128`.

  `lin` is the affine layer  A · Wᵀ + b.  `graphNorm` is the reference's normalisation followed by the rectifier:
  with μ_j the column mean, the centred value  y − ms_j μ_j, its mean square as the variance, and
  max(γ_j (y − ms_j μ_j) (var_j + ε)^(-1/2) + β_j, 0).  `graphNormK` is the kernel's form of the same, whose variance
  is computed from the raw moments:  mean(y²) − μ² (2 ms − ms²).  The two agree when every y and ms is a real number
  and n is the number of rows (`graphNorm_eq`): expanding the square,
    (1/n) Σ (y − ms μ)² = (1/n) Σ y² − 2 ms μ² + ms² μ².
-/
import Idealize.ShloMosaic.PureOps.Ideal
import proofs.«151024_j31044023616095_2_alg».proof.Proof.LibMoment

noncomputable section

namespace Cert.Spec

open Idealize.ShloMosaic Cert.LibMoment

/-- The affine layer: row r of A against row j of W, plus the bias. -/
def lin {R : ℕ} (A : Fin R → Fin 128 → EReal) (W : Fin 128 → Fin 128 → EReal) (b : Fin 128 → EReal)
    (r : Fin R) (j : Fin 128) : EReal :=
  (∑ k : Fin 128, A r k * W j k) + b j

/-- Column mean. -/
def mean {R : ℕ} (n : EReal) (Y : Fin R → Fin 128 → EReal) (j : Fin 128) : EReal :=
  Ideal.div (∑ r, Y r j) n

/-- The reference's variance: the mean square of the centred column. -/
def varRef {R : ℕ} (n : EReal) (Y : Fin R → Fin 128 → EReal) (ms : Fin 128 → EReal) (j : Fin 128) : EReal :=
  Ideal.div (∑ r, (Y r j - ms j * mean n Y j) * (Y r j - ms j * mean n Y j)) n

/-- The kernel's variance: from the raw first and second moments. -/
def varK {R : ℕ} (n two : EReal) (Y : Fin R → Fin 128 → EReal) (ms : Fin 128 → EReal) (j : Fin 128) : EReal :=
  Ideal.div (∑ r, Y r j * Y r j) n - (mean n Y j * mean n Y j) * (two * ms j - ms j * ms j)

/-- Normalise with a given variance, then rectify. -/
def normRelu {R : ℕ} (eps : EReal) (Y : Fin R → Fin 128 → EReal) (mu var g be ms : Fin 128 → EReal)
    (r : Fin R) (j : Fin 128) : EReal :=
  max ((g j * (Y r j - ms j * mu j)) * Ideal.rsqrt (var j + eps) + be j) 0

/-- The reference's normalisation. -/
def graphNorm {R : ℕ} (n eps : EReal) (Y : Fin R → Fin 128 → EReal) (g be ms : Fin 128 → EReal) :
    Fin R → Fin 128 → EReal :=
  normRelu eps Y (mean n Y) (varRef n Y ms) g be ms

/-- The kernel's normalisation. -/
def graphNormK {R : ℕ} (n two eps : EReal) (Y : Fin R → Fin 128 → EReal) (g be ms : Fin 128 → EReal) :
    Fin R → Fin 128 → EReal :=
  normRelu eps Y (mean n Y) (varK n two Y ms) g be ms

/-- The two variances agree on real data when n counts the rows. -/
theorem varK_eq_varRef {R : ℕ} (hR : 0 < R) (n : ℝ) (hn : n = (R : ℝ))
    (Y : Fin R → Fin 128 → EReal) (hY : ∀ r j, IsReal (Y r j)) (ms : Fin 128 → EReal) (hms : ∀ j, IsReal (ms j)) :
    varK (n : EReal) ((2 : ℝ) : EReal) Y ms = varRef (n : EReal) Y ms := by
  funext j
  unfold varK varRef mean
  exact (var_eq (ι := Fin R) n (by rw [hn, Fintype.card_fin]) (by rw [Fintype.card_fin]; exact hR)
    (fun r => Y r j) (fun r => hY r j) (ms j) (hms j)).symm

theorem graphNormK_eq {R : ℕ} (hR : 0 < R) (n : ℝ) (hn : n = (R : ℝ)) (eps : EReal)
    (Y : Fin R → Fin 128 → EReal) (hY : ∀ r j, IsReal (Y r j)) (g be ms : Fin 128 → EReal) (hms : ∀ j, IsReal (ms j)) :
    graphNormK (n : EReal) ((2 : ℝ) : EReal) eps Y g be ms = graphNorm (n : EReal) eps Y g be ms := by
  unfold graphNormK graphNorm
  rw [varK_eq_varRef hR n hn Y hY ms hms]

end Cert.Spec

end
-- ==== Proof.Region0.lean ====
/-
  Region 0 of the kernel side, read as mathematics: the first result array ends holding the affine layer
  x · Wᵀ + b of the region's three operands, and the two partial-sum arrays hold, per block of 4000 rows, the column
  sums of that layer and of its squares. First the body's payloads at an entry (a contraction over the 128 features
  plus the bias; a sum over the block's rows), then each operand's block as rows of its array, then the write-backs
  of the 25 points, whose blocks tile each result array.
-/
import proofs.«151024_j31044023616095_2_alg».proof.Proof.Gen.KernelIdeal.Frame
import proofs.«151024_j31044023616095_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.ValueIdx
open Idealize.ShloMosaic.TcCoe Idealize.SL.Sem
open Idealize.ShloMosaic.Pipeline (Dat)

abbrev D0 := dot_S4000x128_S128x128_S4000x128_1_0_0_1_n_n

theorem lhs_row (i : S4000x128.Idx) (p : D0.contr.Idx) : (D0.lhsIdx i p 0).val = (i 0).val := by
  unfold DotDims.lhsIdx
  rw [dif_neg (show ¬(0 : Fin S4000x128.rank) ∈ D0.lhsBatch by decide), dif_pos (show (0 : Fin S4000x128.rank) ∈ D0.lhsNonContracting by decide)]
  rfl
theorem lhs_col (i : S4000x128.Idx) (p : D0.contr.Idx) : (D0.lhsIdx i p 1).val = (p ⟨0, by decide⟩).val :=
  D0.lhsIdx_val_of_single rfl i p
theorem rhs_row (i : S4000x128.Idx) (p : D0.contr.Idx) : (D0.rhsIdx i p 0).val = (p ⟨0, by decide⟩).val :=
  D0.rhsIdx_val_of_single rfl i p
theorem rhs_col (i : S4000x128.Idx) (p : D0.contr.Idx) : (D0.rhsIdx i p 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The linear layer on one block, entry by entry: row q of the block against column j of the second operand, plus the
    bias row's entry j. -/
theorem pay1_apply (x0 : Vec Ideal S4000x128 .f32) (x1 : Vec Ideal S128x128 .f32) (x2 : Vec Ideal S1x128 .f32)
    (q : Fin 4000) (j : Fin 128) :
    k0_pay1 (F := Ideal) x0 x1 x2 (ix2 q j) = (∑ k : Fin 128, x0 (ix2 q k) * x1 (ix2 k j)) + x2 (ix2 0 j) := by
  unfold k0_pay1
  simp only [shapeCast_self]
  rw [addf_apply]
  rw [broadcastTo_apply x2 broadcasts_S1x128_S4000x128 (ix2 q j) (ix2 0 j) (fun a => by
    match a with
    | ⟨0, _⟩ => rfl
    | ⟨1, _⟩ => rfl)]
  congr 1
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 q j) ((contrEquiv1 D0 128 rfl rfl).symm k) = ix2 q k := funext fun a => Fin.ext (by
    match a with
    | ⟨0, _⟩ => exact lhs_row _ _
    | ⟨1, _⟩ => exact (lhs_col _ _).trans hk)
  have er : D0.rhsIdx (ix2 q j) ((contrEquiv1 D0 128 rfl rfl).symm k) = ix2 k j := funext fun a => Fin.ext (by
    match a with
    | ⟨0, _⟩ => exact (rhs_row _ _).trans hk
    | ⟨1, _⟩ => exact rhs_col _ _)
  show x0 (D0.lhsIdx (ix2 q j) ((contrEquiv1 D0 128 rfl rfl).symm k)) * x1 (D0.rhsIdx (ix2 q j) ((contrEquiv1 D0 128 rfl rfl).symm k)) = _
  rw [el, er]

/-- Reading a reduced lane: the reduction's inserted index over axis 0 at lane j and coordinate q is (q, j). -/
theorem lift_eq (j : Fin 128) (q : Fin 4000) : reduces_S4000x128_S128.lift (ix1 j) q = ix2 q j := by
  funext a
  match a with
  | ⟨0, _⟩ => rfl
  | ⟨1, _⟩ => rfl

/-- A sum over axis 0 of a [4000,128] block from the zero word, read at lane j: the column's sum. -/
theorem colsum (src : FVec Ideal S4000x128 .f32) (hφ : FKind.Formats .f32) (hacc : (0x00000000#32 : BitVec 32) = 0x00000000#32) (j : Fin 128) :
    multiReduction (F := Ideal) .add [0] S128 src 0x00000000#32 reduces_S4000x128_S128 hφ hacc (ix1 j) = ∑ q : Fin 4000, src (ix2 q j) :=
  (Ideal.multiReduction_add_single src 0x00000000#32 reduces_S4000x128_S128 hφ hacc (ix1 j)).trans
    (Finset.sum_congr rfl fun q _ => congrArg src (lift_eq j q))

/-- The [128] → [1,128] → [1,1,128] reshapes of a lane vector read at (0, 0, j) are the vector at j. -/
theorem reshape_apply (v : FVec Ideal S128 .f32) (j : Fin 128) :
    shapeCast S1x1x128 (shapeCast S1x128 v shapeCasts_S128_S1x128) shapeCasts_S1x128_S1x1x128 (ix3 (0 : Fin 1) (0 : Fin 1) j) = v (ix1 j) := by
  refine (shapeCast_apply _ shapeCasts_S1x128_S1x1x128 (ix3 (0 : Fin 1) (0 : Fin 1) j) (ix2 (0 : Fin 1) j) ?_).trans ?_
  · rw [Shape.rowMajor_val_two, Shape.rowMajor_val_three]; rfl
  refine (shapeCast_apply _ shapeCasts_S128_S1x128 (ix2 (0 : Fin 1) j) (ix1 j) ?_).trans rfl
  rw [Shape.rowMajor_val_one, Shape.rowMajor_val_two]
  show j.val = 0 * 128 + j.val
  omega

/-- The block's column sums of the linear layer. -/
theorem pay2_apply (x0 : Vec Ideal S4000x128 .f32) (x1 : Vec Ideal S128x128 .f32) (x2 : Vec Ideal S1x128 .f32) (j : Fin 128) :
    k0_pay2 (F := Ideal) x0 x1 x2 (ix3 (0 : Fin 1) (0 : Fin 1) j) = ∑ q : Fin 4000, k0_pay1 (F := Ideal) x0 x1 x2 (ix2 q j) := by
  unfold k0_pay2
  rw [reshape_apply]
  exact colsum _ _ _ j

/-- The block's column sums of the squares of the linear layer. -/
theorem pay3_apply (x0 : Vec Ideal S4000x128 .f32) (x1 : Vec Ideal S128x128 .f32) (x2 : Vec Ideal S1x128 .f32) (j : Fin 128) :
    k0_pay3 (F := Ideal) x0 x1 x2 (ix3 (0 : Fin 1) (0 : Fin 1) j) = ∑ q : Fin 4000, k0_pay1 (F := Ideal) x0 x1 x2 (ix2 q j) * k0_pay1 (F := Ideal) x0 x1 x2 (ix2 q j) := by
  unfold k0_pay3
  rw [reshape_apply]
  exact (colsum _ _ _ j).trans (Finset.sum_congr rfl fun q _ => mulf_apply _ _ _)

variable (V : (c : Dev nD) → (b : Ref sig .tc) → Buf (Elt Ideal) ((c : Thread nD τ).loc b))

/-- The features the region finds in its first operand, by row and feature. -/
abbrev X (c : Dev nD) : Fin 100000 → Fin 128 → EReal := fun r k => (V c (Pipeline.arrRef spec0 0) : S100000x128.Idx → EReal) (ix2 r k)
/-- The weights: the second operand holds the transpose, so entry (j, k) of the weights is its entry (k, j). -/
abbrev Wm (c : Dev nD) : Fin 128 → Fin 128 → EReal := fun j k => (V c (Pipeline.arrRef spec0 1) : S128x128.Idx → EReal) (ix2 k j)
/-- The bias: the third operand's one row. -/
abbrev Bv (c : Dev nD) : Fin 128 → EReal := fun j => (V c (Pipeline.arrRef spec0 2) : S1x128.Idx → EReal) (ix2 (0 : Fin 1) j)
/-- The affine layer of the three. -/
abbrev Y (c : Dev nD) : Fin 100000 → Fin 128 → EReal := Cert.Spec.lin (R := 100000) (X V c) (Wm V c) (Bv V c)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the row-blocked windows sit at block (t, 0), the whole windows at (0, 0),
    the partial-sum windows at (t, 0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The first operand's block at point t holds rows 4000 t … 4000 t + 3999 of the features. -/
theorem x_block (c : Dev nD) (t : Fin cfg0.N) (q : Fin 4000) (k : Fin 128) (r : Fin 100000) (hr : r.val = t.val * 4000 + q.val) :
    (iblk0 (F := Ideal) V c 0 t : Vec Ideal S4000x128 .f32) (ix2 q k) = X V c r k := by
  obtain ⟨e0, e1, -⟩ := idx_facts t
  show (V c (Pipeline.arrRef spec0 0) : S100000x128.Idx → EReal) (((cfg0.win 0).blk t).view.emb (ix2 q k)) = (V c (Pipeline.arrRef spec0 0) : S100000x128.Idx → EReal) (ix2 r k)
  congr 1
  funext a
  apply Fin.ext
  match a with
  | ⟨0, _⟩ => show win0_0.index t (0 : Fin 2) * 4000 + 1 * q.val = r.val; omega
  | ⟨1, _⟩ => show win0_0.index t (1 : Fin 2) * 128 + 1 * k.val = k.val; omega

/-- The second operand's block at every point is the whole array. -/
theorem w_block (c : Dev nD) (t : Fin cfg0.N) (k j : Fin 128) :
    (iblk0 (F := Ideal) V c 1 t : Vec Ideal S128x128 .f32) (ix2 k j) = Wm V c j k := by
  obtain ⟨-, -, e2, e3, -⟩ := idx_facts t
  show (V c (Pipeline.arrRef spec0 1) : S128x128.Idx → EReal) (((cfg0.win 1).blk t).view.emb (ix2 k j)) = (V c (Pipeline.arrRef spec0 1) : S128x128.Idx → EReal) (ix2 k j)
  congr 1
  funext a
  apply Fin.ext
  match a with
  | ⟨0, _⟩ => show win0_1.index t (0 : Fin 2) * 128 + 1 * k.val = k.val; omega
  | ⟨1, _⟩ => show win0_1.index t (1 : Fin 2) * 128 + 1 * j.val = j.val; omega

/-- The third operand's block at every point is the whole row. -/
theorem b_block (c : Dev nD) (t : Fin cfg0.N) (j : Fin 128) :
    (iblk0 (F := Ideal) V c 2 t : Vec Ideal S1x128 .f32) (ix2 (0 : Fin 1) j) = Bv V c j := by
  obtain ⟨-, -, -, -, e4, e5, -⟩ := idx_facts t
  show (V c (Pipeline.arrRef spec0 2) : S1x128.Idx → EReal) (((cfg0.win 2).blk t).view.emb (ix2 (0 : Fin 1) j)) = (V c (Pipeline.arrRef spec0 2) : S1x128.Idx → EReal) (ix2 (0 : Fin 1) j)
  congr 1
  funext a
  apply Fin.ext
  match a with
  | ⟨0, _⟩ => show win0_2.index t (0 : Fin 2) * 1 + 1 * 0 = 0; omega
  | ⟨1, _⟩ => show win0_2.index t (1 : Fin 2) * 128 + 1 * j.val = j.val; omega

/-- Entry (q, j) of point t's payload is the affine layer at row 4000 t + q, feature j. -/
theorem block_entry (c : Dev nD) (t : Fin cfg0.N) (q : Fin 4000) (j : Fin 128) (r : Fin 100000) (hr : r.val = t.val * 4000 + q.val) :
    k0_pay1 (F := Ideal) (iblk0 V c 0 t) (iblk0 V c 1 t) (iblk0 V c 2 t) (ix2 q j) = Y V c r j := by
  refine (pay1_apply (iblk0 V c 0 t) (iblk0 V c 1 t) (iblk0 V c 2 t) q j).trans ?_
  show _ = (∑ k : Fin 128, X V c r k * Wm V c j k) + Bv V c j
  exact congrArg₂ (· + ·) (Finset.sum_congr rfl fun k _ => congrArg₂ (· * ·) (x_block V c t q k r hr) (w_block V c t k j)) (b_block V c t j)

/-- The array the first result window ends holding: the affine layer, row by row. -/
abbrev G3 (c : Dev nD) : S100000x128.Idx → EReal := fun i => Y V c ⟨(i 0).val, (i 0).isLt⟩ ⟨(i 1).val, (i 1).isLt⟩

/-- What point t writes back through the first result window is block t of the affine layer. -/
theorem flushed3_eq (c : Dev nD) (t : Fin cfg0.N) :
    (dat0 (F := Ideal) V c).flushed 3 t = ((cfg0.win 3).blk t).view.read (Elt Ideal) (G3 V c) := by
  show (cfg0.win 3).cut (grid0.coords t) ((dat0 (F := Ideal) V c).after 3 t) = _
  rw [after0_3]
  unfold out0_3
  rw [View.canon_unit_zero hz2]
  simp only [View.ld_unit_zero (S := S4000x128) hz2, View.ld_unit_zero (S := S128x128) hz2, View.ld_unit_zero (S := S1x128) hz2]
  obtain ⟨-, -, -, -, -, -, e6, e7, -⟩ := idx_facts t
  funext y
  show k0_pay1 (F := Ideal) (iblk0 V c 0 t) (iblk0 V c 1 t) (iblk0 V c 2 t) y = G3 V c (((cfg0.win 3).blk t).view.emb y)
  have hy : y = ix2 (n0 := 4000) (n1 := 128) ⟨(y 0).val, (y 0).isLt⟩ ⟨(y 1).val, (y 1).isLt⟩ := by
    funext a
    match a with
    | ⟨0, _⟩ => rfl
    | ⟨1, _⟩ => rfl
  refine (congrArg (k0_pay1 (F := Ideal) (iblk0 V c 0 t) (iblk0 V c 1 t) (iblk0 V c 2 t)) hy).trans ?_
  refine (block_entry V c t _ _ ⟨((((cfg0.win 3).blk t).view.emb y) 0).val, ((((cfg0.win 3).blk t).view.emb y) 0).isLt⟩ ?_).trans ?_
  · show win0_3.index t (0 : Fin 2) * 4000 + 1 * (y 0).val = t.val * 4000 + (y 0).val
    omega
  · show Y V c _ _ = Y V c _ _
    congr 1
    apply Fin.ext
    show (y 1).val = win0_3.index t (1 : Fin 2) * 128 + 1 * (y 1).val
    omega

/-- An index of the array is in point t's block iff each coordinate is in the block's range on its axis. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v48_0).slice (win0_3.rect t)).set ↔ _
  rw [View.set_slice_whole, Rect.mem_set_unit]
  exact Iff.rfl

/-- Row r is in the block of point r / 4000: the 25 blocks of 4000 rows cover the array. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, e6, e7, -⟩ := idx_facts t
  have ht : t.val = (i 0).val / 4000 := rfl
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE FIRST RESULT ARRAY after the region: the affine layer of the operands as the region found them. -/
theorem final3 (c : Dev nD) : (dat0 (F := Ideal) V c).arrAt 3 cfg0.N = G3 V c :=
  (dat0 (F := Ideal) V c).arrAt_eq_of_cover 3 (G3 V c) (fun t _ => flushed3_eq V c t) (cover3)

theorem y_final (c : Dev nD) (r : Fin 100000) (j : Fin 128) :
    ((dat0 (F := Ideal) V c).arrAt 3 cfg0.N : S100000x128.Idx → EReal) (ix2 r j) = Y V c r j := by
  rw [final3]

/-- The column sum of the affine layer over block t's 4000 rows. -/
abbrev colSum (c : Dev nD) (t : Fin 25) (j : Fin 128) : EReal := ∑ q : Fin 4000, Y V c ⟨t.val * 4000 + q.val, by omega⟩ j

/-- The array result window 4 ends holding. -/
abbrev G4 (c : Dev nD) : S25x1x128.Idx → EReal := fun i => colSum V c ⟨(i 0).val, (i 0).isLt⟩ ⟨(i 2).val, (i 2).isLt⟩

/-- Lane j of point t's payload for window 4. -/
theorem block_colSum (c : Dev nD) (t : Fin cfg0.N) (j : Fin 128) (T : Fin 25) (hT : T.val = t.val) :
    k0_pay2 (F := Ideal) (iblk0 V c 0 t) (iblk0 V c 1 t) (iblk0 V c 2 t) (ix3 (0 : Fin 1) (0 : Fin 1) j) = colSum V c T j := by
  refine (pay2_apply (iblk0 V c 0 t) (iblk0 V c 1 t) (iblk0 V c 2 t) j).trans ?_
  refine Finset.sum_congr rfl fun q _ => ?_
  have h := block_entry V c t q j ⟨T.val * 4000 + q.val, by omega⟩ (by show T.val * 4000 + q.val = t.val * 4000 + q.val; rw [hT])
  rw [h]

/-- What point t writes back through window 4 is block t of that array. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 (F := Ideal) V c).after 4 t) = _
  rw [after0_4]
  unfold out0_4
  rw [View.canon_unit_zero hz3]
  simp only [View.ld_unit_zero (S := S4000x128) hz2, View.ld_unit_zero (S := S128x128) hz2, View.ld_unit_zero (S := S1x128) hz2]
  have e := idx_facts t
  funext y
  show k0_pay2 (F := Ideal) (iblk0 V c 0 t) (iblk0 V c 1 t) (iblk0 V c 2 t) y = G4 V c (((cfg0.win 4).blk t).view.emb y)
  have hy0 : (y 0).val = 0 := by have h : (y 0).val < 1 := (y 0).isLt; omega
  have hy1 : (y 1).val = 0 := by have h : (y 1).val < 1 := (y 1).isLt; omega
  have hy : y = ix3 (n0 := 1) (n1 := 1) (n2 := 128) 0 0 ⟨(y 2).val, (y 2).isLt⟩ := by
    funext a
    match a with
    | ⟨0, _⟩ => exact Fin.ext hy0
    | ⟨1, _⟩ => exact Fin.ext hy1
    | ⟨2, _⟩ => rfl
  refine (congrArg (k0_pay2 (F := Ideal) (iblk0 V c 0 t) (iblk0 V c 1 t) (iblk0 V c 2 t)) hy).trans ?_
  refine (block_colSum V c t _ ⟨((((cfg0.win 4).blk t).view.emb y) 0).val, ((((cfg0.win 4).blk t).view.emb y) 0).isLt⟩ ?_).trans ?_
  · show win0_4.index t (0 : Fin 3) * 1 + 1 * (y 0).val = t.val
    omega
  · show colSum V c _ _ = colSum V c _ _
    congr 1
    apply Fin.ext
    show (y 2).val = win0_4.index t (2 : Fin 3) * 128 + 1 * (y 2).val
    omega

/-- An index of the array is in point t's block iff each coordinate is in the block's range on its axis. -/
theorem mem_blk4 (t : Fin cfg0.N) (i : S25x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v48_1).slice (win0_4.rect t)).set ↔ _
  rw [View.set_slice_whole, Rect.mem_set_unit]
  exact Iff.rfl

/-- Row t of the array is the block of point t: the 25 blocks cover it. -/
theorem cover4 (i : S25x1x128.Idx) : ∃ t : Fin cfg0.N, (cfg0.win 4).flush t = true ∧ i ∈ ((cfg0.win 4).blk t).view.set := by
  have hi0 : (i 0).val < 25 := (i 0).isLt
  have hi1 : (i 1).val < 1 := (i 1).isLt
  have hi2 : (i 2).val < 128 := (i 2).isLt
  have hN : cfg0.N = 25 := N_0
  let t : Fin cfg0.N := ⟨(i 0).val, by rw [hN]; omega⟩
  have e := idx_facts t
  have ht : t.val = (i 0).val := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

/-- RESULT ARRAY 1 after the region. -/
theorem final4 (c : Dev nD) : (dat0 (F := Ideal) V c).arrAt 4 cfg0.N = G4 V c :=
  (dat0 (F := Ideal) V c).arrAt_eq_of_cover 4 (G4 V c) (fun t _ => flushed4_eq V c t) cover4

/-- The column sum of the squares of the affine layer over block t's 4000 rows. -/
abbrev colSumSq (c : Dev nD) (t : Fin 25) (j : Fin 128) : EReal := ∑ q : Fin 4000, Y V c ⟨t.val * 4000 + q.val, by omega⟩ j * Y V c ⟨t.val * 4000 + q.val, by omega⟩ j

/-- The array result window 5 ends holding. -/
abbrev G5 (c : Dev nD) : S25x1x128.Idx → EReal := fun i => colSumSq V c ⟨(i 0).val, (i 0).isLt⟩ ⟨(i 2).val, (i 2).isLt⟩

/-- Lane j of point t's payload for window 5. -/
theorem block_colSumSq (c : Dev nD) (t : Fin cfg0.N) (j : Fin 128) (T : Fin 25) (hT : T.val = t.val) :
    k0_pay3 (F := Ideal) (iblk0 V c 0 t) (iblk0 V c 1 t) (iblk0 V c 2 t) (ix3 (0 : Fin 1) (0 : Fin 1) j) = colSumSq V c T j := by
  refine (pay3_apply (iblk0 V c 0 t) (iblk0 V c 1 t) (iblk0 V c 2 t) j).trans ?_
  refine Finset.sum_congr rfl fun q _ => ?_
  have h := block_entry V c t q j ⟨T.val * 4000 + q.val, by omega⟩ (by show T.val * 4000 + q.val = t.val * 4000 + q.val; rw [hT])
  rw [h]

/-- What point t writes back through window 5 is block t of that array. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold out0_5
  rw [View.canon_unit_zero hz3]
  simp only [View.ld_unit_zero (S := S4000x128) hz2, View.ld_unit_zero (S := S128x128) hz2, View.ld_unit_zero (S := S1x128) hz2]
  have e := idx_facts t
  funext y
  show k0_pay3 (F := Ideal) (iblk0 V c 0 t) (iblk0 V c 1 t) (iblk0 V c 2 t) y = G5 V c (((cfg0.win 5).blk t).view.emb y)
  have hy0 : (y 0).val = 0 := by have h : (y 0).val < 1 := (y 0).isLt; omega
  have hy1 : (y 1).val = 0 := by have h : (y 1).val < 1 := (y 1).isLt; omega
  have hy : y = ix3 (n0 := 1) (n1 := 1) (n2 := 128) 0 0 ⟨(y 2).val, (y 2).isLt⟩ := by
    funext a
    match a with
    | ⟨0, _⟩ => exact Fin.ext hy0
    | ⟨1, _⟩ => exact Fin.ext hy1
    | ⟨2, _⟩ => rfl
  refine (congrArg (k0_pay3 (F := Ideal) (iblk0 V c 0 t) (iblk0 V c 1 t) (iblk0 V c 2 t)) hy).trans ?_
  refine (block_colSumSq V c t _ ⟨((((cfg0.win 5).blk t).view.emb y) 0).val, ((((cfg0.win 5).blk t).view.emb y) 0).isLt⟩ ?_).trans ?_
  · show win0_5.index t (0 : Fin 3) * 1 + 1 * (y 0).val = t.val
    omega
  · show colSumSq V c _ _ = colSumSq V c _ _
    congr 1
    apply Fin.ext
    show (y 2).val = win0_5.index t (2 : Fin 3) * 128 + 1 * (y 2).val
    omega

/-- An index of the array is in point t's block iff each coordinate is in the block's range on its axis. -/
theorem mem_blk5 (t : Fin cfg0.N) (i : S25x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v48_2).slice (win0_5.rect t)).set ↔ _
  rw [View.set_slice_whole, Rect.mem_set_unit]
  exact Iff.rfl

/-- Row t of the array is the block of point t: the 25 blocks cover it. -/
theorem cover5 (i : S25x1x128.Idx) : ∃ t : Fin cfg0.N, (cfg0.win 5).flush t = true ∧ i ∈ ((cfg0.win 5).blk t).view.set := by
  have hi0 : (i 0).val < 25 := (i 0).isLt
  have hi1 : (i 1).val < 1 := (i 1).isLt
  have hi2 : (i 2).val < 128 := (i 2).isLt
  have hN : cfg0.N = 25 := N_0
  let t : Fin cfg0.N := ⟨(i 0).val, by rw [hN]; omega⟩
  have e := idx_facts t
  have ht : t.val = (i 0).val := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 128 ≤ (i 2).val ∧ (i 2).val < win0_5.index t (2 : Fin 3) * 128 + 128; omega

/-- RESULT ARRAY 2 after the region. -/
theorem final5 (c : Dev nD) : (dat0 (F := Ideal) V c).arrAt 5 cfg0.N = G5 V c :=
  (dat0 (F := Ideal) V c).arrAt_eq_of_cover 5 (G5 V c) (fun t _ => flushed5_eq V c t) cover5

theorem s_final (c : Dev nD) (t : Fin 25) (j : Fin 128) :
    ((dat0 (F := Ideal) V c).arrAt 4 cfg0.N : S25x1x128.Idx → EReal) (ix3 t (0 : Fin 1) j) = ∑ q : Fin 4000, Y V c ⟨t.val * 4000 + q.val, by omega⟩ j := by
  rw [final4]

theorem ss_final (c : Dev nD) (t : Fin 25) (j : Fin 128) :
    ((dat0 (F := Ideal) V c).arrAt 5 cfg0.N : S25x1x128.Idx → EReal) (ix3 t (0 : Fin 1) j) = ∑ q : Fin 4000, Y V c ⟨t.val * 4000 + q.val, by omega⟩ j * Y V c ⟨t.val * 4000 + q.val, by omega⟩ j := by
  rw [final5]

end Cert.KernelIdeal.Reg0

end
-- ==== Proof.Region1.lean ====
/-
  Region 1 of the kernel program: normalise and rectify, pointwise. Its grid has 25 points; point t reads rows
  4000 t … 4000 t + 3999 of the [100000,128] array y and the five whole [1,128] row vectors (column mean μ, variance v,
  scale γ, shift β, mean-scale s), and writes the same rows of the output with
      max((γ_j (y_rj − s_j μ_j)) (v_j + ε)^(-1/2) + β_j, 0).
  Here: the stored value at an index (`pay_apply`), each window's block as entries of its array (`blk_rows`, `blk_row1` …
  `blk_row5`), what a point writes back as a block of one whole-array function `G` (`flushed_eq`), the blocks covering the
  array (`cover`), and so the output array after the region, index by index (`final`, `h_final`).
-/
import proofs.«151024_j31044023616095_2_alg».proof.Proof.Gen.KernelIdeal.Frame
import proofs.«151024_j31044023616095_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat)

/-- The row of a [1,128] vector that a broadcast to [4000,128] reads at `y`: row 0, the same column. -/
theorem bcast_row (y : S4000x128.Idx) (z : S1x128.Idx) (hz0 : (z 0).val = 0) (hz1 : (z 1).val = (y 1).val) :
    ∀ a : Fin S1x128.rank, (z a).val = if S1x128.size a = 1 then 0
      else (y ⟨a.val + (S4000x128.rank - S1x128.rank), by have := a.isLt; omega⟩).val := by
  intro a
  match a with
  | ⟨0, _⟩ => rw [if_pos (by rfl)]; exact hz0
  | ⟨1, _⟩ => rw [if_neg (by show ¬ (128 : Nat) = 1; omega)]; exact hz1

/-- The body's payload at an index: with `z` the index of row 0 at `y`'s column, the value stored at `y` is
    max((γ (x − s μ)) (v + ε)^(-1/2) + β, 0) of the block's element at `y` and the five row vectors' at `z`. -/
theorem pay_apply (v0 : Vec Ideal S4000x128 .f32) (v2 v4 v9 v14 v20 : Vec Ideal S1x128 .f32)
    (y : S4000x128.Idx) (z : S1x128.Idx) (hz0 : (z 0).val = 0) (hz1 : (z 1).val = (y 1).val) :
    k1_pay1 v0 v2 v4 v9 v14 v20 y
      = max ((v14 z * (v0 y - v2 z * v4 z)) * Ideal.rsqrt (v9 z + Ideal.ofBits .f32 0x3727C5AC#32) + v20 z) 0 := by
  unfold k1_pay1
  simp only [shapeCast_self]
  rw [maximumf_apply, addf_apply, mulf_apply, mulf_apply, subf_apply, broadcast_apply]
  simp only [broadcastTo_apply _ _ y z (bcast_row y z hz0 hz1)]
  rw [mulf_apply]
  show max (v14 z * (v0 y - v2 z * v4 z) * Ideal.rsqrt (v9 z + Ideal.ofBits .f32 0x3727C5AC#32) + v20 z) (Ideal.ofBits .f32 0x00000000#32) = _
  rw [Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The array the output window ends holding: the normalised and rectified value of the entry arrays, index by index. -/
abbrev G (c : Dev nD) : S100000x128.Idx → Elt Ideal .f32 := fun i =>
  Cert.Spec.normRelu (R := 100000) (Ideal.ofBits .f32 0x3727C5AC#32)
    (fun r j => (V c (Pipeline.arrRef spec1 0) : S100000x128.Idx → Elt Ideal .f32) (ix2 r j))
    (fun j => (V c (Pipeline.arrRef spec1 1) : S1x128.Idx → Elt Ideal .f32) (ix2 0 j))
    (fun j => (V c (Pipeline.arrRef spec1 2) : S1x128.Idx → Elt Ideal .f32) (ix2 0 j))
    (fun j => (V c (Pipeline.arrRef spec1 3) : S1x128.Idx → Elt Ideal .f32) (ix2 0 j))
    (fun j => (V c (Pipeline.arrRef spec1 4) : S1x128.Idx → Elt Ideal .f32) (ix2 0 j))
    (fun j => (V c (Pipeline.arrRef spec1 5) : S1x128.Idx → Elt Ideal .f32) (ix2 0 j)) (i 0) (i 1)

/-- The printed index maps over the grid: the row-block windows sit at block (t, 0), the row vectors' at (0, 0). -/
theorem idx_facts : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Input window 0's block at point `t` is rows `4000 t … 4000 t + 3999` of its array. -/
theorem blk_rows (c : Dev nD) (t : Fin cfg1.N) (y : S4000x128.Idx) (k : S100000x128.Idx)
    (hk0 : (k 0).val = t.val * 4000 + (y 0).val) (hk1 : (k 1).val = (y 1).val) :
    (iblk1 V c 0 t : Vec Ideal S4000x128 .f32) y = (V c (Pipeline.arrRef spec1 0) : S100000x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 0) : S100000x128.Idx → Elt Ideal .f32) (funext fun a => Fin.ext ?_)
  match a with
  | ⟨0, _⟩ => show win1_0.index t (0 : Fin 2) * 4000 + 1 * (y 0).val = (k 0).val; omega
  | ⟨1, _⟩ => show win1_0.index t (1 : Fin 2) * 128 + 1 * (y 1).val = (k 1).val; omega

/-- The column-mean window's block at any point is its whole [1,128] array. -/
theorem blk_row1 (c : Dev nD) (t : Fin cfg1.N) (z k : S1x128.Idx) (hk0 : (k 0).val = (z 0).val) (hk1 : (k 1).val = (z 1).val) :
    (iblk1 V c 1 t : Vec Ideal S1x128 .f32) z = (V c (Pipeline.arrRef spec1 1) : S1x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 1) : S1x128.Idx → Elt Ideal .f32) (funext fun a => Fin.ext ?_)
  match a with
  | ⟨0, _⟩ => show win1_1.index t (0 : Fin 2) * 1 + 1 * (z 0).val = (k 0).val; omega
  | ⟨1, _⟩ => show win1_1.index t (1 : Fin 2) * 128 + 1 * (z 1).val = (k 1).val; omega

/-- The variance window's block at any point is its whole [1,128] array. -/
theorem blk_row2 (c : Dev nD) (t : Fin cfg1.N) (z k : S1x128.Idx) (hk0 : (k 0).val = (z 0).val) (hk1 : (k 1).val = (z 1).val) :
    (iblk1 V c 2 t : Vec Ideal S1x128 .f32) z = (V c (Pipeline.arrRef spec1 2) : S1x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 2) : S1x128.Idx → Elt Ideal .f32) (funext fun a => Fin.ext ?_)
  match a with
  | ⟨0, _⟩ => show win1_2.index t (0 : Fin 2) * 1 + 1 * (z 0).val = (k 0).val; omega
  | ⟨1, _⟩ => show win1_2.index t (1 : Fin 2) * 128 + 1 * (z 1).val = (k 1).val; omega

/-- The scale window's block at any point is its whole [1,128] array. -/
theorem blk_row3 (c : Dev nD) (t : Fin cfg1.N) (z k : S1x128.Idx) (hk0 : (k 0).val = (z 0).val) (hk1 : (k 1).val = (z 1).val) :
    (iblk1 V c 3 t : Vec Ideal S1x128 .f32) z = (V c (Pipeline.arrRef spec1 3) : S1x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 3) : S1x128.Idx → Elt Ideal .f32) (funext fun a => Fin.ext ?_)
  match a with
  | ⟨0, _⟩ => show win1_3.index t (0 : Fin 2) * 1 + 1 * (z 0).val = (k 0).val; omega
  | ⟨1, _⟩ => show win1_3.index t (1 : Fin 2) * 128 + 1 * (z 1).val = (k 1).val; omega

/-- The shift window's block at any point is its whole [1,128] array. -/
theorem blk_row4 (c : Dev nD) (t : Fin cfg1.N) (z k : S1x128.Idx) (hk0 : (k 0).val = (z 0).val) (hk1 : (k 1).val = (z 1).val) :
    (iblk1 V c 4 t : Vec Ideal S1x128 .f32) z = (V c (Pipeline.arrRef spec1 4) : S1x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 4) : S1x128.Idx → Elt Ideal .f32) (funext fun a => Fin.ext ?_)
  match a with
  | ⟨0, _⟩ => show win1_4.index t (0 : Fin 2) * 1 + 1 * (z 0).val = (k 0).val; omega
  | ⟨1, _⟩ => show win1_4.index t (1 : Fin 2) * 128 + 1 * (z 1).val = (k 1).val; omega

/-- The mean-scale window's block at any point is its whole [1,128] array. -/
theorem blk_row5 (c : Dev nD) (t : Fin cfg1.N) (z k : S1x128.Idx) (hk0 : (k 0).val = (z 0).val) (hk1 : (k 1).val = (z 1).val) :
    (iblk1 V c 5 t : Vec Ideal S1x128 .f32) z = (V c (Pipeline.arrRef spec1 5) : S1x128.Idx → Elt Ideal .f32) k := by
  obtain ⟨e00, e01, e60, e61, e10, e11, e20, e21, e30, e31, e40, e41, e50, e51⟩ := idx_facts t
  unfold iblk1
  rw [View.read_apply]
  refine congrArg (V c (Pipeline.arrRef spec1 5) : S1x128.Idx → Elt Ideal .f32) (funext fun a => Fin.ext ?_)
  match a with
  | ⟨0, _⟩ => show win1_5.index t (0 : Fin 2) * 1 + 1 * (z 0).val = (k 0).val; omega
  | ⟨1, _⟩ => show win1_5.index t (1 : Fin 2) * 128 + 1 * (z 1).val = (k 1).val; omega

/-- What point `t` writes back is block `t` of `G`. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S1x128) hz]
  obtain ⟨e00, e01, e60, e61, e10, e11, e20, e21, e30, e31, e40, e41, e50, e51⟩ := idx_facts t
  refine funext fun (y : S4000x128.Idx) => ?_
  show k1_pay1 (iblk1 V c 0 t) (iblk1 V c 5 t) (iblk1 V c 1 t) (iblk1 V c 2 t) (iblk1 V c 3 t) (iblk1 V c 4 t) y
      = G V c (((cfg1.win 6).blk t).view.emb y)
  refine (pay_apply (iblk1 V c 0 t) (iblk1 V c 5 t) (iblk1 V c 1 t) (iblk1 V c 2 t) (iblk1 V c 3 t) (iblk1 V c 4 t) y (ix2 0 (y 1)) rfl rfl).trans ?_
  have hr : ((((cfg1.win 6).blk t).view.emb y) 0).val = t.val * 4000 + (y 0).val := by
    show win1_6.index t (0 : Fin 2) * 4000 + 1 * (y 0).val = _; omega
  have hj : ((((cfg1.win 6).blk t).view.emb y) 1).val = (y 1).val := by
    show win1_6.index t (1 : Fin 2) * 128 + 1 * (y 1).val = _; omega
  rw [blk_rows V c t y (ix2 ((((cfg1.win 6).blk t).view.emb y) 0) ((((cfg1.win 6).blk t).view.emb y) 1)) hr hj,
    blk_row1 V c t (ix2 0 (y 1)) (ix2 0 ((((cfg1.win 6).blk t).view.emb y) 1)) rfl hj,
    blk_row2 V c t (ix2 0 (y 1)) (ix2 0 ((((cfg1.win 6).blk t).view.emb y) 1)) rfl hj,
    blk_row3 V c t (ix2 0 (y 1)) (ix2 0 ((((cfg1.win 6).blk t).view.emb y) 1)) rfl hj,
    blk_row4 V c t (ix2 0 (y 1)) (ix2 0 ((((cfg1.win 6).blk t).view.emb y) 1)) rfl hj,
    blk_row5 V c t (ix2 0 (y 1)) (ix2 0 ((((cfg1.win 6).blk t).view.emb y) 1)) rfl hj]
  rfl

/-- Every index of the array is in the block of the point its row falls in. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := rfl
  let t : Fin cfg1.N := ⟨(i 0).val / 4000, by rw [hN]; omega⟩
  obtain ⟨e00, e01, e60, e61, -⟩ := idx_facts t
  have ht : t.val = (i 0).val / 4000 := rfl
  refine ⟨t, flush1_6 t, ?_⟩
  show i ∈ ((View.whole main_v66).slice (win1_6.rect t)).set
  rw [View.set_slice_whole, Rect.mem_set_unit]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The array after the run is `G`. -/
theorem final (c : Dev nD) : (dat1 (F := Ideal) V c).arrAt 6 cfg1.N = G V c :=
  (dat1 (F := Ideal) V c).arrAt_eq_of_cover 6 (G V c) (fun t _ => flushed_eq V c t) cover

/-- Region 1 leaves in its output array, at row `r` and column `j`, the normalised and rectified value of the arrays
    it found at entry. -/
theorem h_final (c : Dev nD) : ∀ (r : Fin 100000) (j : Fin 128), (dat1 (F := Ideal) V c).arrAt 6 cfg1.N (ix2 r j)
      = Cert.Spec.normRelu (R := 100000) (Ideal.ofBits .f32 0x3727C5AC#32)
          (fun r j => (V c (Pipeline.arrRef spec1 0) : S100000x128.Idx → Elt Ideal .f32) (ix2 r j))
          (fun j => (V c (Pipeline.arrRef spec1 1) : S1x128.Idx → Elt Ideal .f32) (ix2 0 j))
          (fun j => (V c (Pipeline.arrRef spec1 2) : S1x128.Idx → Elt Ideal .f32) (ix2 0 j))
          (fun j => (V c (Pipeline.arrRef spec1 3) : S1x128.Idx → Elt Ideal .f32) (ix2 0 j))
          (fun j => (V c (Pipeline.arrRef spec1 4) : S1x128.Idx → Elt Ideal .f32) (ix2 0 j))
          (fun j => (V c (Pipeline.arrRef spec1 5) : S1x128.Idx → Elt Ideal .f32) (ix2 0 j)) r j := by
  intro r j
  rw [final V c]

end Cert.KernelIdeal.Reg1

end
-- ==== Proof.Region2.lean ====
/-
  Region 2 of the kernel side, read as mathematics: the first result array ends holding the affine layer
  x · Wᵀ + b of the region's three operands, and the two partial-sum arrays hold, per block of 4000 rows, the column
  sums of that layer and of its squares. First the body's payloads at an entry (a contraction over the 128 features
  plus the bias; a sum over the block's rows), then each operand's block as rows of its array, then the write-backs
  of the 100 points, whose blocks tile each result array.
-/
import proofs.«151024_j31044023616095_2_alg».proof.Proof.Gen.KernelIdeal.Frame
import proofs.«151024_j31044023616095_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.ValueIdx
open Idealize.ShloMosaic.TcCoe Idealize.SL.Sem
open Idealize.ShloMosaic.Pipeline (Dat)

abbrev D0 := dot_S4000x128_S128x128_S4000x128_1_0_0_1_n_n

theorem lhs_row (i : S4000x128.Idx) (p : D0.contr.Idx) : (D0.lhsIdx i p 0).val = (i 0).val := by
  unfold DotDims.lhsIdx
  rw [dif_neg (show ¬(0 : Fin S4000x128.rank) ∈ D0.lhsBatch by decide), dif_pos (show (0 : Fin S4000x128.rank) ∈ D0.lhsNonContracting by decide)]
  rfl
theorem lhs_col (i : S4000x128.Idx) (p : D0.contr.Idx) : (D0.lhsIdx i p 1).val = (p ⟨0, by decide⟩).val :=
  D0.lhsIdx_val_of_single rfl i p
theorem rhs_row (i : S4000x128.Idx) (p : D0.contr.Idx) : (D0.rhsIdx i p 0).val = (p ⟨0, by decide⟩).val :=
  D0.rhsIdx_val_of_single rfl i p
theorem rhs_col (i : S4000x128.Idx) (p : D0.contr.Idx) : (D0.rhsIdx i p 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The linear layer on one block, entry by entry: row q of the block against column j of the second operand, plus the
    bias row's entry j. -/
theorem pay1_apply (x0 : Vec Ideal S4000x128 .f32) (x1 : Vec Ideal S128x128 .f32) (x2 : Vec Ideal S1x128 .f32)
    (q : Fin 4000) (j : Fin 128) :
    k2_pay1 (F := Ideal) x0 x1 x2 (ix2 q j) = (∑ k : Fin 128, x0 (ix2 q k) * x1 (ix2 k j)) + x2 (ix2 0 j) := by
  unfold k2_pay1
  simp only [shapeCast_self]
  rw [addf_apply]
  rw [broadcastTo_apply x2 broadcasts_S1x128_S4000x128 (ix2 q j) (ix2 0 j) (fun a => by
    match a with
    | ⟨0, _⟩ => rfl
    | ⟨1, _⟩ => rfl)]
  congr 1
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 q j) ((contrEquiv1 D0 128 rfl rfl).symm k) = ix2 q k := funext fun a => Fin.ext (by
    match a with
    | ⟨0, _⟩ => exact lhs_row _ _
    | ⟨1, _⟩ => exact (lhs_col _ _).trans hk)
  have er : D0.rhsIdx (ix2 q j) ((contrEquiv1 D0 128 rfl rfl).symm k) = ix2 k j := funext fun a => Fin.ext (by
    match a with
    | ⟨0, _⟩ => exact (rhs_row _ _).trans hk
    | ⟨1, _⟩ => exact rhs_col _ _)
  show x0 (D0.lhsIdx (ix2 q j) ((contrEquiv1 D0 128 rfl rfl).symm k)) * x1 (D0.rhsIdx (ix2 q j) ((contrEquiv1 D0 128 rfl rfl).symm k)) = _
  rw [el, er]

/-- Reading a reduced lane: the reduction's inserted index over axis 0 at lane j and coordinate q is (q, j). -/
theorem lift_eq (j : Fin 128) (q : Fin 4000) : reduces_S4000x128_S128.lift (ix1 j) q = ix2 q j := by
  funext a
  match a with
  | ⟨0, _⟩ => rfl
  | ⟨1, _⟩ => rfl

/-- A sum over axis 0 of a [4000,128] block from the zero word, read at lane j: the column's sum. -/
theorem colsum (src : FVec Ideal S4000x128 .f32) (hφ : FKind.Formats .f32) (hacc : (0x00000000#32 : BitVec 32) = 0x00000000#32) (j : Fin 128) :
    multiReduction (F := Ideal) .add [0] S128 src 0x00000000#32 reduces_S4000x128_S128 hφ hacc (ix1 j) = ∑ q : Fin 4000, src (ix2 q j) :=
  (Ideal.multiReduction_add_single src 0x00000000#32 reduces_S4000x128_S128 hφ hacc (ix1 j)).trans
    (Finset.sum_congr rfl fun q _ => congrArg src (lift_eq j q))

/-- The [128] → [1,128] → [1,1,128] reshapes of a lane vector read at (0, 0, j) are the vector at j. -/
theorem reshape_apply (v : FVec Ideal S128 .f32) (j : Fin 128) :
    shapeCast S1x1x128 (shapeCast S1x128 v shapeCasts_S128_S1x128) shapeCasts_S1x128_S1x1x128 (ix3 (0 : Fin 1) (0 : Fin 1) j) = v (ix1 j) := by
  refine (shapeCast_apply _ shapeCasts_S1x128_S1x1x128 (ix3 (0 : Fin 1) (0 : Fin 1) j) (ix2 (0 : Fin 1) j) ?_).trans ?_
  · rw [Shape.rowMajor_val_two, Shape.rowMajor_val_three]; rfl
  refine (shapeCast_apply _ shapeCasts_S128_S1x128 (ix2 (0 : Fin 1) j) (ix1 j) ?_).trans rfl
  rw [Shape.rowMajor_val_one, Shape.rowMajor_val_two]
  show j.val = 0 * 128 + j.val
  omega

/-- The block's column sums of the linear layer. -/
theorem pay2_apply (x0 : Vec Ideal S4000x128 .f32) (x1 : Vec Ideal S128x128 .f32) (x2 : Vec Ideal S1x128 .f32) (j : Fin 128) :
    k2_pay2 (F := Ideal) x0 x1 x2 (ix3 (0 : Fin 1) (0 : Fin 1) j) = ∑ q : Fin 4000, k2_pay1 (F := Ideal) x0 x1 x2 (ix2 q j) := by
  unfold k2_pay2
  rw [reshape_apply]
  exact colsum _ _ _ j

/-- The block's column sums of the squares of the linear layer. -/
theorem pay3_apply (x0 : Vec Ideal S4000x128 .f32) (x1 : Vec Ideal S128x128 .f32) (x2 : Vec Ideal S1x128 .f32) (j : Fin 128) :
    k2_pay3 (F := Ideal) x0 x1 x2 (ix3 (0 : Fin 1) (0 : Fin 1) j) = ∑ q : Fin 4000, k2_pay1 (F := Ideal) x0 x1 x2 (ix2 q j) * k2_pay1 (F := Ideal) x0 x1 x2 (ix2 q j) := by
  unfold k2_pay3
  rw [reshape_apply]
  exact (colsum _ _ _ j).trans (Finset.sum_congr rfl fun q _ => mulf_apply _ _ _)

variable (V : (c : Dev nD) → (b : Ref sig .tc) → Buf (Elt Ideal) ((c : Thread nD τ).loc b))

/-- The features the region finds in its first operand, by row and feature. -/
abbrev X (c : Dev nD) : Fin 400000 → Fin 128 → EReal := fun r k => (V c (Pipeline.arrRef spec2 0) : S400000x128.Idx → EReal) (ix2 r k)
/-- The weights: the second operand holds the transpose, so entry (j, k) of the weights is its entry (k, j). -/
abbrev Wm (c : Dev nD) : Fin 128 → Fin 128 → EReal := fun j k => (V c (Pipeline.arrRef spec2 1) : S128x128.Idx → EReal) (ix2 k j)
/-- The bias: the third operand's one row. -/
abbrev Bv (c : Dev nD) : Fin 128 → EReal := fun j => (V c (Pipeline.arrRef spec2 2) : S1x128.Idx → EReal) (ix2 (0 : Fin 1) j)
/-- The affine layer of the three. -/
abbrev Y (c : Dev nD) : Fin 400000 → Fin 128 → EReal := Cert.Spec.lin (R := 400000) (X V c) (Wm V c) (Bv V c)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the row-blocked windows sit at block (t, 0), the whole windows at (0, 0),
    the partial-sum windows at (t, 0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- The first operand's block at point t holds rows 4000 t … 4000 t + 3999 of the features. -/
theorem x_block (c : Dev nD) (t : Fin cfg2.N) (q : Fin 4000) (k : Fin 128) (r : Fin 400000) (hr : r.val = t.val * 4000 + q.val) :
    (iblk2 (F := Ideal) V c 0 t : Vec Ideal S4000x128 .f32) (ix2 q k) = X V c r k := by
  obtain ⟨e0, e1, -⟩ := idx_facts t
  show (V c (Pipeline.arrRef spec2 0) : S400000x128.Idx → EReal) (((cfg2.win 0).blk t).view.emb (ix2 q k)) = (V c (Pipeline.arrRef spec2 0) : S400000x128.Idx → EReal) (ix2 r k)
  congr 1
  funext a
  apply Fin.ext
  match a with
  | ⟨0, _⟩ => show win2_0.index t (0 : Fin 2) * 4000 + 1 * q.val = r.val; omega
  | ⟨1, _⟩ => show win2_0.index t (1 : Fin 2) * 128 + 1 * k.val = k.val; omega

/-- The second operand's block at every point is the whole array. -/
theorem w_block (c : Dev nD) (t : Fin cfg2.N) (k j : Fin 128) :
    (iblk2 (F := Ideal) V c 1 t : Vec Ideal S128x128 .f32) (ix2 k j) = Wm V c j k := by
  obtain ⟨-, -, e2, e3, -⟩ := idx_facts t
  show (V c (Pipeline.arrRef spec2 1) : S128x128.Idx → EReal) (((cfg2.win 1).blk t).view.emb (ix2 k j)) = (V c (Pipeline.arrRef spec2 1) : S128x128.Idx → EReal) (ix2 k j)
  congr 1
  funext a
  apply Fin.ext
  match a with
  | ⟨0, _⟩ => show win2_1.index t (0 : Fin 2) * 128 + 1 * k.val = k.val; omega
  | ⟨1, _⟩ => show win2_1.index t (1 : Fin 2) * 128 + 1 * j.val = j.val; omega

/-- The third operand's block at every point is the whole row. -/
theorem b_block (c : Dev nD) (t : Fin cfg2.N) (j : Fin 128) :
    (iblk2 (F := Ideal) V c 2 t : Vec Ideal S1x128 .f32) (ix2 (0 : Fin 1) j) = Bv V c j := by
  obtain ⟨-, -, -, -, e4, e5, -⟩ := idx_facts t
  show (V c (Pipeline.arrRef spec2 2) : S1x128.Idx → EReal) (((cfg2.win 2).blk t).view.emb (ix2 (0 : Fin 1) j)) = (V c (Pipeline.arrRef spec2 2) : S1x128.Idx → EReal) (ix2 (0 : Fin 1) j)
  congr 1
  funext a
  apply Fin.ext
  match a with
  | ⟨0, _⟩ => show win2_2.index t (0 : Fin 2) * 1 + 1 * 0 = 0; omega
  | ⟨1, _⟩ => show win2_2.index t (1 : Fin 2) * 128 + 1 * j.val = j.val; omega

/-- Entry (q, j) of point t's payload is the affine layer at row 4000 t + q, feature j. -/
theorem block_entry (c : Dev nD) (t : Fin cfg2.N) (q : Fin 4000) (j : Fin 128) (r : Fin 400000) (hr : r.val = t.val * 4000 + q.val) :
    k2_pay1 (F := Ideal) (iblk2 V c 0 t) (iblk2 V c 1 t) (iblk2 V c 2 t) (ix2 q j) = Y V c r j := by
  refine (pay1_apply (iblk2 V c 0 t) (iblk2 V c 1 t) (iblk2 V c 2 t) q j).trans ?_
  show _ = (∑ k : Fin 128, X V c r k * Wm V c j k) + Bv V c j
  exact congrArg₂ (· + ·) (Finset.sum_congr rfl fun k _ => congrArg₂ (· * ·) (x_block V c t q k r hr) (w_block V c t k j)) (b_block V c t j)

/-- The array the first result window ends holding: the affine layer, row by row. -/
abbrev G3 (c : Dev nD) : S400000x128.Idx → EReal := fun i => Y V c ⟨(i 0).val, (i 0).isLt⟩ ⟨(i 1).val, (i 1).isLt⟩

/-- What point t writes back through the first result window is block t of the affine layer. -/
theorem flushed3_eq (c : Dev nD) (t : Fin cfg2.N) :
    (dat2 (F := Ideal) V c).flushed 3 t = ((cfg2.win 3).blk t).view.read (Elt Ideal) (G3 V c) := by
  show (cfg2.win 3).cut (grid2.coords t) ((dat2 (F := Ideal) V c).after 3 t) = _
  rw [after2_3]
  unfold out2_3
  rw [View.canon_unit_zero hz2]
  simp only [View.ld_unit_zero (S := S4000x128) hz2, View.ld_unit_zero (S := S128x128) hz2, View.ld_unit_zero (S := S1x128) hz2]
  obtain ⟨-, -, -, -, -, -, e6, e7, -⟩ := idx_facts t
  funext y
  show k2_pay1 (F := Ideal) (iblk2 V c 0 t) (iblk2 V c 1 t) (iblk2 V c 2 t) y = G3 V c (((cfg2.win 3).blk t).view.emb y)
  have hy : y = ix2 (n0 := 4000) (n1 := 128) ⟨(y 0).val, (y 0).isLt⟩ ⟨(y 1).val, (y 1).isLt⟩ := by
    funext a
    match a with
    | ⟨0, _⟩ => rfl
    | ⟨1, _⟩ => rfl
  refine (congrArg (k2_pay1 (F := Ideal) (iblk2 V c 0 t) (iblk2 V c 1 t) (iblk2 V c 2 t)) hy).trans ?_
  refine (block_entry V c t _ _ ⟨((((cfg2.win 3).blk t).view.emb y) 0).val, ((((cfg2.win 3).blk t).view.emb y) 0).isLt⟩ ?_).trans ?_
  · show win2_3.index t (0 : Fin 2) * 4000 + 1 * (y 0).val = t.val * 4000 + (y 0).val
    omega
  · show Y V c _ _ = Y V c _ _
    congr 1
    apply Fin.ext
    show (y 1).val = win2_3.index t (1 : Fin 2) * 128 + 1 * (y 1).val
    omega

/-- An index of the array is in point t's block iff each coordinate is in the block's range on its axis. -/
theorem mem_blk3 (t : Fin cfg2.N) (i : S400000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v115_0).slice (win2_3.rect t)).set ↔ _
  rw [View.set_slice_whole, Rect.mem_set_unit]
  exact Iff.rfl

/-- Row r is in the block of point r / 4000: the 100 blocks of 4000 rows cover the array. -/
theorem cover3 (i : S400000x128.Idx) : ∃ t : Fin cfg2.N, (cfg2.win 3).flush t = true ∧ i ∈ ((cfg2.win 3).blk t).view.set := by
  have hi0 : (i 0).val < 400000 := (i 0).isLt
  have hi1 : (i 1).val < 128 := (i 1).isLt
  have hN : cfg2.N = 100 := N_2
  let t : Fin cfg2.N := ⟨(i 0).val / 4000, by rw [hN]; omega⟩
  obtain ⟨-, -, -, -, -, -, e6, e7, -⟩ := idx_facts t
  have ht : t.val = (i 0).val / 4000 := rfl
  refine ⟨t, flush2_3 t, ?_⟩
  rw [mem_blk3]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- THE FIRST RESULT ARRAY after the region: the affine layer of the operands as the region found them. -/
theorem final3 (c : Dev nD) : (dat2 (F := Ideal) V c).arrAt 3 cfg2.N = G3 V c :=
  (dat2 (F := Ideal) V c).arrAt_eq_of_cover 3 (G3 V c) (fun t _ => flushed3_eq V c t) (cover3)

theorem y_final (c : Dev nD) (r : Fin 400000) (j : Fin 128) :
    ((dat2 (F := Ideal) V c).arrAt 3 cfg2.N : S400000x128.Idx → EReal) (ix2 r j) = Y V c r j := by
  rw [final3]

/-- The column sum of the affine layer over block t's 4000 rows. -/
abbrev colSum (c : Dev nD) (t : Fin 100) (j : Fin 128) : EReal := ∑ q : Fin 4000, Y V c ⟨t.val * 4000 + q.val, by omega⟩ j

/-- The array result window 4 ends holding. -/
abbrev G4 (c : Dev nD) : S100x1x128.Idx → EReal := fun i => colSum V c ⟨(i 0).val, (i 0).isLt⟩ ⟨(i 2).val, (i 2).isLt⟩

/-- Lane j of point t's payload for window 4. -/
theorem block_colSum (c : Dev nD) (t : Fin cfg2.N) (j : Fin 128) (T : Fin 100) (hT : T.val = t.val) :
    k2_pay2 (F := Ideal) (iblk2 V c 0 t) (iblk2 V c 1 t) (iblk2 V c 2 t) (ix3 (0 : Fin 1) (0 : Fin 1) j) = colSum V c T j := by
  refine (pay2_apply (iblk2 V c 0 t) (iblk2 V c 1 t) (iblk2 V c 2 t) j).trans ?_
  refine Finset.sum_congr rfl fun q _ => ?_
  have h := block_entry V c t q j ⟨T.val * 4000 + q.val, by omega⟩ (by show T.val * 4000 + q.val = t.val * 4000 + q.val; rw [hT])
  rw [h]

/-- What point t writes back through window 4 is block t of that array. -/
theorem flushed4_eq (c : Dev nD) (t : Fin cfg2.N) :
    (dat2 (F := Ideal) V c).flushed 4 t = ((cfg2.win 4).blk t).view.read (Elt Ideal) (G4 V c) := by
  show (cfg2.win 4).cut (grid2.coords t) ((dat2 (F := Ideal) V c).after 4 t) = _
  rw [after2_4]
  unfold out2_4
  rw [View.canon_unit_zero hz3]
  simp only [View.ld_unit_zero (S := S4000x128) hz2, View.ld_unit_zero (S := S128x128) hz2, View.ld_unit_zero (S := S1x128) hz2]
  have e := idx_facts t
  funext y
  show k2_pay2 (F := Ideal) (iblk2 V c 0 t) (iblk2 V c 1 t) (iblk2 V c 2 t) y = G4 V c (((cfg2.win 4).blk t).view.emb y)
  have hy0 : (y 0).val = 0 := by have h : (y 0).val < 1 := (y 0).isLt; omega
  have hy1 : (y 1).val = 0 := by have h : (y 1).val < 1 := (y 1).isLt; omega
  have hy : y = ix3 (n0 := 1) (n1 := 1) (n2 := 128) 0 0 ⟨(y 2).val, (y 2).isLt⟩ := by
    funext a
    match a with
    | ⟨0, _⟩ => exact Fin.ext hy0
    | ⟨1, _⟩ => exact Fin.ext hy1
    | ⟨2, _⟩ => rfl
  refine (congrArg (k2_pay2 (F := Ideal) (iblk2 V c 0 t) (iblk2 V c 1 t) (iblk2 V c 2 t)) hy).trans ?_
  refine (block_colSum V c t _ ⟨((((cfg2.win 4).blk t).view.emb y) 0).val, ((((cfg2.win 4).blk t).view.emb y) 0).isLt⟩ ?_).trans ?_
  · show win2_4.index t (0 : Fin 3) * 1 + 1 * (y 0).val = t.val
    omega
  · show colSum V c _ _ = colSum V c _ _
    congr 1
    apply Fin.ext
    show (y 2).val = win2_4.index t (2 : Fin 3) * 128 + 1 * (y 2).val
    omega

/-- An index of the array is in point t's block iff each coordinate is in the block's range on its axis. -/
theorem mem_blk4 (t : Fin cfg2.N) (i : S100x1x128.Idx) :
    i ∈ ((cfg2.win 4).blk t).view.set ↔ ∀ a : Fin 3, win2_4.index t a * S1x1x128.size a ≤ (i a).val ∧ (i a).val < win2_4.index t a * S1x1x128.size a + S1x1x128.size a := by
  show i ∈ ((View.whole main_v115_1).slice (win2_4.rect t)).set ↔ _
  rw [View.set_slice_whole, Rect.mem_set_unit]
  exact Iff.rfl

/-- Row t of the array is the block of point t: the 100 blocks cover it. -/
theorem cover4 (i : S100x1x128.Idx) : ∃ t : Fin cfg2.N, (cfg2.win 4).flush t = true ∧ i ∈ ((cfg2.win 4).blk t).view.set := by
  have hi0 : (i 0).val < 100 := (i 0).isLt
  have hi1 : (i 1).val < 1 := (i 1).isLt
  have hi2 : (i 2).val < 128 := (i 2).isLt
  have hN : cfg2.N = 100 := N_2
  let t : Fin cfg2.N := ⟨(i 0).val, by rw [hN]; omega⟩
  have e := idx_facts t
  have ht : t.val = (i 0).val := rfl
  refine ⟨t, flush2_4 t, ?_⟩
  rw [mem_blk4]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1 ≤ (i 1).val ∧ (i 1).val < win2_4.index t (1 : Fin 3) * 1 + 1; omega
  | ⟨2, _⟩ => show win2_4.index t (2 : Fin 3) * 128 ≤ (i 2).val ∧ (i 2).val < win2_4.index t (2 : Fin 3) * 128 + 128; omega

/-- RESULT ARRAY 1 after the region. -/
theorem final4 (c : Dev nD) : (dat2 (F := Ideal) V c).arrAt 4 cfg2.N = G4 V c :=
  (dat2 (F := Ideal) V c).arrAt_eq_of_cover 4 (G4 V c) (fun t _ => flushed4_eq V c t) cover4

/-- The column sum of the squares of the affine layer over block t's 4000 rows. -/
abbrev colSumSq (c : Dev nD) (t : Fin 100) (j : Fin 128) : EReal := ∑ q : Fin 4000, Y V c ⟨t.val * 4000 + q.val, by omega⟩ j * Y V c ⟨t.val * 4000 + q.val, by omega⟩ j

/-- The array result window 5 ends holding. -/
abbrev G5 (c : Dev nD) : S100x1x128.Idx → EReal := fun i => colSumSq V c ⟨(i 0).val, (i 0).isLt⟩ ⟨(i 2).val, (i 2).isLt⟩

/-- Lane j of point t's payload for window 5. -/
theorem block_colSumSq (c : Dev nD) (t : Fin cfg2.N) (j : Fin 128) (T : Fin 100) (hT : T.val = t.val) :
    k2_pay3 (F := Ideal) (iblk2 V c 0 t) (iblk2 V c 1 t) (iblk2 V c 2 t) (ix3 (0 : Fin 1) (0 : Fin 1) j) = colSumSq V c T j := by
  refine (pay3_apply (iblk2 V c 0 t) (iblk2 V c 1 t) (iblk2 V c 2 t) j).trans ?_
  refine Finset.sum_congr rfl fun q _ => ?_
  have h := block_entry V c t q j ⟨T.val * 4000 + q.val, by omega⟩ (by show T.val * 4000 + q.val = t.val * 4000 + q.val; rw [hT])
  rw [h]

/-- What point t writes back through window 5 is block t of that array. -/
theorem flushed5_eq (c : Dev nD) (t : Fin cfg2.N) :
    (dat2 (F := Ideal) V c).flushed 5 t = ((cfg2.win 5).blk t).view.read (Elt Ideal) (G5 V c) := by
  show (cfg2.win 5).cut (grid2.coords t) ((dat2 (F := Ideal) V c).after 5 t) = _
  rw [after2_5]
  unfold out2_5
  rw [View.canon_unit_zero hz3]
  simp only [View.ld_unit_zero (S := S4000x128) hz2, View.ld_unit_zero (S := S128x128) hz2, View.ld_unit_zero (S := S1x128) hz2]
  have e := idx_facts t
  funext y
  show k2_pay3 (F := Ideal) (iblk2 V c 0 t) (iblk2 V c 1 t) (iblk2 V c 2 t) y = G5 V c (((cfg2.win 5).blk t).view.emb y)
  have hy0 : (y 0).val = 0 := by have h : (y 0).val < 1 := (y 0).isLt; omega
  have hy1 : (y 1).val = 0 := by have h : (y 1).val < 1 := (y 1).isLt; omega
  have hy : y = ix3 (n0 := 1) (n1 := 1) (n2 := 128) 0 0 ⟨(y 2).val, (y 2).isLt⟩ := by
    funext a
    match a with
    | ⟨0, _⟩ => exact Fin.ext hy0
    | ⟨1, _⟩ => exact Fin.ext hy1
    | ⟨2, _⟩ => rfl
  refine (congrArg (k2_pay3 (F := Ideal) (iblk2 V c 0 t) (iblk2 V c 1 t) (iblk2 V c 2 t)) hy).trans ?_
  refine (block_colSumSq V c t _ ⟨((((cfg2.win 5).blk t).view.emb y) 0).val, ((((cfg2.win 5).blk t).view.emb y) 0).isLt⟩ ?_).trans ?_
  · show win2_5.index t (0 : Fin 3) * 1 + 1 * (y 0).val = t.val
    omega
  · show colSumSq V c _ _ = colSumSq V c _ _
    congr 1
    apply Fin.ext
    show (y 2).val = win2_5.index t (2 : Fin 3) * 128 + 1 * (y 2).val
    omega

/-- An index of the array is in point t's block iff each coordinate is in the block's range on its axis. -/
theorem mem_blk5 (t : Fin cfg2.N) (i : S100x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v115_2).slice (win2_5.rect t)).set ↔ _
  rw [View.set_slice_whole, Rect.mem_set_unit]
  exact Iff.rfl

/-- Row t of the array is the block of point t: the 100 blocks cover it. -/
theorem cover5 (i : S100x1x128.Idx) : ∃ t : Fin cfg2.N, (cfg2.win 5).flush t = true ∧ i ∈ ((cfg2.win 5).blk t).view.set := by
  have hi0 : (i 0).val < 100 := (i 0).isLt
  have hi1 : (i 1).val < 1 := (i 1).isLt
  have hi2 : (i 2).val < 128 := (i 2).isLt
  have hN : cfg2.N = 100 := N_2
  let t : Fin cfg2.N := ⟨(i 0).val, by rw [hN]; omega⟩
  have e := idx_facts t
  have ht : t.val = (i 0).val := rfl
  refine ⟨t, flush2_5 t, ?_⟩
  rw [mem_blk5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 1 ≤ (i 1).val ∧ (i 1).val < win2_5.index t (1 : Fin 3) * 1 + 1; omega
  | ⟨2, _⟩ => show win2_5.index t (2 : Fin 3) * 128 ≤ (i 2).val ∧ (i 2).val < win2_5.index t (2 : Fin 3) * 128 + 128; omega

/-- RESULT ARRAY 2 after the region. -/
theorem final5 (c : Dev nD) : (dat2 (F := Ideal) V c).arrAt 5 cfg2.N = G5 V c :=
  (dat2 (F := Ideal) V c).arrAt_eq_of_cover 5 (G5 V c) (fun t _ => flushed5_eq V c t) cover5

theorem s_final (c : Dev nD) (t : Fin 100) (j : Fin 128) :
    ((dat2 (F := Ideal) V c).arrAt 4 cfg2.N : S100x1x128.Idx → EReal) (ix3 t (0 : Fin 1) j) = ∑ q : Fin 4000, Y V c ⟨t.val * 4000 + q.val, by omega⟩ j := by
  rw [final4]

theorem ss_final (c : Dev nD) (t : Fin 100) (j : Fin 128) :
    ((dat2 (F := Ideal) V c).arrAt 5 cfg2.N : S100x1x128.Idx → EReal) (ix3 t (0 : Fin 1) j) = ∑ q : Fin 4000, Y V c ⟨t.val * 4000 + q.val, by omega⟩ j * Y V c ⟨t.val * 4000 + q.val, by omega⟩ j := by
  rw [final5]

end Cert.KernelIdeal.Reg2

end
-- ==== Proof.Region3.lean ====
/-
  Region 3 of the kernel program: normalise and rectify, pointwise. Its grid has 100 points; point t reads rows
  4000 t … 4000 t + 3999 of the [400000,128] array y and the five whole [1,128] row vectors (column mean μ, variance v,
  scale γ, shift β, mean-scale s), and writes the same rows of the output with
      max((γ_j (y_rj − s_j μ_j)) (v_j + ε)^(-1/2) + β_j, 0).
  Here: the stored value at an index (`pay_apply`), each window's block as entries of its array (`blk_rows`, `blk_row1` …
  `blk_row5`), what a point writes back as a block of one whole-array function `G` (`flushed_eq`), the blocks covering the
  array (`cover`), and so the output array after the region, index by index (`final`, `h_final`).
-/
import proofs.«151024_j31044023616095_2_alg».proof.Proof.Gen.KernelIdeal.Frame
import proofs.«151024_j31044023616095_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg3

open Cert.KernelIdeal Cert.KernelIdeal.Gen Idealize.ShloMosaic Idealize.ShloMosaic.TcCoe Idealize.ShloMosaic.ValueIdx
open Idealize.ShloMosaic.Pipeline (Dat)

/-- The row of a [1,128] vector that a broadcast to [4000,128] reads at `y`: row 0, the same column. -/
theorem bcast_row (y : S4000x128.Idx) (z : S1x128.Idx) (hz0 : (z 0).val = 0) (hz1 : (z 1).val = (y 1).val) :
    ∀ a : Fin S1x128.rank, (z a).val = if S1x128.size a = 1 then 0
      else (y ⟨a.val + (S4000x128.rank - S1x128.rank), by have := a.isLt; omega⟩).val := by
  intro a
  match a with
  | ⟨0, _⟩ => rw [if_pos (by rfl)]; exact hz0
  | ⟨1, _⟩ => rw [if_neg (by show ¬ (128 : Nat) = 1; omega)]; exact hz1

/-- The body's payload at an index: with `z` the index of row 0 at `y`'s column, the value stored at `y` is
    max((γ (x − s μ)) (v + ε)^(-1/2) + β, 0) of the block's element at `y` and the five row vectors' at `z`. -/
theorem pay_apply (v0 : Vec Ideal S4000x128 .f32) (v2 v4 v9 v14 v20 : Vec Ideal S1x128 .f32)
    (y : S4000x128.Idx) (z : S1x128.Idx) (hz0 : (z 0).val = 0) (hz1 : (z 1).val = (y 1).val) :
    k3_pay1 v0 v2 v4 v9 v14 v20 y
      = max ((v14 z * (v0 y - v2 z * v4 z)) * Ideal.rsqrt (v9 z + Ideal.ofBits .f32 0x3727C5AC#32) + v20 z) 0 := by
  unfold k3_pay1
  simp only [shapeCast_self]
  rw [maximumf_apply, addf_apply, mulf_apply, mulf_apply, subf_apply, broadcast_apply]
  simp only [broadcastTo_apply _ _ y z (bcast_row y z hz0 hz1)]
  rw [mulf_apply]
  show max (v14 z * (v0 y - v2 z * v4 z) * Ideal.rsqrt (v9 z + Ideal.ofBits .f32 0x3727C5AC#32) + v20 z) (Ideal.ofBits .f32 0x00000000#32) = _
  rw [Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The array the output window ends holding: the normalised and rectified value of the entry arrays, index by index. -/
abbrev G (c : Dev nD) : S400000x128.Idx → Elt Ideal .f32 := fun i =>
  Cert.Spec.normRelu (R := 400000) (Ideal.ofBits .f32 0x3727C5AC#32)
    (fun r j => (V c (Pipeline.arrRef spec3 0) : S400000x128.Idx → Elt Ideal .f32) (ix2 r j))
    (fun j => (V c (Pipeline.arrRef spec3 1) : S1x128.Idx → Elt Ideal .f32) (ix2 0 j))
    (fun j => (V c (Pipeline.arrRef spec3 2) : S1x128.Idx → Elt Ideal .f32) (ix2 0 j))
    (fun j => (V c (Pipeline.arrRef spec3 3) : S1x128.Idx → Elt Ideal .f32) (ix2 0 j))
    (fun j => (V c (Pipeline.arrRef spec3 4) : S1x128.Idx → Elt Ideal .f32) (ix2 0 j))
    (fun j => (V c (Pipeline.arrRef spec3 5) : S1x128.Idx → Elt Ideal .f32) (ix2 0 j)) (i 0) (i 1)

/-- The printed index maps over the grid: the row-block windows sit at block (t, 0), the row vectors' at (0, 0). -/
theorem idx_facts : ∀ t : Fin cfg3.N,
    win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Input window 0's block at point `t` is rows `4000 t … 4000 t + 3999` of its array. -/
theorem blk_rows (c : Dev nD) (t : Fin cfg3.N) (y : S4000x128.Idx) (k : S400000x128.Idx)
    (hk0 : (k 0).val = t.val * 4000 + (y 0).val) (hk1 : (k 1).val = (y 1).val) :
    (iblk3 V c 0 t : Vec Ideal S4000x128 .f32) y = (V c (Pipeline.arrRef spec3 0) : S400000x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 0) : S400000x128.Idx → Elt Ideal .f32) (funext fun a => Fin.ext ?_)
  match a with
  | ⟨0, _⟩ => show win3_0.index t (0 : Fin 2) * 4000 + 1 * (y 0).val = (k 0).val; omega
  | ⟨1, _⟩ => show win3_0.index t (1 : Fin 2) * 128 + 1 * (y 1).val = (k 1).val; omega

/-- The column-mean window's block at any point is its whole [1,128] array. -/
theorem blk_row1 (c : Dev nD) (t : Fin cfg3.N) (z k : S1x128.Idx) (hk0 : (k 0).val = (z 0).val) (hk1 : (k 1).val = (z 1).val) :
    (iblk3 V c 1 t : Vec Ideal S1x128 .f32) z = (V c (Pipeline.arrRef spec3 1) : S1x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 1) : S1x128.Idx → Elt Ideal .f32) (funext fun a => Fin.ext ?_)
  match a with
  | ⟨0, _⟩ => show win3_1.index t (0 : Fin 2) * 1 + 1 * (z 0).val = (k 0).val; omega
  | ⟨1, _⟩ => show win3_1.index t (1 : Fin 2) * 128 + 1 * (z 1).val = (k 1).val; omega

/-- The variance window's block at any point is its whole [1,128] array. -/
theorem blk_row2 (c : Dev nD) (t : Fin cfg3.N) (z k : S1x128.Idx) (hk0 : (k 0).val = (z 0).val) (hk1 : (k 1).val = (z 1).val) :
    (iblk3 V c 2 t : Vec Ideal S1x128 .f32) z = (V c (Pipeline.arrRef spec3 2) : S1x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 2) : S1x128.Idx → Elt Ideal .f32) (funext fun a => Fin.ext ?_)
  match a with
  | ⟨0, _⟩ => show win3_2.index t (0 : Fin 2) * 1 + 1 * (z 0).val = (k 0).val; omega
  | ⟨1, _⟩ => show win3_2.index t (1 : Fin 2) * 128 + 1 * (z 1).val = (k 1).val; omega

/-- The scale window's block at any point is its whole [1,128] array. -/
theorem blk_row3 (c : Dev nD) (t : Fin cfg3.N) (z k : S1x128.Idx) (hk0 : (k 0).val = (z 0).val) (hk1 : (k 1).val = (z 1).val) :
    (iblk3 V c 3 t : Vec Ideal S1x128 .f32) z = (V c (Pipeline.arrRef spec3 3) : S1x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 3) : S1x128.Idx → Elt Ideal .f32) (funext fun a => Fin.ext ?_)
  match a with
  | ⟨0, _⟩ => show win3_3.index t (0 : Fin 2) * 1 + 1 * (z 0).val = (k 0).val; omega
  | ⟨1, _⟩ => show win3_3.index t (1 : Fin 2) * 128 + 1 * (z 1).val = (k 1).val; omega

/-- The shift window's block at any point is its whole [1,128] array. -/
theorem blk_row4 (c : Dev nD) (t : Fin cfg3.N) (z k : S1x128.Idx) (hk0 : (k 0).val = (z 0).val) (hk1 : (k 1).val = (z 1).val) :
    (iblk3 V c 4 t : Vec Ideal S1x128 .f32) z = (V c (Pipeline.arrRef spec3 4) : S1x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 4) : S1x128.Idx → Elt Ideal .f32) (funext fun a => Fin.ext ?_)
  match a with
  | ⟨0, _⟩ => show win3_4.index t (0 : Fin 2) * 1 + 1 * (z 0).val = (k 0).val; omega
  | ⟨1, _⟩ => show win3_4.index t (1 : Fin 2) * 128 + 1 * (z 1).val = (k 1).val; omega

/-- The mean-scale window's block at any point is its whole [1,128] array. -/
theorem blk_row5 (c : Dev nD) (t : Fin cfg3.N) (z k : S1x128.Idx) (hk0 : (k 0).val = (z 0).val) (hk1 : (k 1).val = (z 1).val) :
    (iblk3 V c 5 t : Vec Ideal S1x128 .f32) z = (V c (Pipeline.arrRef spec3 5) : S1x128.Idx → Elt Ideal .f32) k := by
  obtain ⟨e00, e01, e60, e61, e10, e11, e20, e21, e30, e31, e40, e41, e50, e51⟩ := idx_facts t
  unfold iblk3
  rw [View.read_apply]
  refine congrArg (V c (Pipeline.arrRef spec3 5) : S1x128.Idx → Elt Ideal .f32) (funext fun a => Fin.ext ?_)
  match a with
  | ⟨0, _⟩ => show win3_5.index t (0 : Fin 2) * 1 + 1 * (z 0).val = (k 0).val; omega
  | ⟨1, _⟩ => show win3_5.index t (1 : Fin 2) * 128 + 1 * (z 1).val = (k 1).val; omega

/-- What point `t` writes back is block `t` of `G`. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S4000x128) hz, View.ld_unit_zero (S := S1x128) hz]
  obtain ⟨e00, e01, e60, e61, e10, e11, e20, e21, e30, e31, e40, e41, e50, e51⟩ := idx_facts t
  refine funext fun (y : S4000x128.Idx) => ?_
  show k3_pay1 (iblk3 V c 0 t) (iblk3 V c 5 t) (iblk3 V c 1 t) (iblk3 V c 2 t) (iblk3 V c 3 t) (iblk3 V c 4 t) y
      = G V c (((cfg3.win 6).blk t).view.emb y)
  refine (pay_apply (iblk3 V c 0 t) (iblk3 V c 5 t) (iblk3 V c 1 t) (iblk3 V c 2 t) (iblk3 V c 3 t) (iblk3 V c 4 t) y (ix2 0 (y 1)) rfl rfl).trans ?_
  have hr : ((((cfg3.win 6).blk t).view.emb y) 0).val = t.val * 4000 + (y 0).val := by
    show win3_6.index t (0 : Fin 2) * 4000 + 1 * (y 0).val = _; omega
  have hj : ((((cfg3.win 6).blk t).view.emb y) 1).val = (y 1).val := by
    show win3_6.index t (1 : Fin 2) * 128 + 1 * (y 1).val = _; omega
  rw [blk_rows V c t y (ix2 ((((cfg3.win 6).blk t).view.emb y) 0) ((((cfg3.win 6).blk t).view.emb y) 1)) hr hj,
    blk_row1 V c t (ix2 0 (y 1)) (ix2 0 ((((cfg3.win 6).blk t).view.emb y) 1)) rfl hj,
    blk_row2 V c t (ix2 0 (y 1)) (ix2 0 ((((cfg3.win 6).blk t).view.emb y) 1)) rfl hj,
    blk_row3 V c t (ix2 0 (y 1)) (ix2 0 ((((cfg3.win 6).blk t).view.emb y) 1)) rfl hj,
    blk_row4 V c t (ix2 0 (y 1)) (ix2 0 ((((cfg3.win 6).blk t).view.emb y) 1)) rfl hj,
    blk_row5 V c t (ix2 0 (y 1)) (ix2 0 ((((cfg3.win 6).blk t).view.emb y) 1)) rfl hj]
  rfl

/-- Every index of the array is in the block of the point its row falls in. -/
theorem cover (i : S400000x128.Idx) :
    ∃ t : Fin cfg3.N, (cfg3.win 6).flush t = true ∧ i ∈ ((cfg3.win 6).blk t).view.set := by
  have hi0 : (i 0).val < 400000 := (i 0).isLt
  have hi1 : (i 1).val < 128 := (i 1).isLt
  have hN : cfg3.N = 100 := rfl
  let t : Fin cfg3.N := ⟨(i 0).val / 4000, by rw [hN]; omega⟩
  obtain ⟨e00, e01, e60, e61, -⟩ := idx_facts t
  have ht : t.val = (i 0).val / 4000 := rfl
  refine ⟨t, flush3_6 t, ?_⟩
  show i ∈ ((View.whole main_v133).slice (win3_6.rect t)).set
  rw [View.set_slice_whole, Rect.mem_set_unit]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 128 ≤ (i 1).val ∧ (i 1).val < win3_6.index t (1 : Fin 2) * 128 + 128; omega

/-- The array after the run is `G`. -/
theorem final (c : Dev nD) : (dat3 (F := Ideal) V c).arrAt 6 cfg3.N = G V c :=
  (dat3 (F := Ideal) V c).arrAt_eq_of_cover 6 (G V c) (fun t _ => flushed_eq V c t) cover

/-- Region 3 leaves in its output array, at row `r` and column `j`, the normalised and rectified value of the arrays
    it found at entry. -/
theorem h_final (c : Dev nD) : ∀ (r : Fin 400000) (j : Fin 128), (dat3 (F := Ideal) V c).arrAt 6 cfg3.N (ix2 r j)
      = Cert.Spec.normRelu (R := 400000) (Ideal.ofBits .f32 0x3727C5AC#32)
          (fun r j => (V c (Pipeline.arrRef spec3 0) : S400000x128.Idx → Elt Ideal .f32) (ix2 r j))
          (fun j => (V c (Pipeline.arrRef spec3 1) : S1x128.Idx → Elt Ideal .f32) (ix2 0 j))
          (fun j => (V c (Pipeline.arrRef spec3 2) : S1x128.Idx → Elt Ideal .f32) (ix2 0 j))
          (fun j => (V c (Pipeline.arrRef spec3 3) : S1x128.Idx → Elt Ideal .f32) (ix2 0 j))
          (fun j => (V c (Pipeline.arrRef spec3 4) : S1x128.Idx → Elt Ideal .f32) (ix2 0 j))
          (fun j => (V c (Pipeline.arrRef spec3 5) : S1x128.Idx → Elt Ideal .f32) (ix2 0 j)) r j := by
  intro r j
  rw [final V c]

end Cert.KernelIdeal.Reg3

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.LibFiniteOps.lean ====
import Idealize.ShloMosaic.PureOps
import Idealize.ShloMosaic.PureOps.Ideal
import proofs.«151024_j31044023616095_2_alg».proof.Proof.LibMoment

/-!
# Operations that keep every entry a real number

A vector of extended reals is `AllReal` when every entry is a real number. At the ideal values
each operation below is a textbook operation on the entries — a sum, a product, a maximum, a
choice between two entries, a re-indexing, a finite sum of entries or of products of entries —
so it keeps that property, by the closure of the real numbers under the operation.
-/

noncomputable section

namespace Cert.LibFiniteOps

open Idealize.ShloMosaic Cert.LibMoment
open scoped BigOperators

/-- Every entry of the vector is a real number. -/
def AllReal {s : Shape} (v : s.Idx → EReal) : Prop := ∀ i, IsReal (v i)

theorem AllReal.apply {s : Shape} {v : s.Idx → EReal} (h : AllReal v) (i : s.Idx) : IsReal (v i) := h i

/-! ### Re-indexings: every entry of the result is an entry of the operand -/

/-- A vector read through any map of indices. -/
theorem allReal_comp {s t : Shape} {x : s.Idx → EReal} (g : t.Idx → s.Idx) (hx : AllReal x) :
    AllReal (fun j => x (g j)) :=
  fun j => hx (g j)

theorem allReal_broadcastInDim {s t : Shape} (dims : Fin s.rank → Fin t.rank)
    (h : s.BroadcastsInDim t dims) {x : s.Idx → EReal} (hx : AllReal x) :
    AllReal (broadcastInDim t dims h x) :=
  fun _ => hx _

theorem allReal_transpose {s t : Shape} (perm : List (Fin s.rank)) {x : s.Idx → EReal}
    (h : s.Transposes perm t) (hx : AllReal x) :
    AllReal (transpose t perm x h) :=
  fun _ => hx _

theorem allReal_shapeCast {s t : Shape} {x : s.Idx → EReal} (h : s.ShapeCasts t) (hx : AllReal x) :
    AllReal (shapeCast t x h) :=
  fun _ => hx _

/-- A gather reads, at each result index, one entry of the operand. -/
theorem allReal_gather {s si t : Shape} {w : Nat} (d : GatherDims s si t) {x : s.Idx → EReal}
    (idx : IVec si w) (hx : AllReal x) :
    AllReal (Host.gather d x idx) :=
  fun _ => hx _

/-! ### Constants -/

/-- The splat of a pattern that denotes a real number. -/
theorem allReal_constant (s : Shape) (φ : FTy) (b : BitVec φ.bits)
    (hb : IsReal (Ideal.ofBits φ b)) :
    AllReal (constant (F := Ideal) s φ b) :=
  fun _ => hb

/-- A rank-zero constant broadcast to any shape. -/
theorem allReal_broadcast_constant {s0 t : Shape} (dims : Fin s0.rank → Fin t.rank)
    (h : s0.BroadcastsInDim t dims) (φ : FTy) (b : BitVec φ.bits)
    (hb : IsReal (Ideal.ofBits φ b)) :
    AllReal (broadcastInDim t dims h (constant (F := Ideal) s0 φ b)) :=
  allReal_broadcastInDim dims h (allReal_constant s0 φ b hb)

/-! ### Entrywise operations -/

theorem allReal_addf {s : Shape} {φ : FTy} {x y : FVec Ideal s φ} (hx : AllReal x) (hy : AllReal y) :
    AllReal (addf x y) :=
  fun i => (hx i).add (hy i)

theorem allReal_subf {s : Shape} {φ : FTy} {x y : FVec Ideal s φ} (hx : AllReal x) (hy : AllReal y) :
    AllReal (subf x y) :=
  fun i => (hx i).sub (hy i)

theorem allReal_mulf {s : Shape} {φ : FTy} {x y : FVec Ideal s φ} (hx : AllReal x) (hy : AllReal y) :
    AllReal (mulf x y) :=
  fun i => (hx i).mul (hy i)

theorem allReal_maximumf {s : Shape} {φ : FTy} {x y : FVec Ideal s φ} (hx : AllReal x)
    (hy : AllReal y) :
    AllReal (maximumf x y) :=
  fun i => (hx i).max (hy i)

/-- A choice, entry by entry, between two vectors of real numbers. -/
theorem allReal_select {s : Shape} (c : IVec s 1) {x y : s.Idx → EReal} (hx : AllReal x)
    (hy : AllReal y) :
    AllReal (select c x y) := by
  intro i
  show IsReal (if c i = 1 then x i else y i)
  split
  · exact hx i
  · exact hy i

/-- The reciprocal square root of positive real numbers. -/
theorem allReal_rsqrt {s : Shape} {φ : FTy} {x : FVec Ideal s φ} (hx : AllReal x)
    (hpos : ∀ i, (0 : EReal) < x i) :
    AllReal (Host.rsqrt x) :=
  fun i => (hx i).rsqrt (hpos i)

/-- Division by real numbers none of which is zero. -/
theorem allReal_divf {s : Shape} {φ : FTy} {x y : FVec Ideal s φ} (hx : AllReal x)
    (hy : AllReal y) (hne : ∀ i, y i ≠ 0) :
    AllReal (Host.divf x y) := by
  intro i
  obtain ⟨n, hn⟩ := hy i
  have hn0 : n ≠ 0 := by
    intro h
    apply hne i
    rw [hn, h]
    exact EReal.coe_zero
  show IsReal (Ideal.div (x i) (y i))
  rw [hn]
  exact (hx i).div_coe hn0

/-! ### Finite sums -/

/-- Scatter with addition: each entry of the operand plus the finite sum of the updates that
    land on it. -/
theorem allReal_scatterAdd {s si u : Shape} {w : Nat} {φ : FTy} (d : ScatterDims s si u)
    {x : FVec Ideal s φ} (idx : IVec si w) {upd : FVec Ideal u φ}
    (hx : AllReal x) (hu : AllReal upd) :
    AllReal (Host.scatterAdd d x idx upd) :=
  fun i => (hx i).add (IsReal.sum _ _ (fun j _ => hu j))

/-- A reduction by addition: the initial value plus the finite sum of the entries that reduce to
    each index. -/
theorem allReal_reduceAdd {s t u : Shape} {φ : FTy} {axes : List (Fin s.rank)}
    {x : FVec Ideal s φ} {init : u.Idx → Ideal φ} (h : s.ReducesTo axes t) (hu : 0 < u.numel)
    (hx : AllReal x) (hi : AllReal init) :
    AllReal (Host.reduceAdd x init h hu) :=
  fun _ => (hi _).add (IsReal.sum _ _ (fun i _ => hx i))

/-- A contraction: at each index, zero plus the finite sum of products of entries. -/
theorem allReal_dotGeneral {sl sr so : Shape} {φ₁ φ₂ : FTy} (d : DotDims sl sr so)
    (prec : Option ContractPrecision) {x : FVec Ideal sl φ₁} {y : FVec Ideal sr φ₂}
    (hx : AllReal x) (hy : AllReal y) :
    AllReal (Host.dotGeneral d prec x y) :=
  fun _ => isReal_zero.add (IsReal.sum_univ _ (fun _ => (hx _).mul (hy _)))

end Cert.LibFiniteOps

end
-- ==== Proof.KValue.lean ====
/-
  The kernel side's values along the run. For the base graph: the host prelude leaves the features, the transposed weight
  and the bias row; region 0 leaves the affine layer y = A · Wᵀ + b and, per block of 4000 rows, the column sums of y and
  of y²; the host stretch forms the column mean μ = (Σ y)/n and the variance (Σ y²)/n − μ² (2 s − s²) from the block sums;
  region 1 normalises and rectifies. Regrouping the block sums into whole-column sums, the output is the normalisation with
  the raw-moment variance, which on real data is the specification's (the mean square of the centred column). The local
  graph goes the same way through regions 2 and 3 with 100 blocks and 400000 rows.
-/
import proofs.«151024_j31044023616095_2_alg».proof.Proof.Gen.KernelIdeal.Frame
import Idealize.ShloMosaic.PureOps.Ideal
import Idealize.ShloMosaic.Lib.StableHlo.Run
import Idealize.ShloMosaic.Lib.ValueIdx
import proofs.«151024_j31044023616095_2_alg».proof.Proof.KHost
import proofs.«151024_j31044023616095_2_alg».proof.Proof.Region0
import proofs.«151024_j31044023616095_2_alg».proof.Proof.Region1
import proofs.«151024_j31044023616095_2_alg».proof.Proof.Region2
import proofs.«151024_j31044023616095_2_alg».proof.Proof.Region3
import proofs.«151024_j31044023616095_2_alg».proof.Proof.Spec
import proofs.«151024_j31044023616095_2_alg».proof.Proof.LibBlocks
import proofs.«151024_j31044023616095_2_alg».proof.Proof.LibFiniteOps
import proofs.«151024_j31044023616095_2_alg».proof.Proof.Consts

set_option maxRecDepth 16384

noncomputable section

open scoped BigOperators

namespace Cert.KernelIdeal.KValue

open Cert.KernelIdeal Cert.KernelIdeal.Gen Cert.KernelIdeal.KHost Cert.LibMoment Cert.LibFiniteOps
open Idealize.ShloMosaic Idealize.ShloMosaic.TcCoe Idealize.ShloMosaic.Tactic Idealize.ShloMosaic.StableHlo
open Idealize.ShloMosaic.ValueIdx Idealize.SL.Sem

variable (m : (ℓ : Loc nD τ sig) → Buf (Elt Ideal) ℓ) (ρ : Dev nD → PrngReg)

/-- Summing each of the 25 blocks of 4000 rows and then the block sums is the sum over the 100000 rows. -/
theorem sum_rows_base (f : Fin 100000 → EReal) :
    ∑ t : Fin 25, ∑ q : Fin 4000, f ⟨t.val * 4000 + q.val, by omega⟩ = ∑ r : Fin 100000, f r :=
  Cert.LibBlocks.sum_blocks (B := 25) (T := 4000) (R := 100000) (by norm_num) f

/-- Normalising with the mean and the raw-moment variance is the specification's normalisation, when the layer and the
    mean scale are real and `n` is the number of rows. -/
theorem norm_chain {R : ℕ} (hR : 0 < R) (nr : ℝ) (hn : nr = (R : ℝ)) (n two eps : EReal) (hn' : n = (nr : EReal))
    (htwo : two = ((2 : ℝ) : EReal)) (Y : Fin R → Fin 128 → EReal) (hY : ∀ r j, IsReal (Y r j))
    (g be ms : Fin 128 → EReal) (hms : ∀ j, IsReal (ms j)) :
    Cert.Spec.normRelu eps Y (Cert.Spec.mean n Y) (Cert.Spec.varK n two Y ms) g be ms = Cert.Spec.graphNorm n eps Y g be ms := by
  subst hn' htwo
  exact Cert.Spec.graphNormK_eq hR nr hn eps Y hY g be ms hms

/-- The normalisation at equal arguments. -/
theorem normRelu_congr {R : ℕ} (eps : EReal) {Y Y' : Fin R → Fin 128 → EReal} {mu mu' var var' g g' be be' ms ms' : Fin 128 → EReal}
    (h0 : Y = Y') (h1 : mu = mu') (h2 : var = var') (h3 : g = g') (h4 : be = be') (h5 : ms = ms') :
    Cert.Spec.normRelu eps Y mu var g be ms = Cert.Spec.normRelu eps Y' mu' var' g' be' ms' := by
  rw [h0, h1, h2, h3, h4, h5]

/-! ## The base graph: the host prelude's arrays, region 0, the host stretch, region 1 -/

/-- The launch memory's weight matrix, bias, scale, shift and mean scale of the base graph, entry by entry. -/
abbrev argW (c : Dev nD) : Fin 128 → Fin 128 → EReal := fun j k => (m ((c : Thread nD τ).loc main_arg7) : S128x128.Idx → EReal) (ix2 j k)
abbrev argB (c : Dev nD) : Fin 128 → EReal := fun j => (m ((c : Thread nD τ).loc main_arg8) : S128.Idx → EReal) (ix1 j)
abbrev argG (c : Dev nD) : Fin 128 → EReal := fun j => (m ((c : Thread nD τ).loc main_arg11) : S128.Idx → EReal) (ix1 j)
abbrev argBe (c : Dev nD) : Fin 128 → EReal := fun j => (m ((c : Thread nD τ).loc main_arg12) : S128.Idx → EReal) (ix1 j)
abbrev argMs (c : Dev nD) : Fin 128 → EReal := fun j => (m ((c : Thread nD τ).loc main_arg13) : S128.Idx → EReal) (ix1 j)

/-- The block sums and block sums of squares region 0 leaves. -/
abbrev blkS (c : Dev nD) : Fin 25 → Fin 128 → EReal := fun t j => (W4 m ρ c (Proc.devRef .tc main_v48_1) : S25x1x128.Idx → EReal) (ix3 t (0 : Fin 1) j)
abbrev blkSS (c : Dev nD) : Fin 25 → Fin 128 → EReal := fun t j => (W4 m ρ c (Proc.devRef .tc main_v48_2) : S25x1x128.Idx → EReal) (ix3 t (0 : Fin 1) j)

/-- The affine layer of the base graph: the features `A` against the launch memory's weight and bias. -/
abbrev YB (c : Dev nD) (A : S100000x128.Idx → EReal) : Fin 100000 → Fin 128 → EReal :=
  Cert.Spec.lin (fun r k => A (ix2 r k)) (argW m c) (argB m c)

/-- Region 0's affine layer of the arrays it finds is that layer: its operands are the features, the transposed weight
    and the bias row. -/
theorem Y_eq (c : Dev nD) (A : S100000x128.Idx → EReal)
    (hA : (W3 m ρ c (Proc.devRef .tc main_v45) : S100000x128.Idx → EReal) = A)
    (hWt : ∀ k j : Fin 128, (W3 m ρ c (Proc.devRef .tc main_v46) : S128x128.Idx → EReal) (ix2 k j) = argW m c j k)
    (hB : ∀ j : Fin 128, (W3 m ρ c (Proc.devRef .tc main_v47) : S1x128.Idx → EReal) (ix2 (0 : Fin 1) j) = argB m c j) :
    Reg0.Y (V3 m ρ) c = YB m c A := by
  have eX : Reg0.X (V3 m ρ) c = fun r k => A (ix2 r k) := funext fun r => funext fun k => congrFun hA (ix2 r k)
  have eW : Reg0.Wm (V3 m ρ) c = argW m c := funext fun j => funext fun k => hWt k j
  have eB : Reg0.Bv (V3 m ρ) c = argB m c := funext fun j => hB j
  show Cert.Spec.lin (Reg0.X (V3 m ρ) c) (Reg0.Wm (V3 m ρ) c) (Reg0.Bv (V3 m ρ) c) = _
  rw [eX, eW, eB]

/-- Region 0's first result array, at its exit, is the affine layer. -/
theorem y_exit0 (c : Dev nD) (A : S100000x128.Idx → EReal)
    (hA : (W3 m ρ c (Proc.devRef .tc main_v45) : S100000x128.Idx → EReal) = A)
    (hWt : ∀ k j : Fin 128, (W3 m ρ c (Proc.devRef .tc main_v46) : S128x128.Idx → EReal) (ix2 k j) = argW m c j k)
    (hB : ∀ j : Fin 128, (W3 m ρ c (Proc.devRef .tc main_v47) : S1x128.Idx → EReal) (ix2 (0 : Fin 1) j) = argB m c j)
    (r : Fin 100000) (j : Fin 128) :
    (W4 m ρ c (Proc.devRef .tc main_v48_0) : S100000x128.Idx → EReal) (ix2 r j) = YB m c A r j := by
  refine (congrFun (W4_arr m ρ c 3) (ix2 r j)).trans ?_
  refine (Reg0.y_final (V3 m ρ) c r j).trans ?_
  rw [Y_eq m ρ c A hA hWt hB]

/-- The 25 block sums region 0 leaves add up to the layer's column sum. -/
theorem s_exit0 (c : Dev nD) (A : S100000x128.Idx → EReal)
    (hA : (W3 m ρ c (Proc.devRef .tc main_v45) : S100000x128.Idx → EReal) = A)
    (hWt : ∀ k j : Fin 128, (W3 m ρ c (Proc.devRef .tc main_v46) : S128x128.Idx → EReal) (ix2 k j) = argW m c j k)
    (hB : ∀ j : Fin 128, (W3 m ρ c (Proc.devRef .tc main_v47) : S1x128.Idx → EReal) (ix2 (0 : Fin 1) j) = argB m c j)
    (j : Fin 128) :
    ∑ t : Fin 25, blkS m ρ c t j = ∑ r : Fin 100000, YB m c A r j := by
  rw [← sum_rows_base (fun r => YB m c A r j)]
  refine Finset.sum_congr rfl fun t _ => ?_
  refine (congrFun (W4_arr m ρ c 4) (ix3 t (0 : Fin 1) j)).trans ?_
  refine (Reg0.s_final (V3 m ρ) c t j).trans ?_
  rw [Y_eq m ρ c A hA hWt hB]

/-- The 25 block sums of squares region 0 leaves add up to the column sum of the layer's squares. -/
theorem ss_exit0 (c : Dev nD) (A : S100000x128.Idx → EReal)
    (hA : (W3 m ρ c (Proc.devRef .tc main_v45) : S100000x128.Idx → EReal) = A)
    (hWt : ∀ k j : Fin 128, (W3 m ρ c (Proc.devRef .tc main_v46) : S128x128.Idx → EReal) (ix2 k j) = argW m c j k)
    (hB : ∀ j : Fin 128, (W3 m ρ c (Proc.devRef .tc main_v47) : S1x128.Idx → EReal) (ix2 (0 : Fin 1) j) = argB m c j)
    (j : Fin 128) :
    ∑ t : Fin 25, blkSS m ρ c t j = ∑ r : Fin 100000, YB m c A r j * YB m c A r j := by
  rw [← sum_rows_base (fun r => YB m c A r j * YB m c A r j)]
  refine Finset.sum_congr rfl fun t _ => ?_
  refine (congrFun (W4_arr m ρ c 5) (ix3 t (0 : Fin 1) j)).trans ?_
  refine (Reg0.ss_final (V3 m ρ) c t j).trans ?_
  rw [Y_eq m ρ c A hA hWt hB]

/-- The layer is real when the features, the weight and the bias are. -/
theorem YB_real (c : Dev nD) (A : S100000x128.Idx → EReal) (hAr : AllReal A)
    (h7 : AllReal (m ((c : Thread nD τ).loc main_arg7) : S128x128.Idx → EReal))
    (h8 : AllReal (m ((c : Thread nD τ).loc main_arg8) : S128.Idx → EReal)) (r : Fin 100000) (j : Fin 128) :
    IsReal (YB m c A r j) :=
  IsReal.add (IsReal.sum_univ _ fun k => IsReal.mul (hAr _) (h7 _)) (h8 _)

/-- THE BASE GRAPH'S VALUE: region 1's output array is the specification's normalisation of the affine layer. The
    column mean is the block sums' total over the row count, the variance the raw second moment less μ² (2 s − s²);
    on real data that is the mean square of the centred column. -/
theorem base_chain (c : Dev nD) (A : S100000x128.Idx → EReal)
    (hA : (W3 m ρ c (Proc.devRef .tc main_v45) : S100000x128.Idx → EReal) = A)
    (hWt : ∀ k j : Fin 128, (W3 m ρ c (Proc.devRef .tc main_v46) : S128x128.Idx → EReal) (ix2 k j) = argW m c j k)
    (hB : ∀ j : Fin 128, (W3 m ρ c (Proc.devRef .tc main_v47) : S1x128.Idx → EReal) (ix2 (0 : Fin 1) j) = argB m c j)
    (hmu : ∀ j : Fin 128, (W5 m ρ c (Proc.devRef .tc main_v53) : S1x128.Idx → EReal) (ix2 (0 : Fin 1) j)
      = Ideal.div (∑ t : Fin 25, blkS m ρ c t j) (Ideal.ofBits .f32 0x47C35000#32))
    (hvar : ∀ j : Fin 128, (W5 m ρ c (Proc.devRef .tc main_v62) : S1x128.Idx → EReal) (ix2 (0 : Fin 1) j)
      = Ideal.div (∑ t : Fin 25, blkSS m ρ c t j) (Ideal.ofBits .f32 0x47C35000#32)
        - (Ideal.div (∑ t : Fin 25, blkS m ρ c t j) (Ideal.ofBits .f32 0x47C35000#32)
            * Ideal.div (∑ t : Fin 25, blkS m ρ c t j) (Ideal.ofBits .f32 0x47C35000#32))
          * (Ideal.ofBits .f32 0x40000000#32 * argMs m c j - argMs m c j * argMs m c j))
    (hg : ∀ j : Fin 128, (W5 m ρ c (Proc.devRef .tc main_v63) : S1x128.Idx → EReal) (ix2 (0 : Fin 1) j) = argG m c j)
    (hbe : ∀ j : Fin 128, (W5 m ρ c (Proc.devRef .tc main_v64) : S1x128.Idx → EReal) (ix2 (0 : Fin 1) j) = argBe m c j)
    (hms : ∀ j : Fin 128, (W5 m ρ c (Proc.devRef .tc main_v65) : S1x128.Idx → EReal) (ix2 (0 : Fin 1) j) = argMs m c j)
    (hAr : AllReal A)
    (h7 : AllReal (m ((c : Thread nD τ).loc main_arg7) : S128x128.Idx → EReal))
    (h8 : AllReal (m ((c : Thread nD τ).loc main_arg8) : S128.Idx → EReal))
    (h13 : AllReal (m ((c : Thread nD τ).loc main_arg13) : S128.Idx → EReal)) :
    ∀ (r : Fin 100000) (j : Fin 128), (W6 m ρ c (Proc.devRef .tc main_v66) : S100000x128.Idx → EReal) (ix2 r j)
      = Cert.Spec.graphNorm (R := 100000) (Ideal.ofBits .f32 0x47C35000#32) (Ideal.ofBits .f32 0x3727C5AC#32)
          (Cert.Spec.lin (fun r k => A (ix2 r k)) (argW m c) (argB m c)) (argG m c) (argBe m c) (argMs m c) r j := by
  intro r j
  refine ((congrFun (W6_arr m ρ c 6) (ix2 r j)).trans (Reg1.h_final (V5 m ρ) c r j)).trans ?_
  have e0 : (fun (r : Fin 100000) (j : Fin 128) => (V5 m ρ c (Pipeline.arrRef spec1 0) : S100000x128.Idx → Elt Ideal .f32) (ix2 r j))
      = YB m c A := by
    funext r j
    exact (congrFun (W5_v48_0 m ρ c) (ix2 r j)).trans (y_exit0 m ρ c A hA hWt hB r j)
  have e1 : (fun j : Fin 128 => (V5 m ρ c (Pipeline.arrRef spec1 1) : S1x128.Idx → Elt Ideal .f32) (ix2 0 j))
      = Cert.Spec.mean (Ideal.ofBits .f32 0x47C35000#32) (YB m c A) := by
    funext j
    refine (hmu j).trans ?_
    rw [s_exit0 m ρ c A hA hWt hB j]
    rfl
  have e2 : (fun j : Fin 128 => (V5 m ρ c (Pipeline.arrRef spec1 2) : S1x128.Idx → Elt Ideal .f32) (ix2 0 j))
      = Cert.Spec.varK (Ideal.ofBits .f32 0x47C35000#32) (Ideal.ofBits .f32 0x40000000#32) (YB m c A) (argMs m c) := by
    funext j
    refine (hvar j).trans ?_
    rw [ss_exit0 m ρ c A hA hWt hB j, s_exit0 m ρ c A hA hWt hB j]
    rfl
  have e3 : (fun j : Fin 128 => (V5 m ρ c (Pipeline.arrRef spec1 3) : S1x128.Idx → Elt Ideal .f32) (ix2 0 j)) = argG m c :=
    funext fun j => hg j
  have e4 : (fun j : Fin 128 => (V5 m ρ c (Pipeline.arrRef spec1 4) : S1x128.Idx → Elt Ideal .f32) (ix2 0 j)) = argBe m c :=
    funext fun j => hbe j
  have e5 : (fun j : Fin 128 => (V5 m ρ c (Pipeline.arrRef spec1 5) : S1x128.Idx → Elt Ideal .f32) (ix2 0 j)) = argMs m c :=
    funext fun j => hms j
  refine (congrFun (congrFun (normRelu_congr _ e0 e1 e2 e3 e4 e5) r) j).trans ?_
  exact congrFun (congrFun (norm_chain (R := 100000) (by norm_num) 100000 (by norm_num) _ _ _ Cert.Consts.ofBits_1e5
    Cert.Consts.ofBits_two (YB m c A) (YB_real m c A hAr h7 h8) _ _ _ (fun j => h13 _)) r) j

end Cert.KernelIdeal.KValue

end
-- ==== Proof.KValueLd.lean ====
/-
  The kernel side's values along the run, for the local graph: the host prelude leaves the features, the transposed weight
  and the bias row; region 2 leaves the affine layer y = A · Wᵀ + b and, per block of 4000 rows, the column sums of y and
  of y²; the host stretch forms the column mean μ = (Σ y)/n and the variance (Σ y²)/n − μ² (2 s − s²) from the 100 block
  sums; region 3 normalises and rectifies. Regrouping the block sums into whole-column sums, the output is the
  normalisation with the raw-moment variance, which on real data is the specification's (the mean square of the centred
  column), with n = 400000 rows.
-/
import proofs.«151024_j31044023616095_2_alg».proof.Proof.Gen.KernelIdeal.Frame
import Idealize.ShloMosaic.PureOps.Ideal
import Idealize.ShloMosaic.Lib.StableHlo.Run
import Idealize.ShloMosaic.Lib.ValueIdx
import proofs.«151024_j31044023616095_2_alg».proof.Proof.KHost
import proofs.«151024_j31044023616095_2_alg».proof.Proof.Region0
import proofs.«151024_j31044023616095_2_alg».proof.Proof.Region1
import proofs.«151024_j31044023616095_2_alg».proof.Proof.Region2
import proofs.«151024_j31044023616095_2_alg».proof.Proof.Region3
import proofs.«151024_j31044023616095_2_alg».proof.Proof.Spec
import proofs.«151024_j31044023616095_2_alg».proof.Proof.LibBlocks
import proofs.«151024_j31044023616095_2_alg».proof.Proof.LibFiniteOps
import proofs.«151024_j31044023616095_2_alg».proof.Proof.Consts

set_option maxRecDepth 16384

noncomputable section

open scoped BigOperators

namespace Cert.KernelIdeal.KValueLd

open Cert.KernelIdeal Cert.KernelIdeal.Gen Cert.KernelIdeal.KHost Cert.LibMoment Cert.LibFiniteOps
open Idealize.ShloMosaic Idealize.ShloMosaic.TcCoe Idealize.ShloMosaic.Tactic Idealize.ShloMosaic.StableHlo
open Idealize.ShloMosaic.ValueIdx Idealize.SL.Sem

variable (m : (ℓ : Loc nD τ sig) → Buf (Elt Ideal) ℓ) (ρ : Dev nD → PrngReg)

/-- Normalising with the mean and the raw-moment variance is the specification's normalisation, when the layer and the
    mean scale are real and `n` is the number of rows. -/
theorem norm_chain {R : ℕ} (hR : 0 < R) (nr : ℝ) (hn : nr = (R : ℝ)) (n two eps : EReal) (hn' : n = (nr : EReal))
    (htwo : two = ((2 : ℝ) : EReal)) (Y : Fin R → Fin 128 → EReal) (hY : ∀ r j, IsReal (Y r j))
    (g be ms : Fin 128 → EReal) (hms : ∀ j, IsReal (ms j)) :
    Cert.Spec.normRelu eps Y (Cert.Spec.mean n Y) (Cert.Spec.varK n two Y ms) g be ms = Cert.Spec.graphNorm n eps Y g be ms := by
  subst hn' htwo
  exact Cert.Spec.graphNormK_eq hR nr hn eps Y hY g be ms hms

/-- The normalisation at equal arguments. -/
theorem normRelu_congr {R : ℕ} (eps : EReal) {Y Y' : Fin R → Fin 128 → EReal} {mu mu' var var' g g' be be' ms ms' : Fin 128 → EReal}
    (h0 : Y = Y') (h1 : mu = mu') (h2 : var = var') (h3 : g = g') (h4 : be = be') (h5 : ms = ms') :
    Cert.Spec.normRelu eps Y mu var g be ms = Cert.Spec.normRelu eps Y' mu' var' g' be' ms' := by
  rw [h0, h1, h2, h3, h4, h5]

/-- Summing each of the 100 blocks of 4000 rows and then the block sums is the sum over the 400000 rows. -/
theorem sum_rows_local (f : Fin 400000 → EReal) :
    ∑ t : Fin 100, ∑ q : Fin 4000, f ⟨t.val * 4000 + q.val, by omega⟩ = ∑ r : Fin 400000, f r :=
  Cert.LibBlocks.sum_blocks (B := 100) (T := 4000) (R := 400000) (by norm_num) f

/-! ## The local graph: the host prelude's arrays, region 2, the host stretch, region 3 -/

/-- The launch memory's weight matrix, bias, scale, shift and mean scale of the local graph, entry by entry. -/
abbrev argWL (c : Dev nD) : Fin 128 → Fin 128 → EReal := fun j k => (m ((c : Thread nD τ).loc main_arg9) : S128x128.Idx → EReal) (ix2 j k)
abbrev argBL (c : Dev nD) : Fin 128 → EReal := fun j => (m ((c : Thread nD τ).loc main_arg10) : S128.Idx → EReal) (ix1 j)
abbrev argGL (c : Dev nD) : Fin 128 → EReal := fun j => (m ((c : Thread nD τ).loc main_arg14) : S128.Idx → EReal) (ix1 j)
abbrev argBeL (c : Dev nD) : Fin 128 → EReal := fun j => (m ((c : Thread nD τ).loc main_arg15) : S128.Idx → EReal) (ix1 j)
abbrev argMsL (c : Dev nD) : Fin 128 → EReal := fun j => (m ((c : Thread nD τ).loc main_arg16) : S128.Idx → EReal) (ix1 j)

/-- The block sums and block sums of squares region 2 leaves. -/
abbrev blkSL (c : Dev nD) : Fin 100 → Fin 128 → EReal := fun t j => (W10 m ρ c (Proc.devRef .tc main_v115_1) : S100x1x128.Idx → EReal) (ix3 t (0 : Fin 1) j)
abbrev blkSSL (c : Dev nD) : Fin 100 → Fin 128 → EReal := fun t j => (W10 m ρ c (Proc.devRef .tc main_v115_2) : S100x1x128.Idx → EReal) (ix3 t (0 : Fin 1) j)

/-- The affine layer of the local graph: the features `A` against the launch memory's weight and bias. -/
abbrev YL (c : Dev nD) (A : S400000x128.Idx → EReal) : Fin 400000 → Fin 128 → EReal :=
  Cert.Spec.lin (fun r k => A (ix2 r k)) (argWL m c) (argBL m c)

/-- Region 2's affine layer of the arrays it finds is that layer: its operands are the features, the transposed weight
    and the bias row. -/
theorem Y_eq_local (c : Dev nD) (A : S400000x128.Idx → EReal)
    (hA : (W9 m ρ c (Proc.devRef .tc main_v112) : S400000x128.Idx → EReal) = A)
    (hWt : ∀ k j : Fin 128, (W9 m ρ c (Proc.devRef .tc main_v113) : S128x128.Idx → EReal) (ix2 k j) = argWL m c j k)
    (hB : ∀ j : Fin 128, (W9 m ρ c (Proc.devRef .tc main_v114) : S1x128.Idx → EReal) (ix2 (0 : Fin 1) j) = argBL m c j) :
    Reg2.Y (V9 m ρ) c = YL m c A := by
  have eX : Reg2.X (V9 m ρ) c = fun r k => A (ix2 r k) := funext fun r => funext fun k => congrFun hA (ix2 r k)
  have eW : Reg2.Wm (V9 m ρ) c = argWL m c := funext fun j => funext fun k => hWt k j
  have eB : Reg2.Bv (V9 m ρ) c = argBL m c := funext fun j => hB j
  show Cert.Spec.lin (Reg2.X (V9 m ρ) c) (Reg2.Wm (V9 m ρ) c) (Reg2.Bv (V9 m ρ) c) = _
  rw [eX, eW, eB]

/-- Region 2's first result array, at its exit, is the affine layer. -/
theorem y_exit2 (c : Dev nD) (A : S400000x128.Idx → EReal)
    (hA : (W9 m ρ c (Proc.devRef .tc main_v112) : S400000x128.Idx → EReal) = A)
    (hWt : ∀ k j : Fin 128, (W9 m ρ c (Proc.devRef .tc main_v113) : S128x128.Idx → EReal) (ix2 k j) = argWL m c j k)
    (hB : ∀ j : Fin 128, (W9 m ρ c (Proc.devRef .tc main_v114) : S1x128.Idx → EReal) (ix2 (0 : Fin 1) j) = argBL m c j)
    (r : Fin 400000) (j : Fin 128) :
    (W10 m ρ c (Proc.devRef .tc main_v115_0) : S400000x128.Idx → EReal) (ix2 r j) = YL m c A r j := by
  refine (congrFun (W10_arr m ρ c 3) (ix2 r j)).trans ?_
  refine (Reg2.y_final (V9 m ρ) c r j).trans ?_
  rw [Y_eq_local m ρ c A hA hWt hB]

/-- The 100 block sums region 2 leaves add up to the layer's column sum. -/
theorem s_exit2 (c : Dev nD) (A : S400000x128.Idx → EReal)
    (hA : (W9 m ρ c (Proc.devRef .tc main_v112) : S400000x128.Idx → EReal) = A)
    (hWt : ∀ k j : Fin 128, (W9 m ρ c (Proc.devRef .tc main_v113) : S128x128.Idx → EReal) (ix2 k j) = argWL m c j k)
    (hB : ∀ j : Fin 128, (W9 m ρ c (Proc.devRef .tc main_v114) : S1x128.Idx → EReal) (ix2 (0 : Fin 1) j) = argBL m c j)
    (j : Fin 128) :
    ∑ t : Fin 100, blkSL m ρ c t j = ∑ r : Fin 400000, YL m c A r j := by
  rw [← sum_rows_local (fun r => YL m c A r j)]
  refine Finset.sum_congr rfl fun t _ => ?_
  refine (congrFun (W10_arr m ρ c 4) (ix3 t (0 : Fin 1) j)).trans ?_
  refine (Reg2.s_final (V9 m ρ) c t j).trans ?_
  rw [Y_eq_local m ρ c A hA hWt hB]

/-- The 100 block sums of squares region 2 leaves add up to the column sum of the layer's squares. -/
theorem ss_exit2 (c : Dev nD) (A : S400000x128.Idx → EReal)
    (hA : (W9 m ρ c (Proc.devRef .tc main_v112) : S400000x128.Idx → EReal) = A)
    (hWt : ∀ k j : Fin 128, (W9 m ρ c (Proc.devRef .tc main_v113) : S128x128.Idx → EReal) (ix2 k j) = argWL m c j k)
    (hB : ∀ j : Fin 128, (W9 m ρ c (Proc.devRef .tc main_v114) : S1x128.Idx → EReal) (ix2 (0 : Fin 1) j) = argBL m c j)
    (j : Fin 128) :
    ∑ t : Fin 100, blkSSL m ρ c t j = ∑ r : Fin 400000, YL m c A r j * YL m c A r j := by
  rw [← sum_rows_local (fun r => YL m c A r j * YL m c A r j)]
  refine Finset.sum_congr rfl fun t _ => ?_
  refine (congrFun (W10_arr m ρ c 5) (ix3 t (0 : Fin 1) j)).trans ?_
  refine (Reg2.ss_final (V9 m ρ) c t j).trans ?_
  rw [Y_eq_local m ρ c A hA hWt hB]

/-- The layer is real when the features, the weight and the bias are. -/
theorem YL_real (c : Dev nD) (A : S400000x128.Idx → EReal) (hAr : AllReal A)
    (h9 : AllReal (m ((c : Thread nD τ).loc main_arg9) : S128x128.Idx → EReal))
    (h10 : AllReal (m ((c : Thread nD τ).loc main_arg10) : S128.Idx → EReal)) (r : Fin 400000) (j : Fin 128) :
    IsReal (YL m c A r j) :=
  IsReal.add (IsReal.sum_univ _ fun k => IsReal.mul (hAr _) (h9 _)) (h10 _)

/-- THE LOCAL GRAPH'S VALUE: region 3's output array is the specification's normalisation of the affine layer. The
    column mean is the block sums' total over the row count, the variance the raw second moment less μ² (2 s − s²);
    on real data that is the mean square of the centred column. -/
theorem local_chain (c : Dev nD) (A : S400000x128.Idx → EReal)
    (hA : (W9 m ρ c (Proc.devRef .tc main_v112) : S400000x128.Idx → EReal) = A)
    (hWt : ∀ k j : Fin 128, (W9 m ρ c (Proc.devRef .tc main_v113) : S128x128.Idx → EReal) (ix2 k j) = argWL m c j k)
    (hB : ∀ j : Fin 128, (W9 m ρ c (Proc.devRef .tc main_v114) : S1x128.Idx → EReal) (ix2 (0 : Fin 1) j) = argBL m c j)
    (hmu : ∀ j : Fin 128, (W11 m ρ c (Proc.devRef .tc main_v120) : S1x128.Idx → EReal) (ix2 (0 : Fin 1) j)
      = Ideal.div (∑ t : Fin 100, blkSL m ρ c t j) (Ideal.ofBits .f32 0x48C35000#32))
    (hvar : ∀ j : Fin 128, (W11 m ρ c (Proc.devRef .tc main_v129) : S1x128.Idx → EReal) (ix2 (0 : Fin 1) j)
      = Ideal.div (∑ t : Fin 100, blkSSL m ρ c t j) (Ideal.ofBits .f32 0x48C35000#32)
        - (Ideal.div (∑ t : Fin 100, blkSL m ρ c t j) (Ideal.ofBits .f32 0x48C35000#32)
            * Ideal.div (∑ t : Fin 100, blkSL m ρ c t j) (Ideal.ofBits .f32 0x48C35000#32))
          * (Ideal.ofBits .f32 0x40000000#32 * argMsL m c j - argMsL m c j * argMsL m c j))
    (hg : ∀ j : Fin 128, (W11 m ρ c (Proc.devRef .tc main_v130) : S1x128.Idx → EReal) (ix2 (0 : Fin 1) j) = argGL m c j)
    (hbe : ∀ j : Fin 128, (W11 m ρ c (Proc.devRef .tc main_v131) : S1x128.Idx → EReal) (ix2 (0 : Fin 1) j) = argBeL m c j)
    (hms : ∀ j : Fin 128, (W11 m ρ c (Proc.devRef .tc main_v132) : S1x128.Idx → EReal) (ix2 (0 : Fin 1) j) = argMsL m c j)
    (hAr : AllReal A)
    (h9 : AllReal (m ((c : Thread nD τ).loc main_arg9) : S128x128.Idx → EReal))
    (h10 : AllReal (m ((c : Thread nD τ).loc main_arg10) : S128.Idx → EReal))
    (h16 : AllReal (m ((c : Thread nD τ).loc main_arg16) : S128.Idx → EReal)) :
    ∀ (r : Fin 400000) (j : Fin 128), (W12 m ρ c (Proc.devRef .tc main_v133) : S400000x128.Idx → EReal) (ix2 r j)
      = Cert.Spec.graphNorm (R := 400000) (Ideal.ofBits .f32 0x48C35000#32) (Ideal.ofBits .f32 0x3727C5AC#32)
          (Cert.Spec.lin (fun r k => A (ix2 r k)) (argWL m c) (argBL m c)) (argGL m c) (argBeL m c) (argMsL m c) r j := by
  intro r j
  refine ((congrFun (W12_arr m ρ c 6) (ix2 r j)).trans (Reg3.h_final (V11 m ρ) c r j)).trans ?_
  have e0 : (fun (r : Fin 400000) (j : Fin 128) => (V11 m ρ c (Pipeline.arrRef spec3 0) : S400000x128.Idx → Elt Ideal .f32) (ix2 r j))
      = YL m c A := by
    funext r j
    exact (congrFun (W11_v115_0 m ρ c) (ix2 r j)).trans (y_exit2 m ρ c A hA hWt hB r j)
  have e1 : (fun j : Fin 128 => (V11 m ρ c (Pipeline.arrRef spec3 1) : S1x128.Idx → Elt Ideal .f32) (ix2 0 j))
      = Cert.Spec.mean (Ideal.ofBits .f32 0x48C35000#32) (YL m c A) := by
    funext j
    refine (hmu j).trans ?_
    rw [s_exit2 m ρ c A hA hWt hB j]
    rfl
  have e2 : (fun j : Fin 128 => (V11 m ρ c (Pipeline.arrRef spec3 2) : S1x128.Idx → Elt Ideal .f32) (ix2 0 j))
      = Cert.Spec.varK (Ideal.ofBits .f32 0x48C35000#32) (Ideal.ofBits .f32 0x40000000#32) (YL m c A) (argMsL m c) := by
    funext j
    refine (hvar j).trans ?_
    rw [ss_exit2 m ρ c A hA hWt hB j, s_exit2 m ρ c A hA hWt hB j]
    rfl
  have e3 : (fun j : Fin 128 => (V11 m ρ c (Pipeline.arrRef spec3 3) : S1x128.Idx → Elt Ideal .f32) (ix2 0 j)) = argGL m c :=
    funext fun j => hg j
  have e4 : (fun j : Fin 128 => (V11 m ρ c (Pipeline.arrRef spec3 4) : S1x128.Idx → Elt Ideal .f32) (ix2 0 j)) = argBeL m c :=
    funext fun j => hbe j
  have e5 : (fun j : Fin 128 => (V11 m ρ c (Pipeline.arrRef spec3 5) : S1x128.Idx → Elt Ideal .f32) (ix2 0 j)) = argMsL m c :=
    funext fun j => hms j
  refine (congrFun (congrFun (normRelu_congr _ e0 e1 e2 e3 e4 e5) r) j).trans ?_
  exact congrFun (congrFun (norm_chain (R := 400000) (by norm_num) 400000 (by norm_num) _ _ _ Cert.Consts.ofBits_4e5
    Cert.Consts.ofBits_two (YL m c A) (YL_real m c A hAr h9 h10) _ _ _ (fun j => h16 _)) r) j

end Cert.KernelIdeal.KValueLd

end
-- ==== Proof.KTail.lean ====
/-
  The mixing tail. After the last region both programs apply the same host operations to the two normalised arrays:
  the local result is 0.8 · (local array) + 0.2 · (base rows gathered through the copy-to-original map, a negative index
  wrapped by the base row count); the base result is 0.8 · (base array) + 0.2 · (the local rows summed into their
  original rows, divided by the number of copies of each row, that number taken at least 1). Given that the two
  normalised arrays the kernel program holds after its last region are the reference's, the two results are the
  reference's two results: the operations and their constants coincide one by one.
-/
import proofs.«151024_j31044023616095_2_alg».proof.Proof.Gen.KernelIdeal.Frame
import proofs.«151024_j31044023616095_2_alg».proof.Proof.Gen.ReferenceIdeal.Read
import proofs.«151024_j31044023616095_2_alg».proof.Proof.KHost
import Idealize.ShloMosaic.PureOps.Ideal
import Idealize.ShloMosaic.Lib.StableHlo.Run

set_option maxRecDepth 16384

noncomputable section

namespace Cert.KernelIdeal.KTail

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

open Cert.ReferenceIdeal.Read Cert.KernelIdeal.KHost

/-- The base result: 0.8 · base + 0.2 · (scattered local sum ÷ copy count clipped below at 1). -/
theorem base_out (c : Dev nD)
    (hb : W12 m ρ c (Proc.devRef .tc main_v66) = val_main_v75 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg11)) (m ((c : Thread nD τ).loc main_arg12)) (m ((c : Thread nD τ).loc main_arg13)))
    (hl : W12 m ρ c (Proc.devRef .tc main_v133) = val_main_v151 (F := Ideal) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg14)) (m ((c : Thread nD τ).loc main_arg15)) (m ((c : Thread nD τ).loc main_arg16))) :
    W15 m ρ c (Proc.devRef .tc main_v160) = val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4_2 (StableHlo.after hostOps4_1 (StableHlo.after hostOps4 (W12 m ρ c))) (Proc.devRef .tc main_v160) = _
  have ea6 := W12_arg6 m ρ c
  generalize W12 m ρ c = w12 at *
  after_results_simp
  simp only [TRef.toBuf, TRef.ofBuf, cast_eq, hb, hl, ea6]
  rfl

/-- The local result: 0.8 · local + 0.2 · (base rows gathered through the copy-to-original map). -/
theorem local_out (c : Dev nD)
    (hb : W12 m ρ c (Proc.devRef .tc main_v66) = val_main_v75 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg11)) (m ((c : Thread nD τ).loc main_arg12)) (m ((c : Thread nD τ).loc main_arg13)))
    (hl : W12 m ρ c (Proc.devRef .tc main_v133) = val_main_v151 (F := Ideal) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg14)) (m ((c : Thread nD τ).loc main_arg15)) (m ((c : Thread nD τ).loc main_arg16))) :
    W15 m ρ c (Proc.devRef .tc main_v145) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4_2 (StableHlo.after hostOps4_1 (StableHlo.after hostOps4 (W12 m ρ c))) (Proc.devRef .tc main_v145) = _
  have ea6 := W12_arg6 m ρ c
  generalize W12 m ρ c = w12 at *
  after_results_simp
  simp only [TRef.toBuf, TRef.ofBuf, cast_eq, hb, hl, ea6]
  rfl

end Cert.KernelIdeal.KTail

end
-- ==== Proof.RefSide.lean ====
/-
  The reference program read as mathematics. For each of the two graphs, the reference's normalised and rectified
  features, read at row r and feature j, are the specification's `graphNorm` of the affine layer `lin` applied to the
  aggregated features (which stay an opaque array here). The mixing tail is restated as two functions of the two
  normalised arrays and the index array.
-/
import proofs.«151024_j31044023616095_2_alg».proof.Proof.Gen.ReferenceIdeal.Read
import proofs.«151024_j31044023616095_2_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Read

/-! ## The base graph -/

section Base

/-- The base graph's affine layer by coordinates: the aggregated features against W transposed, plus the bias. -/
def baseLin (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 : (⟨S128, .f32⟩ : BufTy).Contents (Elt Ideal)) : Fin 100000 → Fin 128 → EReal :=
  Cert.Spec.lin (fun r k => val_main_v45 (F := Ideal) x0 x1 x2 (ix2 r k)) (fun j k => x7 (ix2 j k)) (fun j => x8 (ix1 j))

theorem lidx47 (r : Fin 100000) (j k : Fin 128) : lidx_main_v47 (ix2 r j) k = ix2 r k :=
  funext fun a => Fin.ext (by match a with | ⟨0, _⟩ => rfl | ⟨1, _⟩ => rfl)
theorem ridx47 (r : Fin 100000) (j k : Fin 128) : idx_main_v46 (ridx_main_v47 (ix2 r j) k) = ix2 j k :=
  funext fun a => Fin.ext (by match a with | ⟨0, _⟩ => rfl | ⟨1, _⟩ => rfl)
theorem idx49 (r : Fin 100000) (j : Fin 128) : idx_main_v48 (idx_main_v49 (ix2 r j)) = ix1 j :=
  funext fun a => Fin.ext (by match a with | ⟨0, _⟩ => rfl)
theorem idx51 (a : Fin 1) (j : Fin 128) (k : Fin 100000) : idx_main_v51 (idx_main_v52 (ix2 a j)) k = ix2 k j :=
  funext fun a => Fin.ext (by match a with | ⟨0, _⟩ => rfl | ⟨1, _⟩ => rfl)
theorem idx55 (a : Fin 1) (j : Fin 128) : idx_main_v55 (ix2 a j) = ix1 j :=
  funext fun a => Fin.ext (by match a with | ⟨0, _⟩ => rfl)
theorem idx57 (r : Fin 100000) (j : Fin 128) : idx_main_v57 (ix2 r j) = ix2 (0 : Fin 1) j :=
  funext fun a => Fin.ext (by match a with | ⟨0, _⟩ => rfl | ⟨1, _⟩ => rfl)
theorem idx60 (a : Fin 1) (j : Fin 128) (k : Fin 100000) : idx_main_v60 (idx_main_v61 (ix2 a j)) k = ix2 k j :=
  funext fun a => Fin.ext (by match a with | ⟨0, _⟩ => rfl | ⟨1, _⟩ => rfl)
theorem idx65 (r : Fin 100000) (j : Fin 128) : idx_main_v64 (idx_main_v65 (ix2 r j)) = ix1 j :=
  funext fun a => Fin.ext (by match a with | ⟨0, _⟩ => rfl)
theorem idx70 (r : Fin 100000) (j : Fin 128) : idx_main_v70 (ix2 r j) = ix2 (0 : Fin 1) j :=
  funext fun a => Fin.ext (by match a with | ⟨0, _⟩ => rfl | ⟨1, _⟩ => rfl)
theorem idx73 (r : Fin 100000) (j : Fin 128) : idx_main_v72 (idx_main_v73 (ix2 r j)) = ix1 j :=
  funext fun a => Fin.ext (by match a with | ⟨0, _⟩ => rfl)

/-- The affine layer at (r, j): row r of the aggregated features against row j of W, plus b j. -/
theorem base_lin (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 : (⟨S128, .f32⟩ : BufTy).Contents (Elt Ideal)) (r : Fin 100000) (j : Fin 128) :
    val_main_v50 (F := Ideal) x0 x1 x2 x7 x8 (ix2 r j) = baseLin x0 x1 x2 x7 x8 r j := by
  rw [val_main_v50_apply, val_main_v47_apply, val_main_v49_apply, val_main_v48_apply]
  unfold baseLin Cert.Spec.lin
  simp only [val_main_v46_apply, lidx47, ridx47, idx49, Ideal.addf_def]

/-- The column mean: the sum over all rows (the zero initial value drops out) divided by the row count. -/
theorem base_mean (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 : (⟨S128, .f32⟩ : BufTy).Contents (Elt Ideal)) (a : Fin 1) (j : Fin 128) :
    val_main_v54 (F := Ideal) x0 x1 x2 x7 x8 (ix2 a j)
      = Cert.Spec.mean (Ideal.ofBits .f32 0x47C35000#32) (baseLin x0 x1 x2 x7 x8) j := by
  rw [val_main_v54_apply, val_main_v52_apply, val_main_v53_apply, val_main_cst_9_apply,
    val_main_v51_apply, val_main_cst_8_apply]
  unfold Cert.Spec.mean
  simp only [idx51, base_lin, Ideal.hostDivf_def, Ideal.ofBits_def, Ideal.ofBits_zero_f32, zero_add]

/-- The centred value: y − ms_j μ_j. -/
theorem base_centred (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 x13 : (⟨S128, .f32⟩ : BufTy).Contents (Elt Ideal)) (r : Fin 100000) (j : Fin 128) :
    val_main_v58 (F := Ideal) x0 x1 x2 x7 x8 x13 (ix2 r j)
      = baseLin x0 x1 x2 x7 x8 r j
        - x13 (ix1 j) * Cert.Spec.mean (Ideal.ofBits .f32 0x47C35000#32) (baseLin x0 x1 x2 x7 x8) j := by
  rw [val_main_v58_apply, val_main_v57_apply, idx57, val_main_v56_apply, val_main_v55_apply, idx55,
    base_lin, base_mean]
  simp only [Ideal.subf_def, Ideal.mulf_def]

/-- The square of the centred value. -/
theorem base_sq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 x13 : (⟨S128, .f32⟩ : BufTy).Contents (Elt Ideal)) (r : Fin 100000) (j : Fin 128) :
    val_main_v59 (F := Ideal) x0 x1 x2 x7 x8 x13 (ix2 r j)
      = (baseLin x0 x1 x2 x7 x8 r j
          - x13 (ix1 j) * Cert.Spec.mean (Ideal.ofBits .f32 0x47C35000#32) (baseLin x0 x1 x2 x7 x8) j)
        * (baseLin x0 x1 x2 x7 x8 r j
          - x13 (ix1 j) * Cert.Spec.mean (Ideal.ofBits .f32 0x47C35000#32) (baseLin x0 x1 x2 x7 x8) j) := by
  rw [val_main_v59_apply, base_centred]
  simp only [Ideal.mulf_def]

/-- The variance: the mean square of the centred column. -/
theorem base_var (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 x13 : (⟨S128, .f32⟩ : BufTy).Contents (Elt Ideal)) (a : Fin 1) (j : Fin 128) :
    val_main_v63 (F := Ideal) x0 x1 x2 x7 x8 x13 (ix2 a j)
      = Cert.Spec.varRef (Ideal.ofBits .f32 0x47C35000#32) (baseLin x0 x1 x2 x7 x8) (fun j => x13 (ix1 j)) j := by
  rw [val_main_v63_apply, val_main_v61_apply, val_main_v62_apply, val_main_cst_11_apply,
    val_main_v60_apply, val_main_cst_10_apply]
  unfold Cert.Spec.varRef
  simp only [idx60, base_sq, Ideal.hostDivf_def, Ideal.ofBits_def, Ideal.ofBits_zero_f32, zero_add]

/-- The reference's normalised, rectified features of the base graph at (r, j). -/
theorem ref_base_h (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x7 : (⟨S128x128, .f32⟩ : BufTy).Contents (Elt Ideal)) (x8 x11 x12 x13 : (⟨S128, .f32⟩ : BufTy).Contents (Elt Ideal)) (r : Fin 100000) (j : Fin 128) :
    val_main_v75 (F := Ideal) x0 x1 x2 x7 x8 x11 x12 x13 (ix2 r j)
      = Cert.Spec.graphNorm (R := 100000) (Ideal.ofBits .f32 0x47C35000#32) (Ideal.ofBits .f32 0x3727C5AC#32)
          (Cert.Spec.lin (fun r k => val_main_v45 (F := Ideal) x0 x1 x2 (ix2 r k)) (fun j k => x7 (ix2 j k))
            (fun j => x8 (ix1 j)))
          (fun j => x11 (ix1 j)) (fun j => x12 (ix1 j)) (fun j => x13 (ix1 j)) r j := by
  rw [val_main_v75_apply, val_main_call1_v0_apply, val_main_call1_cst_apply, val_main_v74_apply,
    val_main_v73_apply, val_main_v72_apply, idx73, val_main_v71_apply, val_main_v70_apply, idx70,
    val_main_v69_apply, val_main_v68_apply, val_main_v67_apply, val_main_cst_12_apply,
    val_main_v66_apply, val_main_v65_apply, val_main_v64_apply, idx65, base_centred, base_var]
  unfold Cert.Spec.graphNorm Cert.Spec.normRelu baseLin
  simp only [Ideal.maximumf_def, Ideal.addf_def, Ideal.mulf_def, Ideal.hostUnary_rsqrt_def, Ideal.ofBits_def,
    Ideal.ofBits_zero_f32]

end Base

/-! ## The local graph -/

section Local

/-- The local graph's affine layer by coordinates: the aggregated features against W transposed, plus the bias. -/
def localLin (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 : (⟨S128, .f32⟩ : BufTy).Contents (Elt Ideal)) : Fin 400000 → Fin 128 → EReal :=
  Cert.Spec.lin (fun r k => val_main_v121 (F := Ideal) x3 x4 x5 (ix2 r k)) (fun j k => x9 (ix2 j k)) (fun j => x10 (ix1 j))

theorem lidx123 (r : Fin 400000) (j k : Fin 128) : lidx_main_v123 (ix2 r j) k = ix2 r k :=
  funext fun a => Fin.ext (by match a with | ⟨0, _⟩ => rfl | ⟨1, _⟩ => rfl)
theorem ridx123 (r : Fin 400000) (j k : Fin 128) : idx_main_v122 (ridx_main_v123 (ix2 r j) k) = ix2 j k :=
  funext fun a => Fin.ext (by match a with | ⟨0, _⟩ => rfl | ⟨1, _⟩ => rfl)
theorem idx125 (r : Fin 400000) (j : Fin 128) : idx_main_v124 (idx_main_v125 (ix2 r j)) = ix1 j :=
  funext fun a => Fin.ext (by match a with | ⟨0, _⟩ => rfl)
theorem idx127 (a : Fin 1) (j : Fin 128) (k : Fin 400000) : idx_main_v127 (idx_main_v128 (ix2 a j)) k = ix2 k j :=
  funext fun a => Fin.ext (by match a with | ⟨0, _⟩ => rfl | ⟨1, _⟩ => rfl)
theorem idx131 (a : Fin 1) (j : Fin 128) : idx_main_v131 (ix2 a j) = ix1 j :=
  funext fun a => Fin.ext (by match a with | ⟨0, _⟩ => rfl)
theorem idx133 (r : Fin 400000) (j : Fin 128) : idx_main_v133 (ix2 r j) = ix2 (0 : Fin 1) j :=
  funext fun a => Fin.ext (by match a with | ⟨0, _⟩ => rfl | ⟨1, _⟩ => rfl)
theorem idx136 (a : Fin 1) (j : Fin 128) (k : Fin 400000) : idx_main_v136 (idx_main_v137 (ix2 a j)) k = ix2 k j :=
  funext fun a => Fin.ext (by match a with | ⟨0, _⟩ => rfl | ⟨1, _⟩ => rfl)
theorem idx141 (r : Fin 400000) (j : Fin 128) : idx_main_v140 (idx_main_v141 (ix2 r j)) = ix1 j :=
  funext fun a => Fin.ext (by match a with | ⟨0, _⟩ => rfl)
theorem idx146 (r : Fin 400000) (j : Fin 128) : idx_main_v146 (ix2 r j) = ix2 (0 : Fin 1) j :=
  funext fun a => Fin.ext (by match a with | ⟨0, _⟩ => rfl | ⟨1, _⟩ => rfl)
theorem idx149 (r : Fin 400000) (j : Fin 128) : idx_main_v148 (idx_main_v149 (ix2 r j)) = ix1 j :=
  funext fun a => Fin.ext (by match a with | ⟨0, _⟩ => rfl)

/-- The affine layer at (r, j): row r of the aggregated features against row j of W, plus b j. -/
theorem local_lin (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 : (⟨S128, .f32⟩ : BufTy).Contents (Elt Ideal)) (r : Fin 400000) (j : Fin 128) :
    val_main_v126 (F := Ideal) x3 x4 x5 x9 x10 (ix2 r j) = localLin x3 x4 x5 x9 x10 r j := by
  rw [val_main_v126_apply, val_main_v123_apply, val_main_v125_apply, val_main_v124_apply]
  unfold localLin Cert.Spec.lin
  simp only [val_main_v122_apply, lidx123, ridx123, idx125, Ideal.addf_def]

/-- The column mean: the sum over all rows (the zero initial value drops out) divided by the row count. -/
theorem local_mean (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 : (⟨S128, .f32⟩ : BufTy).Contents (Elt Ideal)) (a : Fin 1) (j : Fin 128) :
    val_main_v130 (F := Ideal) x3 x4 x5 x9 x10 (ix2 a j)
      = Cert.Spec.mean (Ideal.ofBits .f32 0x48C35000#32) (localLin x3 x4 x5 x9 x10) j := by
  rw [val_main_v130_apply, val_main_v128_apply, val_main_v129_apply, val_main_cst_24_apply,
    val_main_v127_apply, val_main_cst_23_apply]
  unfold Cert.Spec.mean
  simp only [idx127, local_lin, Ideal.hostDivf_def, Ideal.ofBits_def, Ideal.ofBits_zero_f32, zero_add]

/-- The centred value: y − ms_j μ_j. -/
theorem local_centred (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 x16 : (⟨S128, .f32⟩ : BufTy).Contents (Elt Ideal)) (r : Fin 400000) (j : Fin 128) :
    val_main_v134 (F := Ideal) x3 x4 x5 x9 x10 x16 (ix2 r j)
      = localLin x3 x4 x5 x9 x10 r j
        - x16 (ix1 j) * Cert.Spec.mean (Ideal.ofBits .f32 0x48C35000#32) (localLin x3 x4 x5 x9 x10) j := by
  rw [val_main_v134_apply, val_main_v133_apply, idx133, val_main_v132_apply, val_main_v131_apply, idx131,
    local_lin, local_mean]
  simp only [Ideal.subf_def, Ideal.mulf_def]

/-- The square of the centred value. -/
theorem local_sq (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 x16 : (⟨S128, .f32⟩ : BufTy).Contents (Elt Ideal)) (r : Fin 400000) (j : Fin 128) :
    val_main_v135 (F := Ideal) x3 x4 x5 x9 x10 x16 (ix2 r j)
      = (localLin x3 x4 x5 x9 x10 r j
          - x16 (ix1 j) * Cert.Spec.mean (Ideal.ofBits .f32 0x48C35000#32) (localLin x3 x4 x5 x9 x10) j)
        * (localLin x3 x4 x5 x9 x10 r j
          - x16 (ix1 j) * Cert.Spec.mean (Ideal.ofBits .f32 0x48C35000#32) (localLin x3 x4 x5 x9 x10) j) := by
  rw [val_main_v135_apply, local_centred]
  simp only [Ideal.mulf_def]

/-- The variance: the mean square of the centred column. -/
theorem local_var (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 x16 : (⟨S128, .f32⟩ : BufTy).Contents (Elt Ideal)) (a : Fin 1) (j : Fin 128) :
    val_main_v139 (F := Ideal) x3 x4 x5 x9 x10 x16 (ix2 a j)
      = Cert.Spec.varRef (Ideal.ofBits .f32 0x48C35000#32) (localLin x3 x4 x5 x9 x10) (fun j => x16 (ix1 j)) j := by
  rw [val_main_v139_apply, val_main_v137_apply, val_main_v138_apply, val_main_cst_26_apply,
    val_main_v136_apply, val_main_cst_25_apply]
  unfold Cert.Spec.varRef
  simp only [idx136, local_sq, Ideal.hostDivf_def, Ideal.ofBits_def, Ideal.ofBits_zero_f32, zero_add]

/-- The reference's normalised, rectified features of the local graph at (r, j). -/
theorem ref_local_h (x3 : (⟨S400000x128, .f32⟩ : BufTy).Contents (Elt Ideal)) (x4 : (⟨S2x800000, .i32⟩ : BufTy).Contents (Elt Ideal)) (x5 : (⟨S800000, .f32⟩ : BufTy).Contents (Elt Ideal)) (x9 : (⟨S128x128, .f32⟩ : BufTy).Contents (Elt Ideal)) (x10 x14 x15 x16 : (⟨S128, .f32⟩ : BufTy).Contents (Elt Ideal)) (r : Fin 400000) (j : Fin 128) :
    val_main_v151 (F := Ideal) x3 x4 x5 x9 x10 x14 x15 x16 (ix2 r j)
      = Cert.Spec.graphNorm (R := 400000) (Ideal.ofBits .f32 0x48C35000#32) (Ideal.ofBits .f32 0x3727C5AC#32)
          (Cert.Spec.lin (fun r k => val_main_v121 (F := Ideal) x3 x4 x5 (ix2 r k)) (fun j k => x9 (ix2 j k))
            (fun j => x10 (ix1 j)))
          (fun j => x14 (ix1 j)) (fun j => x15 (ix1 j)) (fun j => x16 (ix1 j)) r j := by
  rw [val_main_v151_apply, val_main_call3_v0_apply, val_main_call3_cst_apply, val_main_v150_apply,
    val_main_v149_apply, val_main_v148_apply, idx149, val_main_v147_apply, val_main_v146_apply, idx146,
    val_main_v145_apply, val_main_v144_apply, val_main_v143_apply, val_main_cst_27_apply,
    val_main_v142_apply, val_main_v141_apply, val_main_v140_apply, idx141, local_centred, local_var]
  unfold Cert.Spec.graphNorm Cert.Spec.normRelu localLin
  simp only [Ideal.maximumf_def, Ideal.addf_def, Ideal.mulf_def, Ideal.hostUnary_rsqrt_def, Ideal.ofBits_def,
    Ideal.ofBits_zero_f32]

end Local

/-! ## The mixing tail -/

section Tail

open Idealize.ShloMosaic.StableHlo Idealize.ShloMosaic.TcCoe Idealize.SL.Sem Cert.ReferenceIdeal.Gen

/-- The base output as a function of the two normalised arrays and the index array: 0.8 times the base features plus
    0.2 times the local features summed into their base rows and divided by the row's count clipped below at one. -/
def tailBase (bh : (⟨S100000x128, .f32⟩ : BufTy).Contents (Elt Ideal)) (lh : (⟨S400000x128, .f32⟩ : BufTy).Contents (Elt Ideal))
    (x6 : (⟨S400000, .i32⟩ : BufTy).Contents (Elt Ideal)) : (⟨S100000x128, .f32⟩ : BufTy).Contents (Elt Ideal) :=
  addf (F := Ideal) (φ := .f32) (mulf (F := Ideal) (φ := .f32) (val_main_v164 (F := Ideal)) bh)
    (mulf (F := Ideal) (φ := .f32) (val_main_v176 (F := Ideal))
      (Host.divf (F := Ideal) (φ := .f32)
        (Host.scatterAdd (F := Ideal) (φ := .f32) scatter_S100000x128_S400000x1_S400000x128_1_0_0_1 (val_main_v166 (F := Ideal))
          (val_main_v167 (F := Ideal) x6) lh)
        (val_main_v174 (F := Ideal) x6)))

/-- The local output as a function of the two normalised arrays and the index array: 0.8 times the local features plus
    0.2 times the base features gathered at each local row's base row. -/
def tailLocal (bh : (⟨S100000x128, .f32⟩ : BufTy).Contents (Elt Ideal)) (lh : (⟨S400000x128, .f32⟩ : BufTy).Contents (Elt Ideal))
    (x6 : (⟨S400000, .i32⟩ : BufTy).Contents (Elt Ideal)) : (⟨S400000x128, .f32⟩ : BufTy).Contents (Elt Ideal) :=
  addf (F := Ideal) (φ := .f32) (mulf (F := Ideal) (φ := .f32) (val_main_v152 (F := Ideal)) lh)
    (mulf (F := Ideal) (φ := .f32) (val_main_v161 (F := Ideal))
      (Host.gather gather_S100000x128_S400000x1_S400000x128_1_0_n_n_0_1_1128 bh (val_main_v159 (F := Ideal) x6)))

/-- The reference's base output is the tail of its two normalised arrays. -/
theorem tailBase_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S400000x128, .f32⟩ : BufTy).Contents (Elt Ideal)) (x4 : (⟨S2x800000, .i32⟩ : BufTy).Contents (Elt Ideal)) (x5 : (⟨S800000, .f32⟩ : BufTy).Contents (Elt Ideal)) (x6 : (⟨S400000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 x11 x12 x13 x14 x15 x16 : (⟨S128, .f32⟩ : BufTy).Contents (Elt Ideal)) :
    val_main_v178 (F := Ideal) x0 x1 x2 x3 x4 x5 x6 x7 x8 x9 x10 x11 x12 x13 x14 x15 x16
      = tailBase (val_main_v75 (F := Ideal) x0 x1 x2 x7 x8 x11 x12 x13)
          (val_main_v151 (F := Ideal) x3 x4 x5 x9 x10 x14 x15 x16) x6 := by
  unfold val_main_v178 val_main_v165 val_main_v177 val_main_v175 val_main_v168 tailBase
  rfl

/-- The reference's local output is the tail of its two normalised arrays. -/
theorem tailLocal_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S400000x128, .f32⟩ : BufTy).Contents (Elt Ideal)) (x4 : (⟨S2x800000, .i32⟩ : BufTy).Contents (Elt Ideal)) (x5 : (⟨S800000, .f32⟩ : BufTy).Contents (Elt Ideal)) (x6 : (⟨S400000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 x11 x12 x13 x14 x15 x16 : (⟨S128, .f32⟩ : BufTy).Contents (Elt Ideal)) :
    val_main_v163 (F := Ideal) x0 x1 x2 x3 x4 x5 x6 x7 x8 x9 x10 x11 x12 x13 x14 x15 x16
      = tailLocal (val_main_v75 (F := Ideal) x0 x1 x2 x7 x8 x11 x12 x13)
          (val_main_v151 (F := Ideal) x3 x4 x5 x9 x10 x14 x15 x16) x6 := by
  unfold val_main_v163 val_main_v153 val_main_v162 val_main_v160 tailLocal
  rfl

end Tail

end Cert.RefSide

end
-- ==== Proof.PreludeReal.lean ====
import proofs.«151024_j31044023616095_2_alg».proof.Proof.Gen.ReferenceIdeal.Read
import proofs.«151024_j31044023616095_2_alg».proof.Proof.LibFiniteOps
import proofs.«151024_j31044023616095_2_alg».proof.Proof.Consts

/-!
# The reference's two graph preludes produce real numbers

For each graph (the base one over `100000` nodes and `1600000` edges, the local one over
`400000` nodes and `800000` edges) the reference computes, from the node features `x`, the
edge list and the edge weights `w`:

* the weighted degree `deg = scatter-add of w` from a zero vector, corrected to `deg + 1` where
  `deg < 1/2`;
* `r = 1 / √deg`, entry by entry;
* the edge coefficient `r[src] · w · r[dst]`, spread over the `128` feature columns;
* the message `coefficient · x[src]`, and its scatter-add into a zero matrix.

When `x` and `w` hold real numbers and every corrected degree is positive, every step stays
among the real numbers: sums and products of real numbers are real, a choice between two real
numbers is real, the reciprocal square root of a positive real number is real, and a gather or a
broadcast only re-reads entries.
-/

noncomputable section

namespace Cert.PreludeReal

open Cert.ReferenceIdeal Cert.ReferenceIdeal.Gen Cert.ReferenceIdeal.Read Idealize.ShloMosaic
open Cert.LibFiniteOps Cert.LibMoment

/-- The pattern of `+0.0` denotes the real number `0`. -/
theorem isReal_zero_word : IsReal (Ideal.ofBits .f32 0x00000000#32) := by
  rw [Ideal.ofBits_zero_f32]
  exact isReal_zero

/-! ### The base graph -/

/-- The weighted degree: a zero vector plus the edge weights that land on each node. -/
theorem base_deg_real (x1 : (⟨S2x1600000, .i32⟩ : BufTy).Contents (Elt Ideal)) (x2 : (⟨S1600000, .f32⟩ : BufTy).Contents (Elt Ideal))
    (h2 : AllReal x2) : AllReal (val_main_v6 (F := Ideal) x1 x2) := by
  unfold val_main_v6 val_main_v4 val_main_cst
  exact allReal_scatterAdd _ _ (allReal_broadcast_constant _ _ _ _ isReal_zero_word) h2

/-- The corrected degree: `deg + 1` or `deg`. -/
theorem base_cdeg_real (x1 : (⟨S2x1600000, .i32⟩ : BufTy).Contents (Elt Ideal)) (x2 : (⟨S1600000, .f32⟩ : BufTy).Contents (Elt Ideal))
    (h2 : AllReal x2) : AllReal (val_main_v11 (F := Ideal) x1 x2) := by
  unfold val_main_v11 val_main_v10 val_main_v9 val_main_cst_1
  exact allReal_select _
    (allReal_addf (base_deg_real x1 x2 h2)
      (allReal_broadcast_constant _ _ _ _ Cert.Consts.isReal_one))
    (base_deg_real x1 x2 h2)

/-- `1 / √(corrected degree)`, the corrected degree being positive. -/
theorem base_rs_real (x1 : (⟨S2x1600000, .i32⟩ : BufTy).Contents (Elt Ideal)) (x2 : (⟨S1600000, .f32⟩ : BufTy).Contents (Elt Ideal))
    (h2 : AllReal x2) (hdeg : ∀ i, (0 : EReal) < val_main_v11 (F := Ideal) x1 x2 i) :
    AllReal (val_main_v12 (F := Ideal) x1 x2) := by
  unfold val_main_v12
  exact allReal_rsqrt (base_cdeg_real x1 x2 h2) hdeg

/-- The edge coefficient `r[src] · w · r[dst]`. -/
theorem base_coef_real (x1 : (⟨S2x1600000, .i32⟩ : BufTy).Contents (Elt Ideal)) (x2 : (⟨S1600000, .f32⟩ : BufTy).Contents (Elt Ideal))
    (h2 : AllReal x2) (hdeg : ∀ i, (0 : EReal) < val_main_v11 (F := Ideal) x1 x2 i) :
    AllReal (val_main_v28 (F := Ideal) x1 x2) := by
  have hr := base_rs_real x1 x2 h2 hdeg
  unfold val_main_v28 val_main_v27 val_main_v20 val_main_v19
  exact allReal_mulf (allReal_mulf (allReal_gather _ _ hr) h2) (allReal_gather _ _ hr)

/-- The messages `coefficient · x[src]`, one row per edge. -/
theorem base_msg_real (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (h0 : AllReal x0) (h2 : AllReal x2)
    (hdeg : ∀ i, (0 : EReal) < val_main_v11 (F := Ideal) x1 x2 i) :
    AllReal (val_main_v42 (F := Ideal) x0 x1 x2) := by
  have hc := base_coef_real x1 x2 h2 hdeg
  unfold val_main_v42 val_main_v41 val_main_v40 val_main_v33
  exact allReal_mulf (allReal_broadcastInDim _ _ (allReal_broadcastInDim _ _ hc))
    (allReal_gather _ _ h0)

/-- The base graph's aggregated messages are real numbers. -/
theorem base_m_real (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (h0 : AllReal x0) (h2 : AllReal x2)
    (hdeg : ∀ i, (0 : EReal) < val_main_v11 (F := Ideal) x1 x2 i) :
    AllReal (val_main_v45 (F := Ideal) x0 x1 x2) := by
  unfold val_main_v45 val_main_v43 val_main_cst_7
  exact allReal_scatterAdd _ _ (allReal_broadcast_constant _ _ _ _ isReal_zero_word)
    (base_msg_real x0 x1 x2 h0 h2 hdeg)

/-! ### The local graph -/

/-- The weighted degree: a zero vector plus the edge weights that land on each node. -/
theorem local_deg_real (x4 : (⟨S2x800000, .i32⟩ : BufTy).Contents (Elt Ideal)) (x5 : (⟨S800000, .f32⟩ : BufTy).Contents (Elt Ideal))
    (h5 : AllReal x5) : AllReal (val_main_v82 (F := Ideal) x4 x5) := by
  unfold val_main_v82 val_main_v80 val_main_cst_13
  exact allReal_scatterAdd _ _ (allReal_broadcast_constant _ _ _ _ isReal_zero_word) h5

/-- The corrected degree: `deg + 1` or `deg`. -/
theorem local_cdeg_real (x4 : (⟨S2x800000, .i32⟩ : BufTy).Contents (Elt Ideal)) (x5 : (⟨S800000, .f32⟩ : BufTy).Contents (Elt Ideal))
    (h5 : AllReal x5) : AllReal (val_main_v87 (F := Ideal) x4 x5) := by
  unfold val_main_v87 val_main_v86 val_main_v85 val_main_cst_15
  exact allReal_select _
    (allReal_addf (local_deg_real x4 x5 h5)
      (allReal_broadcast_constant _ _ _ _ Cert.Consts.isReal_one))
    (local_deg_real x4 x5 h5)

/-- `1 / √(corrected degree)`, the corrected degree being positive. -/
theorem local_rs_real (x4 : (⟨S2x800000, .i32⟩ : BufTy).Contents (Elt Ideal)) (x5 : (⟨S800000, .f32⟩ : BufTy).Contents (Elt Ideal))
    (h5 : AllReal x5) (hdeg : ∀ i, (0 : EReal) < val_main_v87 (F := Ideal) x4 x5 i) :
    AllReal (val_main_v88 (F := Ideal) x4 x5) := by
  unfold val_main_v88
  exact allReal_rsqrt (local_cdeg_real x4 x5 h5) hdeg

/-- The edge coefficient `r[src] · w · r[dst]`. -/
theorem local_coef_real (x4 : (⟨S2x800000, .i32⟩ : BufTy).Contents (Elt Ideal)) (x5 : (⟨S800000, .f32⟩ : BufTy).Contents (Elt Ideal))
    (h5 : AllReal x5) (hdeg : ∀ i, (0 : EReal) < val_main_v87 (F := Ideal) x4 x5 i) :
    AllReal (val_main_v104 (F := Ideal) x4 x5) := by
  have hr := local_rs_real x4 x5 h5 hdeg
  unfold val_main_v104 val_main_v103 val_main_v96 val_main_v95
  exact allReal_mulf (allReal_mulf (allReal_gather _ _ hr) h5) (allReal_gather _ _ hr)

/-- The messages `coefficient · x[src]`, one row per edge. -/
theorem local_msg_real (x3 : (⟨S400000x128, .f32⟩ : BufTy).Contents (Elt Ideal)) (x4 : (⟨S2x800000, .i32⟩ : BufTy).Contents (Elt Ideal))
    (x5 : (⟨S800000, .f32⟩ : BufTy).Contents (Elt Ideal)) (h3 : AllReal x3) (h5 : AllReal x5)
    (hdeg : ∀ i, (0 : EReal) < val_main_v87 (F := Ideal) x4 x5 i) :
    AllReal (val_main_v118 (F := Ideal) x3 x4 x5) := by
  have hc := local_coef_real x4 x5 h5 hdeg
  unfold val_main_v118 val_main_v117 val_main_v116 val_main_v109
  exact allReal_mulf (allReal_broadcastInDim _ _ (allReal_broadcastInDim _ _ hc))
    (allReal_gather _ _ h3)

/-- The local graph's aggregated messages are real numbers. -/
theorem local_m_real (x3 : (⟨S400000x128, .f32⟩ : BufTy).Contents (Elt Ideal)) (x4 : (⟨S2x800000, .i32⟩ : BufTy).Contents (Elt Ideal))
    (x5 : (⟨S800000, .f32⟩ : BufTy).Contents (Elt Ideal)) (h3 : AllReal x3) (h5 : AllReal x5)
    (hdeg : ∀ i, (0 : EReal) < val_main_v87 (F := Ideal) x4 x5 i) :
    AllReal (val_main_v121 (F := Ideal) x3 x4 x5) := by
  unfold val_main_v121 val_main_v119 val_main_cst_22
  exact allReal_scatterAdd _ _ (allReal_broadcast_constant _ _ _ _ isReal_zero_word)
    (local_msg_real x3 x4 x5 h3 h5 hdeg)

end Cert.PreludeReal

end
-- ==== Proof.PreDecode.lean ====
import proofs.«151024_j31044023616095_2_alg».proof.Pre_finite_inputs
import proofs.«151024_j31044023616095_2_alg».proof.Proof.Gen.Pre_finite_inputs
import proofs.«151024_j31044023616095_2_alg».proof.Proof.Gen.ReferenceIdeal.Read
import proofs.«151024_j31044023616095_2_alg».proof.Proof.LibFiniteOps
import Idealize.ShloMosaic.Lib.ReduceAll
import Idealize.ShloMosaic.Lib.ValueIdx

/-!
# The precondition, decoded

The precondition is a conjunction of sixteen tests, each a test of every entry of one array:

* for each of the fourteen float inputs `x`: `|x| < +∞` at every entry — so every entry is a
  real number, since `max x (-x) < ⊤` excludes both infinities;
* for each of the two graphs: `0 < d` at every entry of the corrected degree `d`, where
  `d = deg + 1` if `deg < 1/2` and `d = deg` otherwise, and `deg` is the scatter-add of the edge
  weights from a zero vector.

A conjunction of one-bit words is `1` exactly when each word is; a test of every entry that
came out `1` held at every entry; a comparison word is `1` exactly when the comparison holds.

The corrected degrees of the precondition are the same terms as the reference's own corrected
degrees: the same operations on the same operands, so the two are equal by unfolding.
-/

noncomputable section

namespace Cert.PreDecode

open Idealize.ShloMosaic Cert.LibMoment Cert.LibFiniteOps
open Cert.Pre_finite_inputs

/-! ### Comparison words -/

/-- The word of `x < y` is `1` exactly when `x < y`. -/
theorem cmp_olt_eq_one {x y : EReal} : Ideal.cmp .olt x y = 1#1 ↔ x < y := by
  unfold Ideal.cmp
  by_cases h : x < y <;> simp [h]

/-- The word of `x > y` is `1` exactly when `y < x`. -/
theorem cmp_ogt_eq_one {x y : EReal} : Ideal.cmp .ogt x y = 1#1 ↔ y < x := by
  unfold Ideal.cmp
  by_cases h : y < x <;> simp [h]

/-- The pattern of `+∞` denotes `⊤`. -/
theorem ofBits_inf : Ideal.ofBits .f32 0x7F800000#32 = (⊤ : EReal) := by
  simp [Ideal.ofBits, Ideal.ieee]

/-- The pattern of `+0.0` denotes `0`. -/
theorem ofBits_zero : Ideal.ofBits .f32 0x00000000#32 = (0 : EReal) := by
  simp [Ideal.ofBits, Ideal.ieee]

instance subsingleton_S_ : Subsingleton S_.Idx := ⟨fun a b => funext fun d => d.elim0⟩

/-! ### One test of every entry -/

/-- `all (|x| < +∞)` came out `1`: every entry of `x` is a real number. -/
theorem allReal_of_all_abs_lt_inf {s : Shape} {axes : List (Fin s.rank)} (x : FVec Ideal s .f32)
    (hb : S_.BroadcastsInDim s (![] : Fin 0 → Fin s.rank)) (hr : s.ReducesTo axes S_)
    (hu : 0 < S_.numel) (j : S_.Idx)
    (e : Host.reduce IntOp.andi
        (cmpf .olt (Host.absf x)
          (broadcastInDim s ![] hb (constant (F := Ideal) S_ .f32 0x7F800000#32)))
        (constantI S_ 1 1#1) hr hu j = 1#1) :
    AllReal x := by
  intro i
  have h := Host.reduce_andi_all _ _ hr hu j e i
  have h' : Ideal.cmp .olt (max (x i) (-(x i))) (Ideal.ofBits .f32 0x7F800000#32) = 1#1 := h
  rw [cmp_olt_eq_one, ofBits_inf] at h'
  exact isReal_of_abs_lt_top h'

/-- `all (x > 0)` came out `1`: every entry of `x` is positive. -/
theorem pos_of_all_gt_zero {s : Shape} {axes : List (Fin s.rank)} (x : FVec Ideal s .f32)
    (hb : S_.BroadcastsInDim s (![] : Fin 0 → Fin s.rank)) (hr : s.ReducesTo axes S_)
    (hu : 0 < S_.numel) (j : S_.Idx)
    (e : Host.reduce IntOp.andi
        (cmpf .ogt x
          (broadcastInDim s ![] hb (constant (F := Ideal) S_ .f32 0x00000000#32)))
        (constantI S_ 1 1#1) hr hu j = 1#1) :
    ∀ i, (0 : EReal) < x i := by
  intro i
  have h := Host.reduce_andi_all _ _ hr hu j e i
  have h' : Ideal.cmp .ogt (x i) (Ideal.ofBits .f32 0x00000000#32) = 1#1 := h
  rw [cmp_ogt_eq_one, ofBits_zero] at h'
  exact h'

/-! ### The corrected degrees, as the precondition spells them -/

section Degrees
variable [Cert.Pre_finite_inputs.Facts]
open Cert.Pre_finite_inputs.Facts

/-- The base graph's weighted degree: the edge weights scattered, by the first row of the edge
    list, into a zero vector. -/
def deg1 (a1 : IVec S2x1600000 32) (a2 : FVec Ideal S1600000 .f32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0
      (shapeCast S1600000
        ((extractStridedSlice S1x1600000 ![0, 0] · slices_S2x1600000_S1x1600000_0_0) a1)
        shapeCasts_S1x1600000_S1600000))
    a2

/-- The base graph's corrected degree: `deg + 1` where `deg < 1/2`, else `deg`. -/
def D1 (a1 : IVec S2x1600000 32) (a2 : FVec Ideal S1600000 .f32) : FVec Ideal S100000 .f32 :=
  select
    (cmpf .olt (deg1 a1 a2)
      (broadcastInDim S100000 ![] bcast_S_S100000 (constant (F := Ideal) S_ .f32 0x3F000000#32)))
    (addf (deg1 a1 a2)
      (broadcastInDim S100000 ![] bcast_S_S100000 (constant (F := Ideal) S_ .f32 0x3F800000#32)))
    (deg1 a1 a2)

/-- The local graph's weighted degree. -/
def deg2 (a4 : IVec S2x800000 32) (a5 : FVec Ideal S800000 .f32) : FVec Ideal S400000 .f32 :=
  Host.scatterAdd scatter_S400000_S800000x1_S800000_n_0_0_1
    (broadcastInDim S400000 ![] bcast_S_S400000 (constant (F := Ideal) S_ .f32 0x00000000#32))
    (broadcastInDim S800000x1 ![0] bcast_S800000_S800000x1_0
      (shapeCast S800000
        ((extractStridedSlice S1x800000 ![0, 0] · slices_S2x800000_S1x800000_0_0) a4)
        shapeCasts_S1x800000_S800000))
    a5

/-- The local graph's corrected degree: `deg + 1` where `deg < 1/2`, else `deg`. -/
def D2 (a4 : IVec S2x800000 32) (a5 : FVec Ideal S800000 .f32) : FVec Ideal S400000 .f32 :=
  select
    (cmpf .olt (deg2 a4 a5)
      (broadcastInDim S400000 ![] bcast_S_S400000 (constant (F := Ideal) S_ .f32 0x3F000000#32)))
    (addf (deg2 a4 a5)
      (broadcastInDim S400000 ![] bcast_S_S400000 (constant (F := Ideal) S_ .f32 0x3F800000#32)))
    (deg2 a4 a5)

/-! ### The whole precondition -/

/-- What the precondition says of its arguments. -/
structure Decoded (a0 : FVec Ideal S100000x128 .f32) (a1 : IVec S2x1600000 32) (a2 : FVec Ideal S1600000 .f32)
    (a3 : FVec Ideal S400000x128 .f32) (a4 : IVec S2x800000 32) (a5 : FVec Ideal S800000 .f32)
    (a6 : IVec S400000 32) (a7 : FVec Ideal S128x128 .f32) (a8 : FVec Ideal S128 .f32)
    (a9 : FVec Ideal S128x128 .f32) (a10 : FVec Ideal S128 .f32) (a11 : FVec Ideal S128 .f32)
    (a12 : FVec Ideal S128 .f32) (a13 : FVec Ideal S128 .f32) (a14 : FVec Ideal S128 .f32)
    (a15 : FVec Ideal S128 .f32) (a16 : FVec Ideal S128 .f32) : Prop where
  real0 : AllReal a0
  real2 : AllReal a2
  real3 : AllReal a3
  real5 : AllReal a5
  real7 : AllReal a7
  real8 : AllReal a8
  real9 : AllReal a9
  real10 : AllReal a10
  real11 : AllReal a11
  real12 : AllReal a12
  real13 : AllReal a13
  real14 : AllReal a14
  real15 : AllReal a15
  real16 : AllReal a16
  pos_base : ∀ i, (0 : EReal) < D1 a1 a2 i
  pos_local : ∀ i, (0 : EReal) < D2 a4 a5 i

/-- THE PRECONDITION DECODED: the fourteen float inputs hold real numbers and both corrected
    degrees are positive at every node. -/
theorem pre_decode (a0 : FVec Ideal S100000x128 .f32) (a1 : IVec S2x1600000 32) (a2 : FVec Ideal S1600000 .f32)
    (a3 : FVec Ideal S400000x128 .f32) (a4 : IVec S2x800000 32) (a5 : FVec Ideal S800000 .f32)
    (a6 : IVec S400000 32) (a7 : FVec Ideal S128x128 .f32) (a8 : FVec Ideal S128 .f32)
    (a9 : FVec Ideal S128x128 .f32) (a10 : FVec Ideal S128 .f32) (a11 : FVec Ideal S128 .f32)
    (a12 : FVec Ideal S128 .f32) (a13 : FVec Ideal S128 .f32) (a14 : FVec Ideal S128 .f32)
    (a15 : FVec Ideal S128 .f32) (a16 : FVec Ideal S128 .f32)
    (h : Cert.Pre_finite_inputs.fn (F := Ideal) a0 a1 a2 a3 a4 a5 a6 a7 a8 a9 a10 a11 a12 a13 a14
      a15 a16 = (fun _ => 1#1)) :
    Decoded a0 a1 a2 a3 a4 a5 a6 a7 a8 a9 a10 a11 a12 a13 a14 a15 a16 := by
  have e := congrFun h ValueIdx.ix0
  simp only [fn, fn_part1, fn_part2, fn_part3, fn_part4, fn_part5, andi,
    IntOp.andi_eq_one] at e
  obtain ⟨⟨⟨⟨⟨⟨⟨⟨⟨⟨⟨⟨⟨⟨⟨c0, c2⟩, c3⟩, c5⟩, c7⟩, c8⟩, c9⟩, c10⟩, c11⟩, c12⟩, c13⟩, c14⟩, c15⟩,
    c16⟩, d1⟩, d2⟩ := e
  exact
    { real0 := allReal_of_all_abs_lt_inf a0 _ _ _ _ c0
      real2 := allReal_of_all_abs_lt_inf a2 _ _ _ _ c2
      real3 := allReal_of_all_abs_lt_inf a3 _ _ _ _ c3
      real5 := allReal_of_all_abs_lt_inf a5 _ _ _ _ c5
      real7 := allReal_of_all_abs_lt_inf a7 _ _ _ _ c7
      real8 := allReal_of_all_abs_lt_inf a8 _ _ _ _ c8
      real9 := allReal_of_all_abs_lt_inf a9 _ _ _ _ c9
      real10 := allReal_of_all_abs_lt_inf a10 _ _ _ _ c10
      real11 := allReal_of_all_abs_lt_inf a11 _ _ _ _ c11
      real12 := allReal_of_all_abs_lt_inf a12 _ _ _ _ c12
      real13 := allReal_of_all_abs_lt_inf a13 _ _ _ _ c13
      real14 := allReal_of_all_abs_lt_inf a14 _ _ _ _ c14
      real15 := allReal_of_all_abs_lt_inf a15 _ _ _ _ c15
      real16 := allReal_of_all_abs_lt_inf a16 _ _ _ _ c16
      pos_base := pos_of_all_gt_zero (D1 a1 a2) _ _ _ _ d1
      pos_local := pos_of_all_gt_zero (D2 a4 a5) _ _ _ _ d2 }

/-! ### The same corrected degrees as the reference's -/

/-- The precondition's base corrected degree is the reference's. -/
theorem deg_base_eq (a1 : IVec S2x1600000 32) (a2 : FVec Ideal S1600000 .f32) :
    D1 a1 a2 = Cert.ReferenceIdeal.Read.val_main_v11 (F := Ideal) a1 a2 := rfl

/-- The precondition's local corrected degree is the reference's. -/
theorem deg_local_eq (a4 : IVec S2x800000 32) (a5 : FVec Ideal S800000 .f32) :
    D2 a4 a5 = Cert.ReferenceIdeal.Read.val_main_v87 (F := Ideal) a4 a5 := rfl

end Degrees

end Cert.PreDecode

end
-- ==== Proof.Bridge.lean ====
/-
  The bridge. Under the precondition every float input is a real number and both corrected degree vectors are
  positive, so the normalised edge coefficients, the aggregated features and the affine layer's output are real
  numbers; on real data the kernel's variance (from the raw moments) is the reference's (the mean squared deviation),
  so the two normalised arrays agree, and the mixing tail is the same function of them in both programs.
-/
import proofs.«151024_j31044023616095_2_alg».proof.Defs
import proofs.«151024_j31044023616095_2_alg».proof.Proof.Gen.KernelIdeal.Frame
import proofs.«151024_j31044023616095_2_alg».proof.Proof.Gen.ReferenceIdeal.Read
import proofs.«151024_j31044023616095_2_alg».proof.Proof.KRun
import proofs.«151024_j31044023616095_2_alg».proof.Proof.KHost
import proofs.«151024_j31044023616095_2_alg».proof.Proof.KPrelude
import proofs.«151024_j31044023616095_2_alg».proof.Proof.KMid
import proofs.«151024_j31044023616095_2_alg».proof.Proof.KValue
import proofs.«151024_j31044023616095_2_alg».proof.Proof.KValueLd
import proofs.«151024_j31044023616095_2_alg».proof.Proof.KTail
import proofs.«151024_j31044023616095_2_alg».proof.Proof.RefSide
import proofs.«151024_j31044023616095_2_alg».proof.Proof.PreludeReal
import proofs.«151024_j31044023616095_2_alg».proof.Proof.PreDecode
import Idealize.ShloMosaic.Lib.ValueIdx

set_option maxRecDepth 16384

noncomputable section

namespace Cert.Bridge

open Cert.KernelIdeal Cert.KernelIdeal.Gen Cert.KernelIdeal.KHost
open Idealize.ShloMosaic Idealize.ShloMosaic.TcCoe Idealize.ShloMosaic.ValueIdx Idealize.SL.Sem
open Cert.ReferenceIdeal.Read Cert.LibFiniteOps Cert.LibMoment

variable (m : (ℓ : Loc nD τ sig) → Buf (Elt Ideal) ℓ) (ρ : Dev nD → PrngReg)

/-- The precondition, opened at one core's argument arrays. -/
theorem decoded (hpre : Cert.Pre_KernelIdeal m) (c : Dev nD) :
    Cert.PreDecode.Decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  Cert.PreDecode.pre_decode _ _ _ _ _ _ _ _ _ _ _ _ _ _ _ _ _ (hpre c)

/-- The base graph's normalised array, as the kernel program leaves it, is the reference's. -/
theorem base_h (hpre : Cert.Pre_KernelIdeal m) (c : Dev nD) :
    W12 m ρ c (Proc.devRef .tc main_v66) = val_main_v75 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) := by
  have d := decoded m hpre c
  have hA : AllReal (val_main_v45 (F := Ideal) (m ((c.tc : Thread nD τ).loc main_arg0)) (m ((c.tc : Thread nD τ).loc main_arg1)) (m ((c.tc : Thread nD τ).loc main_arg2))) :=
    Cert.PreludeReal.base_m_real _ _ _ d.real0 d.real2 (fun i => by rw [← Cert.PreDecode.deg_base_eq]; exact d.pos_base i)
  rw [W12_v66]
  show (W6 m ρ c (Proc.devRef .tc main_v66) : S100000x128.Idx → EReal)
    = (val_main_v75 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) : S100000x128.Idx → EReal)
  funext (i : S100000x128.Idx)
  obtain ⟨r, j, rfl⟩ : ∃ (r : Fin 100000) (j : Fin 128), i = ix2 r j := ⟨i 0, i 1, eq_ix2 i⟩
  refine Eq.trans ?_ (Cert.RefSide.ref_base_h _ _ _ _ _ _ _ _ r j).symm
  exact Cert.KernelIdeal.KValue.base_chain m ρ c _ (Cert.KernelIdeal.KPrelude.W3_v45 m ρ c)
    (Cert.KernelIdeal.KPrelude.W3_v46_apply m ρ c) (Cert.KernelIdeal.KPrelude.W3_v47_apply m ρ c)
    (Cert.KernelIdeal.KMid.mu1 m ρ c) (Cert.KernelIdeal.KMid.var1 m ρ c) (Cert.KernelIdeal.KMid.gamma1 m ρ c)
    (Cert.KernelIdeal.KMid.beta1 m ρ c) (Cert.KernelIdeal.KMid.ms1 m ρ c) hA d.real7 d.real8 d.real13 r j

/-- The local graph's normalised array, as the kernel program leaves it, is the reference's. -/
theorem local_h (hpre : Cert.Pre_KernelIdeal m) (c : Dev nD) :
    W12 m ρ c (Proc.devRef .tc main_v133) = val_main_v151 (F := Ideal) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) := by
  have d := decoded m hpre c
  have hA : AllReal (val_main_v121 (F := Ideal) (m ((c.tc : Thread nD τ).loc main_arg3)) (m ((c.tc : Thread nD τ).loc main_arg4)) (m ((c.tc : Thread nD τ).loc main_arg5))) :=
    Cert.PreludeReal.local_m_real _ _ _ d.real3 d.real5 (fun i => by rw [← Cert.PreDecode.deg_local_eq]; exact d.pos_local i)
  show (W12 m ρ c (Proc.devRef .tc main_v133) : S400000x128.Idx → EReal)
    = (val_main_v151 (F := Ideal) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) : S400000x128.Idx → EReal)
  funext (i : S400000x128.Idx)
  obtain ⟨r, j, rfl⟩ : ∃ (r : Fin 400000) (j : Fin 128), i = ix2 r j := ⟨i 0, i 1, eq_ix2 i⟩
  refine Eq.trans ?_ (Cert.RefSide.ref_local_h _ _ _ _ _ _ _ _ r j).symm
  exact Cert.KernelIdeal.KValueLd.local_chain m ρ c _ (Cert.KernelIdeal.KPrelude.W9_v112 m ρ c)
    (Cert.KernelIdeal.KPrelude.W9_v113_apply m ρ c) (Cert.KernelIdeal.KPrelude.W9_v114_apply m ρ c)
    (Cert.KernelIdeal.KMid.mu2 m ρ c) (Cert.KernelIdeal.KMid.var2 m ρ c) (Cert.KernelIdeal.KMid.gamma2 m ρ c)
    (Cert.KernelIdeal.KMid.beta2 m ρ c) (Cert.KernelIdeal.KMid.ms2 m ρ c) hA d.real9 d.real10 d.real16 r j

/-- The kernel program's run with its results at the reference's terms of the argument arrays. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v160) = val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v145) = val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun r h c =>
    ⟨(h c).1.trans (Cert.KernelIdeal.KTail.base_out m ρ c (base_h m ρ hpre c) (local_h m ρ hpre c)),
     (h c).2.1.trans (Cert.KernelIdeal.KTail.local_out m ρ c (base_h m ρ hpre c) (local_h m ρ hpre c)),
     (h c).2.2⟩)
    (Cert.KernelIdeal.KRun.run_results m ρ)

end Cert.Bridge

end
-- ==== Proof.RefRun.lean ====
import proofs.«151024_j31044023616095_2_alg».proof.Defs
import proofs.«151024_j31044023616095_2_alg».proof.Proof.Gen.KernelIdeal
import proofs.«151024_j31044023616095_2_alg».proof.Proof.Gen.ReferenceIdeal.Read

/-!
# The reference's run, over the kernel's argument arrays

The reference program, run from any memory with zero counters, terminates with each of its two
results at the composed term of its own argument arrays, and leaves the arguments unchanged. When
its seventeen argument arrays equal the kernel program's, the results are the same terms of the
kernel's argument arrays: equal arguments give equal values.
-/

set_option maxRecDepth 16384

noncomputable section

namespace Cert.RefRun

open Idealize.ShloMosaic Idealize.ShloMosaic.TcCoe Idealize.SL.Sem

/-- The reference's run with both results as terms of the kernel side's argument arrays. -/
theorem ref_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v178)
        = Cert.ReferenceIdeal.Read.val_main_v178 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
      ∧ r.2.mem ((c.tc : Thread Cert.ReferenceIdeal.nD Cert.ReferenceIdeal.τ).loc Cert.ReferenceIdeal.main_v163)
        = Cert.ReferenceIdeal.Read.val_main_v163 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run _ _ _).mono (fun r h c => by
    obtain ⟨e0, e1, e2, e3, e4, e5, e6, e7, e8, e9, e10, e11, e12, e13, e14, e15, e16⟩ := hagree c
    refine ⟨?_, ?_, (h c).2.2⟩
    · rw [(h c).1, Cert.ReferenceIdeal.Read.val_main_v178_eq, e0, e1, e2, e3, e4, e5, e6, e7, e8, e9, e10, e11, e12, e13, e14, e15, e16]
    · rw [(h c).2.1, Cert.ReferenceIdeal.Read.val_main_v163_eq, e0, e1, e2, e3, e4, e5, e6, e7, e8, e9, e10, e11, e12, e13, e14, e15, e16])
    (Cert.ReferenceIdeal.Value.run (F := Ideal) m' g')

end Cert.RefRun

end
-- ==== Proof.lean ====
/- The proof of `Cert.Claim`.
   The claim compares one graph-network layer computed two ways. On each of two graphs (a base one and a local one)
   the node features are aggregated along the edges with the coefficient `w / √(d[src] · d[dst])`, `d` the weighted
   degree corrected to `d + 1` where it is below `1/2`; the aggregate goes through a linear layer `y = a · W + b`, a
   graph normalisation `γ · (y - s μ) / √(var + ε) + β` (`μ` the column mean, `s` a learned mean scale) and a
   rectifier; the two graphs' outputs are then mixed. The kernel program computes the linear layer in blocks, keeping
   per-block partial sums of `y` and `y²`, and normalises in a second pass; the reference uses whole-array operations.
   At the extended reals the two programs are the same function of the same values except for the variance: the
   kernel's `mean(y²) - μ² (2 s - s²)` against the reference's `mean((y - s μ)²)`, equal when the entries of `y` are
   real numbers (expand the square; `∑ y = n μ`). The precondition keeps them real: every float input is finite and
   every corrected degree is positive, so the reciprocal square roots, the coefficients, the aggregates and the linear
   layer's outputs are real numbers.
   Hence: both programs run and keep their arguments (the generated frames; the reference's generated run); the
   idealization rewrote nothing, so it has nothing to preserve; and from equal arguments both runs end at the same two
   terms of the argument arrays — the kernel side through the bridge, the reference side through its generated run. -/
import proofs.«151024_j31044023616095_2_alg».proof.Defs
import proofs.«151024_j31044023616095_2_alg».proof.Proof.Gen.Kernel
import proofs.«151024_j31044023616095_2_alg».proof.Proof.Gen.Kernel.Skeleton
import proofs.«151024_j31044023616095_2_alg».proof.Proof.Gen.Kernel.Launch
import proofs.«151024_j31044023616095_2_alg».proof.Proof.Gen.Kernel.Points
import proofs.«151024_j31044023616095_2_alg».proof.Proof.Gen.Kernel.Frame
import proofs.«151024_j31044023616095_2_alg».proof.Proof.Gen.KernelIdeal
import proofs.«151024_j31044023616095_2_alg».proof.Proof.Gen.KernelIdeal.Skeleton
import proofs.«151024_j31044023616095_2_alg».proof.Proof.Gen.KernelIdeal.Launch
import proofs.«151024_j31044023616095_2_alg».proof.Proof.Gen.KernelIdeal.Points
import proofs.«151024_j31044023616095_2_alg».proof.Proof.Gen.KernelIdeal.Frame
import proofs.«151024_j31044023616095_2_alg».proof.Proof.Gen.ReferenceIdeal
import proofs.«151024_j31044023616095_2_alg».proof.Proof.Gen.Pre_finite_inputs
import proofs.«151024_j31044023616095_2_alg».proof.Proof.Gen.ReferenceIdeal.Run
import proofs.«151024_j31044023616095_2_alg».proof.Proof.Gen.ReferenceIdeal.Read
import Idealize.ShloMosaic.Adequacy
import Idealize.ShloMosaic.Init
import proofs.«151024_j31044023616095_2_alg».proof.Proof.Bridge
import proofs.«151024_j31044023616095_2_alg».proof.Proof.RefRun

noncomputable section

namespace Cert.Proof

open Idealize.ShloMosaic Idealize.SL.Sem

/-- The kernel program as printed runs and keeps its arguments: the generated frame. -/
theorem frame_k : Cert.frame_Kernel := fun m ρ _ => Cert.Kernel.Gen.frame m ρ

/-- The kernel program at the extended reals runs and keeps its arguments: the generated frame. -/
theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From equal arguments both runs end at the same two terms of the kernel side's argument arrays. -/
theorem algebraic : Cert.algebraic_KernelIdeal_ReferenceIdeal := fun m g m' g' hpre hagree =>
  ⟨_, _, Cert.Bridge.kernel_run m g hpre, Cert.RefRun.ref_run m m' g' hagree⟩

theorem claim : Cert.Claim :=
  ⟨Cert.Kernel.Gen.facts, Cert.KernelIdeal.Gen.facts, Cert.ReferenceIdeal.Gen.facts,
    Cert.Pre_finite_inputs.Gen.facts, frame_k, frame_ki, frame_ri, preserves, algebraic⟩

end Cert.Proof

end
